-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x512 : Shape := ⟨2, ![512, 512]⟩
abbrev S20000x512 : Shape := ⟨2, ![20000, 512]⟩
abbrev S20000x100 : Shape := ⟨2, ![20000, 100]⟩
abbrev S100x100 : Shape := ⟨2, ![100, 100]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S20000x512 : S_.BroadcastsInDim S20000x512 (![] : Fin 0 → Fin S20000x512.rank)
  reducesTo_S20000x512_S_d0_1 : S20000x512.ReducesTo [0, 1] S_
  bcast_S_S20000x100 : S_.BroadcastsInDim S20000x100 (![] : Fin 0 → Fin S20000x100.rank)
  reducesTo_S20000x100_S_d0_1 : S20000x100.ReducesTo [0, 1] S_
  bcast_S_S100x100 : S_.BroadcastsInDim S100x100 (![] : Fin 0 → Fin S100x100.rank)
  reducesTo_S100x100_S_d0_1 : S100x100.ReducesTo [0, 1] S_

variable [Facts]

def fn_part1 {F : FTy → Type} [FloatOps F] (main_arg4 : FVec F S100x100 .f32) (main_v13 : IVec S_ 1) (main_v16 : IVec S20000x100 1) : IVec S_ 1 :=
  let main_c_5 : IVec S_ 1 := constantI S_ 1 1#1
  let main_v17 : IVec S_ 1 := (fun x v => Host.reduce IntOp.andi x v reducesTo_S20000x100_S_d0_1 h_S_) main_v16 main_c_5
  let main_v18 : IVec S_ 1 := andi main_v13 main_v17
  let main_v19 : FVec F S100x100 .f32 := Host.absf main_arg4
  let main_cst_6 : FVec F S_ .f32 := constant S_ .f32 0x7F800000#32
  let main_v20 : FVec F S100x100 .f32 := broadcastInDim S100x100 ![] bcast_S_S100x100 main_cst_6
  let main_v21 : IVec S100x100 1 := cmpf .olt main_v19 main_v20
  let main_c_7 : IVec S_ 1 := constantI S_ 1 1#1
  let main_v22 : IVec S_ 1 := (fun x v => Host.reduce IntOp.andi x v reducesTo_S100x100_S_d0_1 h_S_) main_v21 main_c_7
  let main_v23 : IVec S_ 1 := andi main_v18 main_v22
  main_v23

def fn {F : FTy → Type} [FloatOps F] (main_arg0 : FVec F S4096x512 .f32) (main_arg1 : FVec F S512x512 .f32) (main_arg2 : FVec F S20000x512 .f32) (main_arg3 : FVec F S20000x100 .f32) (main_arg4 : FVec F S100x100 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S20000x512 .f32 := Host.absf main_arg2
  let main_cst_2 : FVec F S_ .f32 := constant S_ .f32 0x7F800000#32
  let main_v10 : FVec F S20000x512 .f32 := broadcastInDim S20000x512 ![] bcast_S_S20000x512 main_cst_2
  let main_v11 : IVec S20000x512 1 := cmpf .olt main_v9 main_v10
  let main_c_3 : IVec S_ 1 := constantI S_ 1 1#1
  let main_v12 : IVec S_ 1 := (fun x v => Host.reduce IntOp.andi x v reducesTo_S20000x512_S_d0_1 h_S_) main_v11 main_c_3
  let main_v13 : IVec S_ 1 := andi main_v8 main_v12
  let main_v14 : FVec F S20000x100 .f32 := Host.absf main_arg3
  let main_cst_4 : FVec F S_ .f32 := constant S_ .f32 0x7F800000#32
  let main_v15 : FVec F S20000x100 .f32 := broadcastInDim S20000x100 ![] bcast_S_S20000x100 main_cst_4
  let main_v16 : IVec S20000x100 1 := cmpf .olt main_v14 main_v15
  fn_part1 (F := F) main_arg4 main_v13 main_v16
-- ==== Kernel.lean ====
abbrev S4096x512 : Shape := ⟨2, ![4096, 512]⟩
abbrev S512x512 : Shape := ⟨2, ![512, 512]⟩
abbrev S20000x512 : Shape := ⟨2, ![20000, 512]⟩
abbrev S20000x100 : Shape := ⟨2, ![20000, 100]⟩
abbrev S100x100 : Shape := ⟨2, ![100, 100]⟩
abbrev S_ : Shape := ⟨0, ![]⟩
abbrev S20480x512 : Shape := ⟨2, ![20480, 512]⟩
abbrev S20480x100 : Shape := ⟨2, ![20480, 100]⟩
abbrev S20480 : Shape := ⟨1, ![20480]⟩
abbrev S20480x1 : Shape := ⟨2, ![20480, 1]⟩
abbrev S20480x128 : Shape := ⟨2, ![20480, 128]⟩
abbrev S512 : Shape := ⟨1, ![512]⟩
abbrev S512x1 : Shape := ⟨2, ![512, 1]⟩
abbrev S1024x512 : Shape := ⟨2, ![1024, 512]⟩
abbrev S1024 : Shape := ⟨1, ![1024]⟩
abbrev S1024x1 : Shape := ⟨2, ![1024, 1]⟩
abbrev S4096x128 : Shape := ⟨2, ![4096, 128]⟩
abbrev S1024x128 : Shape := ⟨2, ![1024, 128]⟩
abbrev S512x1024 : Shape := ⟨2, ![512, 1024]⟩
abbrev S1024x1024 : Shape := ⟨2, ![1024, 1024]⟩
abbrev S4096x100 : Shape := ⟨2, ![4096, 100]⟩

abbrev nBuf : Space → Nat
  | .hbm => 29
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S20000x512, .f32⟩
  | .hbm, ⟨3, _⟩ => ⟨S20000x100, .f32⟩
  | .hbm, ⟨4, _⟩ => ⟨S100x100, .f32⟩
  | .hbm, ⟨5, _⟩ => ⟨S_, .i32⟩
  | .hbm, ⟨6, _⟩ => ⟨S_, .f32⟩
  | .hbm, ⟨7, _⟩ => ⟨S20480x512, .f32⟩
  | .hbm, ⟨8, _⟩ => ⟨S_, .i32⟩
  | .hbm, ⟨9, _⟩ => ⟨S_, .f32⟩
  | .hbm, ⟨10, _⟩ => ⟨S20480x100, .f32⟩
  | .hbm, ⟨11, _⟩ => ⟨S20480x100, .f32⟩
  | .hbm, ⟨12, _⟩ => ⟨S_, .f32⟩
  | .hbm, ⟨13, _⟩ => ⟨S20480, .f32⟩
  | .hbm, ⟨14, _⟩ => ⟨S20480x1, .f32⟩
  | .hbm, ⟨15, _⟩ => ⟨S_, .f32⟩
  | .hbm, ⟨16, _⟩ => ⟨S20480x1, .f32⟩
  | .hbm, ⟨17, _⟩ => ⟨S20480x1, .f32⟩
  | .hbm, ⟨18, _⟩ => ⟨S20480x100, .f32⟩
  | .hbm, ⟨19, _⟩ => ⟨S20480x100, .f32⟩
  | .hbm, ⟨20, _⟩ => ⟨S20480x100, .f32⟩
  | .hbm, ⟨21, _⟩ => ⟨S_, .i32⟩
  | .hbm, ⟨22, _⟩ => ⟨S_, .f32⟩
  | .hbm, ⟨23, _⟩ => ⟨S20480x128, .f32⟩
  | .hbm, ⟨24, _⟩ => ⟨S20480x128, .bf16⟩
  | .hbm, ⟨25, _⟩ => ⟨S4096x512, .bf16⟩
  | .hbm, ⟨26, _⟩ => ⟨S20480x512, .bf16⟩
  | .hbm, ⟨27, _⟩ => ⟨S4096x128, .f32⟩
  | .hbm, ⟨28, _⟩ => ⟨S4096x100, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .bf16⟩
  | .local _ .vmem, ⟨4, _⟩ => ⟨S512x512, .bf16⟩
  | .local _ .vmem, ⟨5, _⟩ => ⟨S1024x512, .f32⟩
  | .local _ .vmem, ⟨6, _⟩ => ⟨S1024x512, .f32⟩
  | .local _ .vmem, ⟨7, _⟩ => ⟨S512x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | .local _ .vmem, ⟨18, _⟩ => ⟨S1024x1, .f32⟩
  | .local _ .vmem, ⟨19, _⟩ => ⟨S1024x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call2_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_scratch0 : Ref sig .tc := ⟨.vmem, 18, rfl⟩
abbrev cc2_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 20], ![false, false]⟩

def k2_cond2 (i : grid2.Coords) : BitVec 1 :=
  let arg1 : BitVec 32 := BitVec.ofNat 32 (i 1).val
  let c19_i32 : BitVec 32 := 19#32
  let v28 : BitVec 1 := Scalar.cmpi .eq arg1 c19_i32
  let v29 : BitVec 32 := Scalar.extui v28
  let c0_i32_16 : BitVec 32 := 0#32
  let v30 : BitVec 1 := Scalar.cmpi .ne v29 c0_i32_16
  v30

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  pads_S20000x512_S20480x512_04800_000 : S20000x512.Pads (![0, 0] : Fin 2 → Nat) ![480, 0] ![0, 0] S20480x512
  h_S_ : 0 < S_.numel
  pads_S20000x100_S20480x100_04800_000 : S20000x100.Pads (![0, 0] : Fin 2 → Nat) ![480, 0] ![0, 0] S20480x100
  reducesTo_S20480x100_S20480_d1 : S20480x100.ReducesTo [1] S20480
  bcast_S20480_S20480x1_0 : S20480.BroadcastsInDim S20480x1 (![0] : Fin 1 → Fin S20480x1.rank)
  bcast_S_S20480x1 : S_.BroadcastsInDim S20480x1 (![] : Fin 0 → Fin S20480x1.rank)
  bcast_S20480x1_S20480x100_0_1 : S20480x1.BroadcastsInDim S20480x100 (![0, 1] : Fin 2 → Fin S20480x100.rank)
  pads_S20480x100_S20480x128_000_0280 : S20480x100.Pads (![0, 0] : Fin 2 → Nat) ![0, 28] ![0, 0] S20480x128
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  reduces_S512x512_S512 : S512x512.Reduces [1] S512
  shapeCasts_S512_S512x1 : S512.ShapeCasts S512x1
  broadcasts_S512x1_S512x512 : S512x1.Broadcasts S512x512
  packedbf16_S512x512_S512x512_0_0 : (Rect.unit (s := S512x512) ![0, 0] S512x512.size inb_S512x512_S512x512_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x512_p1_0_S512x1024 : S1024x512.Transposes [1, 0] S512x1024
  reduces_S1024x1024_S1024 : S1024x1024.Reduces [1] S1024
  broadcasts_S1024x1_S1024x128 : S1024x1.Broadcasts S1024x128
  slices_S4096x128_S4096x100_0_0 : S4096x128.Slices ![0, 0] S4096x100
  dot_S20480x100_S100x100_S20480x100_1_0_0_1_n_n_wf : DotDims.WF S20480x100 S100x100 S20480x100 [1] [0] [0] [1] [] []
  dot_S512x512_S512x512_S512x512_1_0_0_1_n_n_wf : DotDims.WF S512x512 S512x512 S512x512 [1] [0] [0] [1] [] []
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .bf16 = 32 ∨ (Rect.block (s := S4096x512) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S20480x512.size a
  hwx1_0 : ∀ i : grid1.Coords, EltTy.bits .f32 = 32 ∨ (Rect.block (s := S20480x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S20480x512.size a
  hwx1_2 : ∀ i : grid1.Coords, EltTy.bits .bf16 = 32 ∨ (Rect.block (s := S20480x512) S1024x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x512.size a
  hwx2_0 : ∀ i : grid2.Coords, EltTy.bits .bf16 = 32 ∨ (Rect.block (s := S4096x512) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S20480x512.size a
  hwx2_1 : ∀ i : grid2.Coords, EltTy.bits .bf16 = 32 ∨ (Rect.block (s := S20480x512) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S20480x128.size a
  hwx2_2 : ∀ i : grid2.Coords, EltTy.bits .bf16 = 32 ∨ (Rect.block (s := S20480x128) S1024x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S4096x128.size a
  hwx2_3 : ∀ i : grid2.Coords, EltTy.bits .f32 = 32 ∨ (Rect.block (s := S4096x128) S1024x128.size (cc2_transform_3 i) (hinb2_3 i)).WholeWords (EltTy.packing .f32)

variable [Facts₀]

def dot_S20480x100_S100x100_S20480x100_1_0_0_1_n_n : DotDims S20480x100 S100x100 S20480x100 where
  lhsContracting := [1]
  rhsContracting := [0]
  lhsNonContracting := [0]
  rhsNonContracting := [1]
  lhsBatch := []
  rhsBatch := []
  wf := dot_S20480x100_S100x100_S20480x100_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S512x512 : Shape := ⟨2, ![512, 512]⟩
abbrev S20000x512 : Shape := ⟨2, ![20000, 512]⟩
abbrev S20000x100 : Shape := ⟨2, ![20000, 100]⟩
abbrev S100x100 : Shape := ⟨2, ![100, 100]⟩
abbrev S_ : Shape := ⟨0, ![]⟩
abbrev S20000 : Shape := ⟨1, ![20000]⟩
abbrev S20000x1 : Shape := ⟨2, ![20000, 1]⟩
abbrev S4096 : Shape := ⟨1, ![4096]⟩
abbrev S4096x1 : Shape := ⟨2, ![4096, 1]⟩
abbrev S512x20000 : Shape := ⟨2, ![512, 20000]⟩
abbrev S4096x20000 : Shape := ⟨2, ![4096, 20000]⟩
abbrev S4096x100 : Shape := ⟨2, ![4096, 100]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S20000x512, .f32⟩
  | .hbm, ⟨3, _⟩ => ⟨S20000x100, .f32⟩
  | .hbm, ⟨4, _⟩ => ⟨S100x100, .f32⟩
  | .hbm, ⟨5, _⟩ => ⟨S512x512, .f32⟩
  | .hbm, ⟨6, _⟩ => ⟨S4096x512, .f32⟩
  | .hbm, ⟨7, _⟩ => ⟨S512x512, .f32⟩
  | .hbm, ⟨8, _⟩ => ⟨S20000x512, .f32⟩
  | .hbm, ⟨9, _⟩ => ⟨S20000x100, .f32⟩
  | .hbm, ⟨10, _⟩ => ⟨S_, .f32⟩
  | .hbm, ⟨11, _⟩ => ⟨S20000, .f32⟩
  | .hbm, ⟨12, _⟩ => ⟨S20000x1, .f32⟩
  | .hbm, ⟨13, _⟩ => ⟨S_, .f32⟩
  | .hbm, ⟨14, _⟩ => ⟨S20000x1, .f32⟩
  | .hbm, ⟨15, _⟩ => ⟨S20000x1, .f32⟩
  | .hbm, ⟨16, _⟩ => ⟨S20000x100, .f32⟩
  | .hbm, ⟨17, _⟩ => ⟨S20000x100, .f32⟩
  | .hbm, ⟨18, _⟩ => ⟨S20000x100, .f32⟩
  | .hbm, ⟨19, _⟩ => ⟨S4096x512, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x512, .f32⟩
  | .hbm, ⟨28, _⟩ => ⟨S4096x512, .f32⟩
  | .hbm, ⟨29, _⟩ => ⟨S20000x512, .f32⟩
  | .hbm, ⟨30, _⟩ => ⟨S_, .f32⟩
  | .hbm, ⟨31, _⟩ => ⟨S20000, .f32⟩
  | .hbm, ⟨32, _⟩ => ⟨S20000x1, .f32⟩
  | .hbm, ⟨33, _⟩ => ⟨S20000x1, .f32⟩
  | .hbm, ⟨34, _⟩ => ⟨S_, .f32⟩
  | .hbm, ⟨35, _⟩ => ⟨S20000x1, .f32⟩
  | .hbm, ⟨36, _⟩ => ⟨S20000x1, .f32⟩
  | .hbm, ⟨37, _⟩ => ⟨S20000x512, .f32⟩
  | .hbm, ⟨38, _⟩ => ⟨S20000x512, .f32⟩
  | .hbm, ⟨39, _⟩ => ⟨S512x20000, .f32⟩
  | .hbm, ⟨40, _⟩ => ⟨S4096x20000, .f32⟩
  | .hbm, ⟨41, _⟩ => ⟨S4096x20000, .f32⟩
  | .hbm, ⟨42, _⟩ => ⟨S4096x20000, .f32⟩
  | .hbm, ⟨43, _⟩ => ⟨S_, .f32⟩
  | .hbm, ⟨44, _⟩ => ⟨S4096x20000, .f32⟩
  | .hbm, ⟨45, _⟩ => ⟨S4096x20000, .f32⟩
  | .hbm, ⟨46, _⟩ => ⟨S4096x20000, .f32⟩
  | .hbm, ⟨47, _⟩ => ⟨S4096x20000, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x20000, .f32⟩
  | .hbm, ⟨55, _⟩ => ⟨S4096x20000, .f32⟩
  | .hbm, ⟨56, _⟩ => ⟨S4096x100, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]

class Facts₀ : Prop where
  transposes_S512x512_S512x512_1_0 : S512x512.Transposes [1, 0] S512x512
  reducesTo_S20000x100_S20000_d1 : S20000x100.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x100_0_1 : S20000x1.BroadcastsInDim S20000x100 (![0, 1] : Fin 2 → Fin S20000x100.rank)
  reducesTo_S4096x512_S4096_d1 : S4096x512.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S20000x512_S20000_d1 : S20000x512.ReducesTo [1] S20000
  bcast_S20000x1_S20000x512_0_1 : S20000x1.BroadcastsInDim S20000x512 (![0, 1] : Fin 2 → Fin S20000x512.rank)
  transposes_S20000x512_S512x20000_1_0 : S20000x512.Transposes [1, 0] S512x20000
  bcast_S_S4096x20000 : S_.BroadcastsInDim S4096x20000 (![] : Fin 0 → Fin S4096x20000.rank)
  reducesTo_S4096x20000_S4096_d1 : S4096x20000.ReducesTo [1] S4096
  bcast_S4096x1_S4096x20000_0_1 : S4096x1.BroadcastsInDim S4096x20000 (![0, 1] : Fin 2 → Fin S4096x20000.rank)
  dot_S4096x512_S512x512_S4096x512_1_0_0_1_n_n_wf : DotDims.WF S4096x512 S512x512 S4096x512 [1] [0] [0] [1] [] []
  dot_S20000x512_S512x512_S20000x512_1_0_0_1_n_n_wf : DotDims.WF S20000x512 S512x512 S20000x512 [1] [0] [0] [1] [] []
  dot_S20000x100_S100x100_S20000x100_1_0_0_1_n_n_wf : DotDims.WF S20000x100 S100x100 S20000x100 [1] [0] [0] [1] [] []
  dot_S4096x512_S512x20000_S4096x20000_1_0_0_1_n_n_wf : DotDims.WF S4096x512 S512x20000 S4096x20000 [1] [0] [0] [1] [] []
  dot_S4096x20000_S20000x100_S4096x100_1_0_0_1_n_n_wf : DotDims.WF S4096x20000 S20000x100 S4096x100 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def dot_S20000x100_S100x100_S20000x100_1_0_0_1_n_n : DotDims S20000x100 S100x100 S20000x100 where
  lhsContracting := [1]
  rhsContracting := [0]
  lhsNonContracting := [0]
  rhsNonContracting := [1]
  lhsBatch := []
  rhsBatch := []
  wf := dot_S20000x100_S100x100_S20000x100_1_0_0_1_n_n_wf
def dot_S4096x512_S512x20000_S4096x20000_1_0_0_1_n_n : DotDims S4096x512 S512x20000 S4096x20000 where
  lhsContracting := [1]
  rhsContracting := [0]
  lhsNonContracting := [0]
  rhsNonContracting := [1]
  lhsBatch := []
  rhsBatch := []
  wf := dot_S4096x512_S512x20000_S4096x20000_1_0_0_1_n_n_wf
def dot_S4096x20000_S20000x100_S4096x100_1_0_0_1_n_n : DotDims S4096x20000 S20000x100 S4096x100 where
  lhsContracting := [1]
  rhsContracting := [0]
  lhsNonContracting := [0]
  rhsNonContracting := [1]
  lhsBatch := []
  rhsBatch := []
  wf := dot_S4096x20000_S20000x100_S4096x100_1_0_0_1_n_n_wf

class Facts : Prop extends Facts₀ where

variable [Facts]
-- ==== Proof.LibRegionRecord.lean ====
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

/-!
# A kernel region's segment record over the thread state "every unscoped buffer at a valuation"

For a program whose @main is host stretches and kernel regions, the thread state between two segments is: every unscoped
TensorCore buffer of the core, whole, at a valuation; the core's generator register at some state; the core owing
nothing. This file builds, once and for any pipeline, the segment record of a kernel region over that thread state:
the region is entered at a valuation W and left at a valuation W' that holds the pipeline's arrays at what the
write-backs leave and agrees with W elsewhere. The pipeline may read prefetched tables: they are unscoped buffers, they
hold the admissible contents at W, they pass through the region's invariant whole and are put back at the exit.
-/

noncomputable section

namespace RegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

/-- A valuation of the device's references read at the TensorCore's references of core c. -/
abbrev tcVal (W : Dev nD → Valuation τ sig Val) (c : Dev nD) (b : Ref sig .tc) : Buf Val ((c : Thread nD τ).loc b) :=
  W c (Proc.devRef .tc b)

/-- What rides beside the buffers through every segment: the core's generator register at some state, and the core
    owing nothing. -/
abbrev rider (c : Dev nD) : sProp 𝕄 :=
  iprop((∃ r, prngReg c r) ∗ ∃ Wo, owes (c : Thread nD τ) (0 : CellTallies nD τ sig Unit) Wo)

/-- The thread state: every unscoped buffer of core c whole at the valuation, beside the rider. -/
abbrev threadState (W : Dev nD → Valuation τ sig Val) (c : Dev nD) : sProp 𝕄 :=
  iprop(StableHlo.held (c : Thread nD τ) (Pipeline.ucRefs τ sig) (W c) ∗ rider (U := U) (Val := Val) c)

section Record

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)

-- the library's lemmas are stated over the pinned pipeline `pin pcs a p`; matching it against the family's member takes
-- unfolding plain definitions inside a metavariable's type
set_option backward.isDefEq.respectTransparency.types false in
/-- The segment record of kernel region p between the valuations W and W'. The proof data lend whole shares and owe
    nothing; their entry arrays are read off W; the tables hold the admissible contents at W; W' has the arrays at what
    the write-backs leave and is W elsewhere; the class invariant and the whole tables yield the data's invariant
    before the first point and are yielded back after the last. -/
def regionSeg
    (hbody : ∀ c, BodyObligationLoose (pdats p c) defs₀ 𝒱₀ () Set.univ)
    (hshare : ∀ c w, (pdats p c).share w = fullShare) (howed : ∀ c t, (pdats p c).owed t = 0)
    (hrec : ∀ c, (pdats p c).recorded 0 = Set.univ)
    (hA : ∀ c w, (pdats p c).A w = tcVal W c (arrRef (pin pcs a p).spec w))
    (hpf : ∀ c k, tcVal W c ((pcs p).pre.ref k) = (a p).1 k)
    (hF : ∀ c w, (pdats p c).arrAt w (pin pcs a p).N = tcVal W' c (arrRef (pin pcs a p).spec w))
    (hrest : ∀ c b, b ∉ Finset.univ.image (arrRef (pin pcs a p).spec) → tcVal W' c b = tcVal W c b)
    (hin : ∀ c, iprop(ΦA (U := U) (pin pcs a p).spec c ∗ prefHeld (Ix := Unit) (Name := ℕ) (U := U) (Lvl := ℕ) (pcs p).pre c (fun _ => fullShare) (a p).1) ⊢ (pdats p c).Φ 0)
    (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1)) :
    RegionSeg pcs a pdats () defs₀ 𝒱₀ (fun _ => ∅) (fun _ _ => 0) p where
  win := kit.win.to₀
  block_pos := kit.block_pos
  stage_whole := kit.stage_whole
  K := PEmpty
  osem k := k.elim
  ho := OwnSemFacts.none _
  hbody := hbody
  hwaits := hwaits_of_owed_zero _ _ _ _ _ _ p howed
  pre c := threadState W c
  post c := threadState W' c
  X c := iprop(∃ r, prngReg c r)
  Y c := iprop((∃ r, prngReg c r) ∗ prefHeld (Ix := Unit) (Name := ℕ) (U := U) (Lvl := ℕ) (pcs p).pre c (fun _ => fullShare) (a p).1)
  Z c := unscopedRestP (Ix := Unit) (Name := ℕ) (U := U) (Lvl := ℕ) (pcs p).pre (pin pcs a p).spec c (tcVal W c)
  hentry c := by
    rw [ownSems0_none]
    have hsplit := arrays_of_unscopedBufs (p := p) pcs a pdats kit.win kit.arr_whole c (hshare c) (tcVal W c) (hA c)
    rw [unscopedBufs_held, unscopedRest_split kit.pre c (tcVal W c),
      show (fun k => tcVal W c ((pcs p).pre.ref k)) = (a p).1 from funext (hpf c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Dat.owesAt owesWithin
      rw [howed c 0]
      icases HO with ⟨%Wo, HO⟩; iexists Wo; isplitr
      · ipureintro; exact fun x _ => Or.inl (by rw [hrec c]; trivial)
      iexact HO
    isplitl [Hp]; · iexact Hp
    iexact Hrest
  hin c := by
    refine BIBase.Entails.trans ?_ (hin c)
    unfold ΦA
    iintro ⟨Hp, Ht, Hr⟩
    isplitr [Ht]
    · isplitl [Hr] <;> iassumption
    · iexact Ht
  hout c := by
    refine (hout c).trans ?_
    rw [ownSems0_none]; unfold ΦA
    iintro ⟨⟨Hr, Hp⟩, Ht⟩
    isplitl [Hp Ht]
    · isplitl [Hp] <;> iassumption
    isplitr; · iempintro
    iexact Hr
  hexit c := by
    have hjoin := unscopedBufs_of_arrays (p := p) pcs a (Ix := Unit) (Name := ℕ) (U := U) (Lvl := ℕ)
      kit.win kit.arr_whole c pdats (hshare c) (tcVal W c) (tcVal W' c) ((pdats p c).arrAt · (pin pcs a p).N) (hF c) (hrest c)
    rw [unscopedBufs_held, unscopedRest_split kit.pre c (tcVal W c),
      show (fun k => tcVal W c ((pcs p).pre.ref k)) = (a p).1 from funext (hpf c)] at hjoin
    iintro ⟨Ha, HO, ⟨HY, Ht⟩, Hrest⟩
    imodintro
    isplitl [Ha Ht Hrest]
    · iapply hjoin
      isplitl [Ha]; · iexact Ha
      isplitl [Ht] <;> iassumption
    isplitl [HY]; · iexact HY
    unfold Dat.owesAt owesWithin
    rw [howed c (Fin.last _)]
    icases HO with ⟨%Wo, -, HO⟩; iexists Wo; iexact HO

end Record

section Ends

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)
  (hbody : ∀ c, BodyObligationLoose (pdats p c) defs₀ 𝒱₀ () Set.univ)
  (hshare : ∀ c w, (pdats p c).share w = fullShare) (howed : ∀ c t, (pdats p c).owed t = 0)
  (hrec : ∀ c, (pdats p c).recorded 0 = Set.univ)
  (hA : ∀ c w, (pdats p c).A w = tcVal W c (arrRef (pin pcs a p).spec w))
  (hpf : ∀ c k, tcVal W c ((pcs p).pre.ref k) = (a p).1 k)
  (hF : ∀ c w, (pdats p c).arrAt w (pin pcs a p).N = tcVal W' c (arrRef (pin pcs a p).spec w))
  (hrest : ∀ c b, b ∉ Finset.univ.image (arrRef (pin pcs a p).spec) → tcVal W' c b = tcVal W c b)
  (hin : ∀ c, iprop(ΦA (U := U) (pin pcs a p).spec c ∗ prefHeld (Ix := Unit) (Name := ℕ) (U := U) (Lvl := ℕ) (pcs p).pre c (fun _ => fullShare) (a p).1) ⊢ (pdats p c).Φ 0)
  (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1))

/-- The record is entered from the thread state at W … -/
theorem regionSeg_pre (c : Dev nD) :
    (regionSeg pcs a pdats p kit defs₀ 𝒱₀ W W' hbody hshare howed hrec hA hpf hF hrest hin hout).pre c = threadState W c := rfl

/-- … and left at the thread state at W'. -/
theorem regionSeg_post (c : Dev nD) :
    (regionSeg pcs a pdats p kit defs₀ 𝒱₀ W W' hbody hshare howed hrec hA hpf hF hrest hin hout).post c = threadState W' c := rfl

end Ends

end RegionRecord

end
-- ==== Proof.LaunchK.lean ====
import proofs.«146975_j56152402427977_2_alg».proof.Proof.Gen.Kernel.Regions
import proofs.«146975_j56152402427977_2_alg».proof.Proof.LibRegionRecord
import Idealize.ShloMosaic.Lib.Pipeline.Kit

/-!
# The launch of a program of three kernel regions, given the regions' segment records

@main is host stretches, three kernel regions and one last host operation. Between two items every core holds each
unscoped buffer whole at a valuation, beside its generator register at some state and the core owing nothing. Given
one segment record per region, entered from that thread state at the valuation before the region and left at the one
after it, every weakly fair execution of @main terminates and every final memory holds the result buffer at the last
valuation and each argument as launched.
-/

noncomputable section

namespace Cert.Kernel.Launch

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The rider ends owing nothing: the generator register is let go. -/
theorem rider_owes {U : Type} [URA U] (c : Dev nD) :
    (RegionRecord.rider (U := U) (Val := Elt F) c : sProp (MT nD τ sig Unit (Elt F) ℕ U ℕ))
      ⊢ iprop(∃ W, owes (c : Thread nD τ) (0 : CellTallies nD τ sig Unit) W) := by
  iintro ⟨-, HO⟩
  iexact HO

-- the launch theorem's implicit arguments are found by unifying its conclusion with this one, which takes unfolding
-- plain definitions in a metavariable's type
set_option backward.isDefEq.respectTransparency.types false in
/-- The launch over any user algebra whose launch element yields the pipeline library's: given the three regions'
    records between the thread states at the valuations around them, @main terminates and the final memory holds the
    result buffer at the last valuation and every argument as launched. -/
theorem frame_val_of
    {U : Type} [URA U]
    (EP : Emb (URounds (GSem nD τ sig) Unit) (MT nD τ sig Unit (Elt F) ℕ U ℕ)) [EP.LandsIn (upEmb : UEmb _ (MT nD τ sig Unit (Elt F) ℕ U ℕ))]
    (u₀ : U)
    (hu₀ : (ownU u₀ : sProp (MT nD τ sig Unit (Elt F) ℕ U ℕ)) ⊢ |={Set.univ}=> iprop(BI.own (EP (initOf (Pipeline.cells cfgs cellOf_inj) (Pipeline.launchToks cfgs cellOf_inj))) ∗ bigSep Finset.univ fun _ : Dev nD => (iprop(emp) : sProp (MT nD τ sig Unit (Elt F) ℕ U ℕ))))
    (m : (ℓ : Loc nD τ sig) → Buf (Elt F) ℓ) (ρ : Dev nD → PrngReg) (outs : Outs (F := F)) (𝒱₀ : Variants)
    (pdats : (p : Fin 3) → (c : Dev nD) → Dat τ (Elt F) Unit ℕ U ℕ (cfgs p) c)
    (R0 : RegionSeg (pcfgs (F := F)) adm pdats () defs₀ 𝒱₀ (fun _ => ∅) (fun _ _ => 0) 0)
    (hpre0 : ∀ c : Dev nD, R0.pre c = RegionRecord.threadState (fun c => V7 m c) c)
    (hpost0 : ∀ c : Dev nD, R0.post c = RegionRecord.threadState (fun c => V8 m outs c) c)
    (R1 : RegionSeg (pcfgs (F := F)) adm pdats () defs₀ 𝒱₀ (fun _ => ∅) (fun _ _ => 0) 1)
    (hpre1 : ∀ c : Dev nD, R1.pre c = RegionRecord.threadState (fun c => V8 m outs c) c)
    (hpost1 : ∀ c : Dev nD, R1.post c = RegionRecord.threadState (fun c => V9 m outs c) c)
    (R2 : RegionSeg (pcfgs (F := F)) adm pdats () defs₀ 𝒱₀ (fun _ => ∅) (fun _ _ => 0) 2)
    (hpre2 : ∀ c : Dev nD, R2.pre c = RegionRecord.threadState (fun c => V9 m outs c) c)
    (hpost2 : ∀ c : Dev nD, R2.post c = RegionRecord.threadState (fun c => V10 m outs c) c) :
    θ_run defs (onTc (τ := τ) (main (F := F))) ⟨m, fun _ => 0, ρ⟩ (fun r => ∀ c : Dev nD,
      r.2.mem ((c.tc : Thread nD τ).loc main_v15) = V11 m outs c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats () cellOf_inj EP defs₀ 𝒱₀ (fun _ => ∅) (fun _ _ => 0) m ρ main
    (segs m outs 𝒱₀ (fun _ => ∅) (fun _ _ => 0) (fun _ c => RegionRecord.rider c) () pdats R0 R1 R2)
    (fun c Q => by
      rewrite [main_chain c, Seg.run_eq_chain,
        show (segs m outs 𝒱₀ (fun _ => ∅) (fun _ _ => 0) (fun _ c => RegionRecord.rider c) () pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide) (O₀ := 0) (fun _ _ => rfl)
    (G := fun _ => iprop(emp)) u₀ hu₀
    (T₀ := fun c => iprop(StableHlo.held (c : Thread nD τ) (Pipeline.ucRefs τ sig) (V0 m c) ∗ RegionRecord.rider c))
    (Tₙ := fun c => StableHlo.held (c : Thread nD τ) (Pipeline.ucRefs τ sig) (V11 m outs c))
    (hch := fun c => ⟨.rfl, .rfl, .rfl, .rfl, .rfl, .rfl, .rfl,
      Entails.of_eq (hpre0 c).symm,
      (Entails.of_eq (hpost0 c)).trans (Entails.of_eq (hpre1 c).symm),
      (Entails.of_eq (hpost1 c)).trans (Entails.of_eq (hpre2 c).symm),
      Entails.of_eq (hpost2 c),
      sep_mono .rfl (rider_owes c)⟩)
    (hinit := ?_) (QY := fun c s => s.mem ((c.tc : Thread nD τ).loc main_v15) = V11 m outs c main_v15 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are held at the launch contents; the register and the dues make the rider
    refine Pipeline.initEach (fun _ => ∅) (fun _ _ => 0) fun c => ?_
    rw [show unscopedBufs c (fun b => m ((c.tc : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: each buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v15) (Finset.mem_filter.mpr ⟨StableHlo.devRef_mem_tcRefs main_v15, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c)⟩
    · iexact HSI

/-- The pipeline library's launch element, in the algebra that is the library's own, yields itself and nothing else. -/
theorem own_launch :
    (ownU (initOf (Pipeline.cells cfgs cellOf_inj) (Pipeline.launchToks cfgs cellOf_inj)) : sProp (MT nD τ sig Unit (Elt F) ℕ (UR sig nD τ) ℕ))
      ⊢ |={Set.univ}=> iprop(BI.own ((emb₁ : Emb (UR sig nD τ) (MT nD τ sig Unit (Elt F) ℕ (UR sig nD τ) ℕ)) (initOf (Pipeline.cells cfgs cellOf_inj) (Pipeline.launchToks cfgs cellOf_inj)))
          ∗ bigSep Finset.univ fun _ : Dev nD => (iprop(emp) : sProp (MT nD τ sig Unit (Elt F) ℕ (UR sig nD τ) ℕ))) := by
  rw [ownU_emb₁]
  iintro HP
  imodintro
  isplitl [HP]; · iexact HP
  iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
  iempintro

/-- The launch at the pipeline library's own algebra. -/
theorem frame_val
    (m : (ℓ : Loc nD τ sig) → Buf (Elt F) ℓ) (ρ : Dev nD → PrngReg) (outs : Outs (F := F)) (𝒱₀ : Variants)
    (pdats : (p : Fin 3) → (c : Dev nD) → Dat τ (Elt F) Unit ℕ (UR sig nD τ) ℕ (cfgs p) c)
    (R0 : RegionSeg (pcfgs (F := F)) adm pdats () defs₀ 𝒱₀ (fun _ => ∅) (fun _ _ => 0) 0)
    (hpre0 : ∀ c : Dev nD, R0.pre c = RegionRecord.threadState (fun c => V7 m c) c)
    (hpost0 : ∀ c : Dev nD, R0.post c = RegionRecord.threadState (fun c => V8 m outs c) c)
    (R1 : RegionSeg (pcfgs (F := F)) adm pdats () defs₀ 𝒱₀ (fun _ => ∅) (fun _ _ => 0) 1)
    (hpre1 : ∀ c : Dev nD, R1.pre c = RegionRecord.threadState (fun c => V8 m outs c) c)
    (hpost1 : ∀ c : Dev nD, R1.post c = RegionRecord.threadState (fun c => V9 m outs c) c)
    (R2 : RegionSeg (pcfgs (F := F)) adm pdats () defs₀ 𝒱₀ (fun _ => ∅) (fun _ _ => 0) 2)
    (hpre2 : ∀ c : Dev nD, R2.pre c = RegionRecord.threadState (fun c => V9 m outs c) c)
    (hpost2 : ∀ c : Dev nD, R2.post c = RegionRecord.threadState (fun c => V10 m outs c) c) :
    θ_run defs (onTc (τ := τ) (main (F := F))) ⟨m, fun _ => 0, ρ⟩ (fun r => ∀ c : Dev nD,
      r.2.mem ((c.tc : Thread nD τ).loc main_v15) = V11 m outs c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_val_of emb₁ _ own_launch m ρ outs 𝒱₀ pdats R0 hpre0 hpost0 R1 hpre1 hpost1 R2 hpre2 hpost2

set_option backward.isDefEq.respectTransparency.types false in
/-- The arguments' part alone, as the generated conditional frame gives it at the rider for every rest state. -/
theorem frame_only_of
    {U : Type} [URA U]
    (EP : Emb (URounds (GSem nD τ sig) Unit) (MT nD τ sig Unit (Elt F) ℕ U ℕ)) [EP.LandsIn (upEmb : UEmb _ (MT nD τ sig Unit (Elt F) ℕ U ℕ))]
    (u₀ : U)
    (hu₀ : (ownU u₀ : sProp (MT nD τ sig Unit (Elt F) ℕ U ℕ)) ⊢ |={Set.univ}=> iprop(BI.own (EP (initOf (Pipeline.cells cfgs cellOf_inj) (Pipeline.launchToks cfgs cellOf_inj))) ∗ bigSep Finset.univ fun _ : Dev nD => (iprop(emp) : sProp (MT nD τ sig Unit (Elt F) ℕ U ℕ))))
    (m : (ℓ : Loc nD τ sig) → Buf (Elt F) ℓ) (ρ : Dev nD → PrngReg) (outs : Outs (F := F)) (𝒱₀ : Variants)
    (pdats : (p : Fin 3) → (c : Dev nD) → Dat τ (Elt F) Unit ℕ U ℕ (cfgs p) c)
    (R0 : RegionSeg (pcfgs (F := F)) adm pdats () defs₀ 𝒱₀ (fun _ => ∅) (fun _ _ => 0) 0)
    (hpre0 : ∀ c : Dev nD, R0.pre c = RegionRecord.threadState (fun c => V7 m c) c)
    (hpost0 : ∀ c : Dev nD, R0.post c = RegionRecord.threadState (fun c => V8 m outs c) c)
    (R1 : RegionSeg (pcfgs (F := F)) adm pdats () defs₀ 𝒱₀ (fun _ => ∅) (fun _ _ => 0) 1)
    (hpre1 : ∀ c : Dev nD, R1.pre c = RegionRecord.threadState (fun c => V8 m outs c) c)
    (hpost1 : ∀ c : Dev nD, R1.post c = RegionRecord.threadState (fun c => V9 m outs c) c)
    (R2 : RegionSeg (pcfgs (F := F)) adm pdats () defs₀ 𝒱₀ (fun _ => ∅) (fun _ _ => 0) 2)
    (hpre2 : ∀ c : Dev nD, R2.pre c = RegionRecord.threadState (fun c => V9 m outs c) c)
    (hpost2 : ∀ c : Dev nD, R2.post c = RegionRecord.threadState (fun c => V10 m outs c) c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine frame_cond m EP () 𝒱₀ (fun _ => ∅) (fun _ _ => 0) (fun _ _ => rfl) ρ outs pdats 0 (fun _ => iprop(emp)) u₀ hu₀
    (fun _ c => RegionRecord.rider c) ?_ (fun c => rider_owes c)
    R0 (fun c => Entails.of_eq (hpre0 c).symm) (fun c => Entails.of_eq (hpost0 c))
    R1 (fun c => Entails.of_eq (hpre1 c).symm) (fun c => Entails.of_eq (hpost1 c))
    R2 (fun c => Entails.of_eq (hpre2 c).symm) (fun c => Entails.of_eq (hpost2 c))
  refine Pipeline.initEach (fun _ => ∅) (fun _ _ => 0) fun c => ?_
  iintro ⟨⟨-, HO, -, Hp, -⟩, -⟩
  imodintro
  isplitl [Hp]; · iexists _; iexact Hp
  iexists ∅; iexact HO

/-- The arguments' part at the pipeline library's own algebra. -/
theorem frame_only
    (m : (ℓ : Loc nD τ sig) → Buf (Elt F) ℓ) (ρ : Dev nD → PrngReg) (outs : Outs (F := F)) (𝒱₀ : Variants)
    (pdats : (p : Fin 3) → (c : Dev nD) → Dat τ (Elt F) Unit ℕ (UR sig nD τ) ℕ (cfgs p) c)
    (R0 : RegionSeg (pcfgs (F := F)) adm pdats () defs₀ 𝒱₀ (fun _ => ∅) (fun _ _ => 0) 0)
    (hpre0 : ∀ c : Dev nD, R0.pre c = RegionRecord.threadState (fun c => V7 m c) c)
    (hpost0 : ∀ c : Dev nD, R0.post c = RegionRecord.threadState (fun c => V8 m outs c) c)
    (R1 : RegionSeg (pcfgs (F := F)) adm pdats () defs₀ 𝒱₀ (fun _ => ∅) (fun _ _ => 0) 1)
    (hpre1 : ∀ c : Dev nD, R1.pre c = RegionRecord.threadState (fun c => V8 m outs c) c)
    (hpost1 : ∀ c : Dev nD, R1.post c = RegionRecord.threadState (fun c => V9 m outs c) c)
    (R2 : RegionSeg (pcfgs (F := F)) adm pdats () defs₀ 𝒱₀ (fun _ => ∅) (fun _ _ => 0) 2)
    (hpre2 : ∀ c : Dev nD, R2.pre c = RegionRecord.threadState (fun c => V9 m outs c) c)
    (hpost2 : ∀ c : Dev nD, R2.post c = RegionRecord.threadState (fun c => V10 m outs c) c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_only_of emb₁ _ own_launch m ρ outs 𝒱₀ pdats R0 hpre0 hpost0 R1 hpre1 hpost1 R2 hpre2 hpost2

end Cert.Kernel.Launch

end
-- ==== Proof.LaunchValK.lean ====
import proofs.«146975_j56152402427977_2_alg».proof.Proof.Gen.Kernel.Regions

/-!
# The valuations between @main's items read at the regions' outputs and at the result

After each kernel region the valuation holds, at the buffer the region may change, that region's unknown contents;
the last valuation holds at the result the strided slice of what the third region leaves.
-/

noncomputable section

namespace Cert.Kernel.Launch

open Cert.Kernel Cert.Kernel.Gen
open Idealize.ShloMosaic Idealize.ShloMosaic.TcCoe
open Idealize.SL.Sem

variable {F : FTy → Type} [FloatOps F]
variable (m : (ℓ : Loc nD τ sig) → Buf (Elt F) ℓ) (outs : Outs (F := F))

/-- The valuation after the first region at its output is that region's unknown contents. -/
theorem V8_main_v12 (c : Dev nD) : V8 m outs c main_v12 = outs 8 main_v12 c := by
  simp only [V8, Function.update_self]

/-- The valuation after the second region at its output is that region's unknown contents. -/
theorem V9_main_v13 (c : Dev nD) : V9 m outs c main_v13 = outs 9 main_v13 c := by
  simp only [V9, Function.update_self]

/-- The valuation after the third region at its output is that region's unknown contents. -/
theorem V10_main_v14 (c : Dev nD) : V10 m outs c main_v14 = outs 10 main_v14 c := by
  simp only [V10, Function.update_self]

/-- The last valuation at the result: the strided slice of the third region's output. -/
theorem V11_main_v15 (c : Dev nD) :
    V11 m outs c main_v15 = extractStridedSlice S4096x100 ![0, 0] (V10 m outs c main_v14) slices_S4096x128_S4096x100_0_0 := by
  simp only [V11, hostOps3, StableHlo.after_cons, StableHlo.after_nil]
  exact StableHlo.unary_result' _ _ _ _

end Cert.Kernel.Launch

end
-- ==== Proof.LibLastStore.lean ====
/-
  What a buffer reads after a list of stores whose last one fills the whole block.

  A kernel body that accumulates into a scratch row stores the whole row again at every update. After any list of
  stores whose LAST store goes through the rectangle of the whole shape at the origin, the buffer reads as that store's
  payload — whatever it held before, whatever the earlier stores wrote. Stated for any values, any view, any shape;
  the zero offsets may be spelt in any way (`h`).
-/
import Idealize.ShloMosaic.Lib.Pipeline.Value

noncomputable section

namespace Cert.Lib.LastStore

open Idealize.ShloMosaic

/-- The offsets `![0, 0]` of a rank-two access at the origin are the zero function. -/
theorem zero_offsets : (![0, 0] : Fin 2 → ℕ) = fun _ => 0 := by funext a; fin_cases a <;> rfl

/-- After stores the last of which fills the whole block from the origin, the buffer reads as that store's payload. -/
theorem read_last_whole_store {Val : EltTy → Type} [∀ e, Nonempty (Val e)] {sig : RefSig} {κ : Kind} {sp : Space}
    {S : Shape} {e : EltTy} (v : View sig κ sp S e) (f : v.ty.Contents Val)
    {off : Fin S.rank → ℕ} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.Mem.head _, View.mem_set_unit_zero h inb y⟩),
    View.canon_cons_unit_zero h]

end Cert.Lib.LastStore

end
-- ==== Proof.BodyK.lean ====
import proofs.«146975_j56152402427977_2_alg».proof.Proof.Gen.Kernel.Launch
import proofs.«146975_j56152402427977_2_alg».proof.Proof.Gen.Kernel.Skeleton
import proofs.«146975_j56152402427977_2_alg».proof.Proof.Gen.Kernel.Points
import proofs.«146975_j56152402427977_2_alg».proof.Proof.LibLastStore
import Idealize.ShloMosaic.Lib.Pipeline.FrameBody
import Idealize.ShloMosaic.Lib.Ring
import Idealize.ShloMosaic.Lib.Tactic

/-!
# The three kernel bodies run on whole staging buffers

Each body, started with its input buffers at given contents, runs to the end and leaves every buffer it stores into
at the payload of its last store there, a pure function of what it loaded. The projection kernels load two blocks and
store one. The accumulating kernel keeps a running absolute sum and a running weighted sum in two scratch buffers: at
the first step of a row tile it zeroes them first, at every step it adds the step's contribution, and at the last step
it also stores the quotient into its output block.
-/

set_option maxRecDepth 16384

noncomputable section

namespace Cert.Kernel.Body

open Cert.Kernel Cert.Kernel.Gen Cert.Lib.LastStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

set_option maxHeartbeats 1000000 in
/-- The first projection kernel: the output buffer ends at the row-scaled projection of the two loaded blocks. -/
theorem run0 (c : Dev nD) (i : grid0.Coords) (arg1 : Memref sig .tc .vmem S512x512 .f32) (harg1 : arg1.IsWhole)
    (arg2 : Memref sig .tc .vmem S512x512 .f32) (harg2 : arg2.IsWhole) (arg3 : Memref sig .tc .vmem S512x512 .bf16) (harg3 : arg3.IsWhole)
    (x0 : Vec F S512x512 .f32) (x1 : Vec F S512x512 .f32) (d3 : Vec F S512x512 .bf16) (E : Set ℕ) (K : PUnit → sProp 𝕄) :
    iprop(owns (c : Thread nD τ) arg1 fullShare x0 ∗ owns (c : Thread nD τ) arg2 fullShare x1 ∗ owns (c : Thread nD τ) arg3 fullShare d3
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__proj_norm_kernel i arg1 harg1 arg2 harg2 arg3 harg3) K := by
  simp only [cc0__proj_norm_kernel_eq_skeleton]; unfold cc0__proj_norm_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [read_last_whole_store (S := S512x512) _ _ zero_offsets]
  simp only [View.readAt_eq_ld, harg1.read_unread, harg2.read_unread, View.ld_unit_zero (S := S512x512) zero_offsets]

set_option maxHeartbeats 1000000 in
/-- The second projection kernel, on blocks of 1024 rows. -/
theorem run1 (c : Dev nD) (i : grid1.Coords) (arg1 : Memref sig .tc .vmem S1024x512 .f32) (harg1 : arg1.IsWhole)
    (arg2 : Memref sig .tc .vmem S512x512 .f32) (harg2 : arg2.IsWhole) (arg3 : Memref sig .tc .vmem S1024x512 .bf16) (harg3 : arg3.IsWhole)
    (x0 : Vec F S1024x512 .f32) (x1 : Vec F S512x512 .f32) (d3 : Vec F S1024x512 .bf16) (E : Set ℕ) (K : PUnit → sProp 𝕄) :
    iprop(owns (c : Thread nD τ) arg1 fullShare x0 ∗ owns (c : Thread nD τ) arg2 fullShare x1 ∗ owns (c : Thread nD τ) arg3 fullShare d3
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__proj_norm_kernel i arg1 harg1 arg2 harg2 arg3 harg3) K := by
  simp only [cc1__proj_norm_kernel_eq_skeleton]; unfold cc1__proj_norm_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [read_last_whole_store (S := S1024x512) _ _ zero_offsets]
  simp only [View.readAt_eq_ld, harg1.read_unread, harg2.read_unread, View.ld_unit_zero (S := S1024x512) zero_offsets,
    View.ld_unit_zero (S := S512x512) zero_offsets]

/-- The accumulating kernel is at the first step of a row tile: it zeroes its scratch. -/
abbrev first2 (i : grid2.Coords) : Prop :=
  (Scalar.cmpi .ne (Scalar.extui (Scalar.cmpi .eq (BitVec.ofNat 32 (i 1).val) 0#32)) 0#32) = 1#1
/-- It is at the last step: it stores the quotient. -/
abbrev last2 (i : grid2.Coords) : Prop := k2_cond2 i = 1#1

set_option maxHeartbeats 2000000 in
/-- First step of a row tile: both scratch buffers restart from zero plus this step's contribution; the output block
    is not touched. -/
theorem run2_first (c : Dev nD) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x128 .bf16) (harg4 : arg4.IsWhole) (arg5 : Memref sig .tc .vmem S1024x128 .f32) (harg5 : arg5.IsWhole)
    (arg6 : Memref sig .tc .vmem S1024x1 .f32) (harg6 : arg6.IsWhole) (arg7 : Memref sig .tc .vmem S1024x128 .f32) (harg7 : arg7.IsWhole)
    (hc0 : first2 i) (hc1 : ¬last2 i)
    (x0 : Vec F S1024x512 .bf16) (x1 : Vec F S1024x512 .bf16) (x2 : Vec F S1024x128 .bf16) (x3 : Vec F S1024x128 .f32)
    (s6 : Vec F S1024x1 .f32) (s7 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k2_pay4 x0 x1 (k2_pay1 (F := F)))
            ∗ owns (c : Thread nD τ) arg7 fullShare (k2_pay5 x0 x1 x2 (k2_pay2 (F := F)))) -∗ K ⟨⟩))
      ⊢ wp frame (wpE (defs₀ (F := F)) Variants.none c none) E (cc2__echo_kernel i arg2 harg2 arg3 harg3 arg4 harg4 arg5 harg5 arg6 harg6 arg7 harg7) K := by
  simp only [cc2__echo_kernel_eq_skeleton]; unfold cc2__echo_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_run_names
    simp only [View.readAt_eq_ld, View.readCov_unit_zero (S := S1024x1) _ zero_offsets, View.readCov_unit_zero (S := S1024x128) _ zero_offsets, read_last_whole_store (S := S1024x1) _ _ zero_offsets, harg2.read_unread, harg3.read_unread,
      View.ld_unit_zero (S := S1024x512) zero_offsets, View.ld_unit_zero (S := S1024x1) zero_offsets]
  · iexists _; isplitr
    swap; · iexact H7
    ipureintro
    sl_unfold_run_names
    simp only [View.readAt_eq_ld, View.readCov_unit_zero (S := S1024x1) _ zero_offsets, View.readCov_unit_zero (S := S1024x128) _ zero_offsets, read_last_whole_store (S := S1024x128) _ _ zero_offsets, harg2.read_unread, harg3.read_unread, harg4.read_unread,
      View.ld_unit_zero (S := S1024x512) zero_offsets, View.ld_unit_zero (S := S1024x128) zero_offsets]

set_option maxHeartbeats 2000000 in
/-- A middle step: both scratch buffers gain this step's contribution; the output block is not touched. -/
theorem run2_mid (c : Dev nD) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x128 .bf16) (harg4 : arg4.IsWhole) (arg5 : Memref sig .tc .vmem S1024x128 .f32) (harg5 : arg5.IsWhole)
    (arg6 : Memref sig .tc .vmem S1024x1 .f32) (harg6 : arg6.IsWhole) (arg7 : Memref sig .tc .vmem S1024x128 .f32) (harg7 : arg7.IsWhole)
    (hc0 : ¬first2 i) (hc1 : ¬last2 i)
    (x0 : Vec F S1024x512 .bf16) (x1 : Vec F S1024x512 .bf16) (x2 : Vec F S1024x128 .bf16) (x3 : Vec F S1024x128 .f32)
    (s6 : Vec F S1024x1 .f32) (s7 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k2_pay4 x0 x1 s6)
            ∗ owns (c : Thread nD τ) arg7 fullShare (k2_pay5 x0 x1 x2 s7)) -∗ K ⟨⟩))
      ⊢ wp frame (wpE (defs₀ (F := F)) Variants.none c none) E (cc2__echo_kernel i arg2 harg2 arg3 harg3 arg4 harg4 arg5 harg5 arg6 harg6 arg7 harg7) K := by
  simp only [cc2__echo_kernel_eq_skeleton]; unfold cc2__echo_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_run_names
    simp only [View.readAt_eq_ld, View.readCov_unit_zero (S := S1024x1) _ zero_offsets, View.readCov_unit_zero (S := S1024x128) _ zero_offsets, read_last_whole_store (S := S1024x1) _ _ zero_offsets, harg2.read_unread, harg3.read_unread, harg6.read_unread,
      View.ld_unit_zero (S := S1024x512) zero_offsets, View.ld_unit_zero (S := S1024x1) zero_offsets]
  · iexists _; isplitr
    swap; · iexact H7
    ipureintro
    sl_unfold_run_names
    simp only [View.readAt_eq_ld, View.readCov_unit_zero (S := S1024x1) _ zero_offsets, View.readCov_unit_zero (S := S1024x128) _ zero_offsets, read_last_whole_store (S := S1024x128) _ _ zero_offsets, harg2.read_unread, harg3.read_unread, harg4.read_unread, harg7.read_unread,
      View.ld_unit_zero (S := S1024x512) zero_offsets, View.ld_unit_zero (S := S1024x128) zero_offsets]

set_option maxHeartbeats 2000000 in
/-- The last step: the scratch buffers gain the step's contribution and the output block receives the quotient of the
    two totals. -/
theorem run2_last (c : Dev nD) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x128 .bf16) (harg4 : arg4.IsWhole) (arg5 : Memref sig .tc .vmem S1024x128 .f32) (harg5 : arg5.IsWhole)
    (arg6 : Memref sig .tc .vmem S1024x1 .f32) (harg6 : arg6.IsWhole) (arg7 : Memref sig .tc .vmem S1024x128 .f32) (harg7 : arg7.IsWhole)
    (hc0 : ¬first2 i) (hc1 : last2 i)
    (x0 : Vec F S1024x512 .bf16) (x1 : Vec F S1024x512 .bf16) (x2 : Vec F S1024x128 .bf16) (x3 : Vec F S1024x128 .f32)
    (s6 : Vec F S1024x1 .f32) (s7 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare x2
            ∗ owns (c : Thread nD τ) arg5 fullShare (k2_pay6 (k2_pay4 x0 x1 s6) (k2_pay5 x0 x1 x2 s7))
            ∗ owns (c : Thread nD τ) arg6 fullShare (k2_pay4 x0 x1 s6)
            ∗ owns (c : Thread nD τ) arg7 fullShare (k2_pay5 x0 x1 x2 s7)) -∗ K ⟨⟩))
      ⊢ wp frame (wpE (defs₀ (F := F)) Variants.none c none) E (cc2__echo_kernel i arg2 harg2 arg3 harg3 arg4 harg4 arg5 harg5 arg6 harg6 arg7 harg7) K := by
  simp only [cc2__echo_kernel_eq_skeleton]; unfold cc2__echo_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    simp only [View.readAt_eq_ld, View.readCov_unit_zero (S := S1024x1) _ zero_offsets, View.readCov_unit_zero (S := S1024x128) _ zero_offsets, read_last_whole_store (S := S1024x128) _ _ zero_offsets, read_last_whole_store (S := S1024x1) _ _ zero_offsets, harg2.read_unread, harg3.read_unread, harg4.read_unread,
      harg6.read_unread, harg7.read_unread,
      View.ld_unit_zero (S := S1024x512) zero_offsets, View.ld_unit_zero (S := S1024x128) zero_offsets, View.ld_unit_zero (S := S1024x1) zero_offsets]
  isplitl [H6]
  · iexists _; isplitr
    swap; · iexact H6
    ipureintro
    sl_unfold_run_names
    simp only [View.readAt_eq_ld, View.readCov_unit_zero (S := S1024x1) _ zero_offsets, View.readCov_unit_zero (S := S1024x128) _ zero_offsets, read_last_whole_store (S := S1024x1) _ _ zero_offsets, harg2.read_unread, harg3.read_unread, harg6.read_unread,
      View.ld_unit_zero (S := S1024x512) zero_offsets, View.ld_unit_zero (S := S1024x1) zero_offsets]
  · iexists _; isplitr
    swap; · iexact H7
    ipureintro
    sl_unfold_run_names
    simp only [View.readAt_eq_ld, View.readCov_unit_zero (S := S1024x1) _ zero_offsets, View.readCov_unit_zero (S := S1024x128) _ zero_offsets, read_last_whole_store (S := S1024x128) _ _ zero_offsets, harg2.read_unread, harg3.read_unread, harg4.read_unread, harg7.read_unread,
      View.ld_unit_zero (S := S1024x512) zero_offsets, View.ld_unit_zero (S := S1024x128) zero_offsets]

end Cert.Kernel.Body

end
-- ==== Proof.Data01K.lean ====
import proofs.«146975_j56152402427977_2_alg».proof.Proof.BodyK
import proofs.«146975_j56152402427977_2_alg».proof.Proof.Gen.Kernel.Regions
import proofs.«146975_j56152402427977_2_alg».proof.Proof.LibRegionRecord
import Idealize.ShloMosaic.Lib.Pipeline.FrameBody
import Idealize.ShloMosaic.Lib.Pipeline.Kit
import Idealize.ShloMosaic.Lib.Ring
import Idealize.ShloMosaic.Lib.Tactic

/-!
# The proof data of the two projection regions

For a region entered with the unscoped buffers at a valuation W: what each window's staging buffer holds after the
body at each grid point, and the body obligation. Both regions are a pointwise pipeline: no scratch, no branch.
-/

set_option maxRecDepth 16384

noncomputable section

namespace Cert.Kernel.Data

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's unscoped buffers when a region is entered, per core
variable (W : Dev nD → Valuation τ sig (Elt F))

/-! ## The projection region 0: every point loads a block of rows and the whole weight matrix and stores the scaled projection -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (RegionRecord.tcVal W c (Pipeline.arrRef spec0 w))

/-- The proof data: the arrays as found; after the body each input's buffer at its block, the output's at the scaled
    projection of the two blocks; the invariant the scoped rest and the generator register, untouched. -/
def dats0 (c : Dev nD) : Dat τ (Elt F) Unit ℕ (UR sig nD τ) ℕ cfg0 c where
  A w := RegionRecord.tcVal W c (Pipeline.arrRef spec0 w)
  after w t := match w with
    | ⟨0, _⟩ => iblk0 W c 0 t
    | ⟨1, _⟩ => iblk0 W c 1 t
    | ⟨2, _⟩ => k0_pay1 (iblk0 W c 0 t) (iblk0 W c 1 t)
  Φ _ := Pipeline.ΦA spec0 c
  q _ := fullShare
  owed _ := 0

theorem A0_eq (c : Dev nD) (w : Fin cfg0.W) : (dats0 W c).A w = RegionRecord.tcVal W c (Pipeline.arrRef spec0 w) := by
  dsimp only [dats0]

theorem after0_0 (c : Dev nD) (t : Fin cfg0.N) : (dats0 W c).after 0 t = iblk0 W c 0 t := by dsimp only [dats0]
theorem after0_1 (c : Dev nD) (t : Fin cfg0.N) : (dats0 W c).after 1 t = iblk0 W c 1 t := by dsimp only [dats0]
theorem after0_2 (c : Dev nD) (t : Fin cfg0.N) :
    (dats0 W c).after 2 t = k0_pay1 (iblk0 W c 0 t) (iblk0 W c 1 t) := by dsimp only [dats0]

/-- Each input's current staging buffer holds its block at every point, fetched there or not. -/
theorem before0_0 (c : Dev nD) (t : Fin cfg0.N) (d) : (dats0 W c).before 0 t d = iblk0 W c 0 t :=
  ((dats0 W c).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dats0 W c).before 1 t d = iblk0 W c 1 t :=
  ((dats0 W c).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)

/-- What the body is called with at point t, -/
def bodyPre0 (c : Dev nD) (t : Fin cfg0.N) : sProp 𝕄 :=
  iprop((dats0 W c).Φ t.castSucc ∗ (dats0 W c).owesAt () t.castSucc
    ∗ (∃ d, owns (c : Thread nD τ) (st0_0 t) fullShare ((dats0 W c).before 0 t d))
    ∗ (∃ d, owns (c : Thread nD τ) (st0_1 t) fullShare ((dats0 W c).before 1 t d))
    ∗ (∃ d, owns (c : Thread nD τ) (st0_2 t) fullShare ((dats0 W c).before 2 t d)))

/-- and what it returns. -/
def bodyPost0 (c : Dev nD) (t : Fin cfg0.N) : sProp 𝕄 :=
  iprop((dats0 W c).Φ t.succ ∗ (dats0 W c).owesAt () t.succ
    ∗ owns (c : Thread nD τ) (st0_0 t) fullShare ((dats0 W c).after 0 t)
    ∗ owns (c : Thread nD τ) (st0_1 t) fullShare ((dats0 W c).after 1 t)
    ∗ owns (c : Thread nD τ) (st0_2 t) fullShare ((dats0 W c).after 2 t))

/-- The body at any point: the inputs' buffers hold their blocks, so the body's run applies; the invariant and what
    the core owes pass through unread. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1]
  rw [show (dats0 W c).Φ t.succ = (dats0 W c).Φ t.castSucc from rfl,
    show (dats0 W c).owesAt () t.succ = (dats0 W c).owesAt () t.castSucc from rfl,
    after0_0, after0_1, after0_2]
  iintro ⟨HΦ, Ho, ⟨%d0, H0⟩, ⟨%d1, H1⟩, ⟨%d2, H2⟩⟩
  iapply (run0 c _ _ _ _ _ _ _ (iblk0 W c 0 t) (iblk0 W c 1 t) _ Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dats0 (F := F) W c) (defs₀ (F := F)) Variants.none () Set.univ := fun t => by
  rw [bigSep_W0, bigSep_W0]
  exact sound_body0 W c t

/-! ## The projection region 1: every point loads a block of rows and the whole weight matrix and stores the scaled projection -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (RegionRecord.tcVal W c (Pipeline.arrRef spec1 w))

/-- The proof data: the arrays as found; after the body each input's buffer at its block, the output's at the scaled
    projection of the two blocks; the invariant the scoped rest and the generator register, untouched. -/
def dats1 (c : Dev nD) : Dat τ (Elt F) Unit ℕ (UR sig nD τ) ℕ cfg1 c where
  A w := RegionRecord.tcVal W c (Pipeline.arrRef spec1 w)
  after w t := match w with
    | ⟨0, _⟩ => iblk1 W c 0 t
    | ⟨1, _⟩ => iblk1 W c 1 t
    | ⟨2, _⟩ => k1_pay1 (iblk1 W c 0 t) (iblk1 W c 1 t)
  Φ _ := Pipeline.ΦA spec1 c
  q _ := fullShare
  owed _ := 0

theorem A1_eq (c : Dev nD) (w : Fin cfg1.W) : (dats1 W c).A w = RegionRecord.tcVal W c (Pipeline.arrRef spec1 w) := by
  dsimp only [dats1]

theorem after1_0 (c : Dev nD) (t : Fin cfg1.N) : (dats1 W c).after 0 t = iblk1 W c 0 t := by dsimp only [dats1]
theorem after1_1 (c : Dev nD) (t : Fin cfg1.N) : (dats1 W c).after 1 t = iblk1 W c 1 t := by dsimp only [dats1]
theorem after1_2 (c : Dev nD) (t : Fin cfg1.N) :
    (dats1 W c).after 2 t = k1_pay1 (iblk1 W c 0 t) (iblk1 W c 1 t) := by dsimp only [dats1]

/-- Each input's current staging buffer holds its block at every point, fetched there or not. -/
theorem before1_0 (c : Dev nD) (t : Fin cfg1.N) (d) : (dats1 W c).before 0 t d = iblk1 W c 0 t :=
  ((dats1 W c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dats1 W c).before 1 t d = iblk1 W c 1 t :=
  ((dats1 W c).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)

/-- What the body is called with at point t, -/
def bodyPre1 (c : Dev nD) (t : Fin cfg1.N) : sProp 𝕄 :=
  iprop((dats1 W c).Φ t.castSucc ∗ (dats1 W c).owesAt () t.castSucc
    ∗ (∃ d, owns (c : Thread nD τ) (st1_0 t) fullShare ((dats1 W c).before 0 t d))
    ∗ (∃ d, owns (c : Thread nD τ) (st1_1 t) fullShare ((dats1 W c).before 1 t d))
    ∗ (∃ d, owns (c : Thread nD τ) (st1_2 t) fullShare ((dats1 W c).before 2 t d)))

/-- and what it returns. -/
def bodyPost1 (c : Dev nD) (t : Fin cfg1.N) : sProp 𝕄 :=
  iprop((dats1 W c).Φ t.succ ∗ (dats1 W c).owesAt () t.succ
    ∗ owns (c : Thread nD τ) (st1_0 t) fullShare ((dats1 W c).after 0 t)
    ∗ owns (c : Thread nD τ) (st1_1 t) fullShare ((dats1 W c).after 1 t)
    ∗ owns (c : Thread nD τ) (st1_2 t) fullShare ((dats1 W c).after 2 t))

/-- The body at any point: the inputs' buffers hold their blocks, so the body's run applies; the invariant and what
    the core owes pass through unread. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1]
  rw [show (dats1 W c).Φ t.succ = (dats1 W c).Φ t.castSucc from rfl,
    show (dats1 W c).owesAt () t.succ = (dats1 W c).owesAt () t.castSucc from rfl,
    after1_0, after1_1, after1_2]
  iintro ⟨HΦ, Ho, ⟨%d0, H0⟩, ⟨%d1, H1⟩, ⟨%d2, H2⟩⟩
  iapply (run1 c _ _ _ _ _ _ _ (iblk1 W c 0 t) (iblk1 W c 1 t) _ Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dats1 (F := F) W c) (defs₀ (F := F)) Variants.none () Set.univ := fun t => by
  rw [bigSep_W1, bigSep_W1]
  exact sound_body1 W c t

end Cert.Kernel.Data

end
-- ==== Proof.Data2K.lean ====
import proofs.«146975_j56152402427977_2_alg».proof.Proof.BodyK
import proofs.«146975_j56152402427977_2_alg».proof.Proof.Gen.Kernel.Regions
import proofs.«146975_j56152402427977_2_alg».proof.Proof.LibRegionRecord
import Idealize.ShloMosaic.Lib.Pipeline.FrameBody
import Idealize.ShloMosaic.Lib.Pipeline.Kit
import Idealize.ShloMosaic.Lib.Ring
import Idealize.ShloMosaic.Lib.Tactic

/-!
# The proof data of the accumulating region

The region's grid is 4 row tiles by 20 steps. Two scratch buffers carry, across the 20 steps of a row tile, the running
absolute sum and the running weighted sum; the first step of a row tile restarts them from zero, the last step stores
their quotient into the output block, which is written back there and nowhere else. What the scratch buffers hold after
each point is a recursion on the point; the region's invariant holds them at exactly that.
-/

set_option maxRecDepth 16384

noncomputable section

namespace Cert.Kernel.Data

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's unscoped buffers when a region is entered, per core
variable (W : Dev nD → Valuation τ sig (Elt F))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (RegionRecord.tcVal W c (Pipeline.arrRef spec2 w))

/-- The two scratch buffers, whole. -/
abbrev scM6 : Memref sig .tc .vmem S1024x1 .f32 := Memref.whole cc2_scratch0
abbrev scM7 : Memref sig .tc .vmem S1024x128 .f32 := Memref.whole cc2_scratch1

/-! ## The two conditions over the grid, and where the output window is idle -/

theorem hfirst2 : ∀ t : Fin cfg2.N, first2 (grid2.coords t) ↔ t.val % 20 = 0 :=
  (by decide +kernel : ∀ t : Fin grid2.N, first2 (grid2.coords t) ↔ t.val % 20 = 0)
theorem hlast2 : ∀ t : Fin cfg2.N, last2 (grid2.coords t) ↔ t.val % 20 = 19 :=
  (by decide +kernel : ∀ t : Fin grid2.N, last2 (grid2.coords t) ↔ t.val % 20 = 19)
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem idle2_3 : ∀ t : Fin cfg2.N, ¬last2 (grid2.coords t) → cfg2.idle 3 (grid2.coords t) = true := by decide +kernel
theorem noFlush2_3 : ∀ t : Fin cfg2.N, ¬last2 (grid2.coords t) → (cfg2.win 3).flush t = false := by decide +kernel
theorem live2_3 : ∀ t : Fin cfg2.N, last2 (grid2.coords t) → cfg2.idle 3 (grid2.coords t) = false := by decide +kernel

/-! ## What the scratch buffers hold after each point -/

/-- The running absolute sum and the running weighted sum after point n: restarted from the zero payloads at the first
    step of a row tile, else the previous point's plus this step's contribution. -/
def sc (c : Dev nD) : (n : ℕ) → n < cfg2.N → Vec F S1024x1 .f32 × Vec F S1024x128 .f32
  | 0, hn => (k2_pay4 (iblk2 W c 0 ⟨0, hn⟩) (iblk2 W c 1 ⟨0, hn⟩) (k2_pay1 (F := F)),
      k2_pay5 (iblk2 W c 0 ⟨0, hn⟩) (iblk2 W c 1 ⟨0, hn⟩) (iblk2 W c 2 ⟨0, hn⟩) (k2_pay2 (F := F)))
  | n + 1, hn =>
    if (n + 1) % 20 = 0 then
      (k2_pay4 (iblk2 W c 0 ⟨n + 1, hn⟩) (iblk2 W c 1 ⟨n + 1, hn⟩) (k2_pay1 (F := F)),
        k2_pay5 (iblk2 W c 0 ⟨n + 1, hn⟩) (iblk2 W c 1 ⟨n + 1, hn⟩) (iblk2 W c 2 ⟨n + 1, hn⟩) (k2_pay2 (F := F)))
    else
      (k2_pay4 (iblk2 W c 0 ⟨n + 1, hn⟩) (iblk2 W c 1 ⟨n + 1, hn⟩) (sc c n (Nat.lt_of_succ_lt hn)).1,
        k2_pay5 (iblk2 W c 0 ⟨n + 1, hn⟩) (iblk2 W c 1 ⟨n + 1, hn⟩) (iblk2 W c 2 ⟨n + 1, hn⟩) (sc c n (Nat.lt_of_succ_lt hn)).2)

theorem sc_first (c : Dev nD) (t : Fin cfg2.N) (h : t.val % 20 = 0) :
    sc W c t.val t.isLt = (k2_pay4 (iblk2 W c 0 t) (iblk2 W c 1 t) (k2_pay1 (F := F)),
      k2_pay5 (iblk2 W c 0 t) (iblk2 W c 1 t) (iblk2 W c 2 t) (k2_pay2 (F := F))) := by
  obtain ⟨n, hn⟩ := t
  cases n with
  | zero => exact rfl
  | succ n => exact (if_pos h).trans rfl

theorem sc_next (c : Dev nD) (t : Fin cfg2.N) (h : ¬t.val % 20 = 0) :
    sc W c t.val t.isLt = (k2_pay4 (iblk2 W c 0 t) (iblk2 W c 1 t) (sc W c (t.val - 1) (Nat.lt_of_le_of_lt (Nat.sub_le _ _) t.isLt)).1,
      k2_pay5 (iblk2 W c 0 t) (iblk2 W c 1 t) (iblk2 W c 2 t) (sc W c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant -/

/-- The core's other scoped buffers (the staging buffers of the two projection regions), each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The class invariant with the two scratch buffers taken out by name. -/
theorem PhiA2_split (c : Dev nD) :
    (Pipeline.ΦA spec2 c : sProp 𝕄) ⊢ iprop(rest2 (F := F) c ∗ (∃ d, owns (c : Thread nD τ) scM6 fullShare d)
      ∗ (∃ d, owns (c : Thread nD τ) scM7 fullShare d) ∗ (∃ r, prngReg c r)) := by
  unfold Pipeline.ΦA rest2; rw [scopedRest2_eq]; simp only [scM6, scM7, owns_whole]
  iintro ⟨⟨H0, H1, H2, H3, H4, H5, H6, H7, H8, H9, HS6, HS7⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS6]; · iexact HS6
  isplitl [HS7]; · iexact HS7
  iexact Hg

theorem PhiA2_join (c : Dev nD) :
    iprop(rest2 (F := F) c ∗ (∃ d, owns (c : Thread nD τ) scM6 fullShare d)
      ∗ (∃ d, owns (c : Thread nD τ) scM7 fullShare d) ∗ (∃ r, prngReg c r)) ⊢ (Pipeline.ΦA spec2 c : sProp 𝕄) := by
  unfold Pipeline.ΦA rest2; rw [scopedRest2_eq]; simp only [scM6, scM7, owns_whole]
  iintro ⟨⟨H0, H1, H2, H3, H4, H5, H6, H7, H8, H9⟩, HS6, HS7, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS6]; · iexact HS6
  iexact HS7

/-- The invariant before position n: before the first point the class's; afterwards the other scoped buffers at anything,
    the two scratch buffers at what the point before left, the generator register at some state. -/
def PhiS (c : Dev nD) : (n : ℕ) → n ≤ cfg2.N → sProp 𝕄
  | 0, _ => Pipeline.ΦA spec2 c
  | n + 1, hn => iprop(rest2 (F := F) c ∗ owns (c : Thread nD τ) scM6 fullShare (sc W c n hn).1
      ∗ owns (c : Thread nD τ) scM7 fullShare (sc W c n hn).2 ∗ (∃ r, prngReg c r))

theorem PhiS_zero (c : Dev nD) (n : ℕ) (h : n ≤ cfg2.N) (hz : n = 0) : PhiS W c n h = Pipeline.ΦA spec2 c := by
  subst hz; rfl

theorem PhiS_succ (c : Dev nD) (n : ℕ) (hn : n < cfg2.N) :
    PhiS W c (n + 1) hn = iprop(rest2 (F := F) c ∗ owns (c : Thread nD τ) scM6 fullShare (sc W c n hn).1
      ∗ owns (c : Thread nD τ) scM7 fullShare (sc W c n hn).2 ∗ (∃ r, prngReg c r)) := rfl

theorem PhiS_pos (c : Dev nD) (n : ℕ) (h : n ≤ cfg2.N) (hz : n ≠ 0) :
    PhiS W c n h = iprop(rest2 (F := F) c ∗ owns (c : Thread nD τ) scM6 fullShare (sc W c (n - 1) (by omega)).1
      ∗ owns (c : Thread nD τ) scM7 fullShare (sc W c (n - 1) (by omega)).2 ∗ (∃ r, prngReg c r)) := by
  cases n with
  | zero => exact absurd rfl hz
  | succ n => rfl

/-! ## The proof data -/

def dats2 (c : Dev nD) : Dat τ (Elt F) Unit ℕ (UR sig nD τ) ℕ cfg2 c where
  A w := RegionRecord.tcVal W c (Pipeline.arrRef spec2 w)
  after w t := match w with
    | ⟨0, _⟩ => iblk2 W c 0 t
    | ⟨1, _⟩ => iblk2 W c 1 t
    | ⟨2, _⟩ => iblk2 W c 2 t
    | ⟨3, _⟩ => k2_pay6 (sc W c t.val t.isLt).1 (sc W c t.val t.isLt).2
  Φ t := PhiS W c t.val (Nat.le_of_lt_succ t.isLt)
  q _ := fullShare
  owed _ := 0

theorem A2_eq (c : Dev nD) (w : Fin cfg2.W) : (dats2 W c).A w = RegionRecord.tcVal W c (Pipeline.arrRef spec2 w) := by
  dsimp only [dats2]

theorem PhiS_castSucc (c : Dev nD) (t : Fin cfg2.N) :
    (dats2 W c).Φ t.castSucc = PhiS W c t.val (Nat.le_of_lt t.isLt) := by
  dsimp only [dats2]; simp only [Fin.coe_castSucc]

theorem after2_0 (c : Dev nD) (t : Fin cfg2.N) : (dats2 W c).after 0 t = iblk2 W c 0 t := by dsimp only [dats2]
theorem after2_1 (c : Dev nD) (t : Fin cfg2.N) : (dats2 W c).after 1 t = iblk2 W c 1 t := by dsimp only [dats2]
theorem after2_2 (c : Dev nD) (t : Fin cfg2.N) : (dats2 W c).after 2 t = iblk2 W c 2 t := by dsimp only [dats2]
theorem after2_3 (c : Dev nD) (t : Fin cfg2.N) :
    (dats2 W c).after 3 t = k2_pay6 (sc W c t.val t.isLt).1 (sc W c t.val t.isLt).2 := by dsimp only [dats2]

theorem before2_0 (c : Dev nD) (t : Fin cfg2.N) (d) : (dats2 W c).before 0 t d = iblk2 W c 0 t :=
  ((dats2 W c).before_in_eq_fetched 0 rfl (fun i => rfl) (fun _ _ _ => rfl)
    (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dats2 W c).before 1 t d = iblk2 W c 1 t :=
  ((dats2 W c).before_in_eq_fetched 1 rfl (fun i => rfl) (fun _ _ _ => rfl)
    (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dats2 W c).before 2 t d = iblk2 W c 2 t :=
  ((dats2 W c).before_in_eq_fetched 2 rfl (fun i => rfl) (fun _ _ _ => rfl)
    (fun t => by rw [after2_2]; unfold Dat.blockOf iblk2; rw [A2_eq]; try rfl) t d).trans
    (by unfold Dat.fetched Dat.blockOf iblk2; rw [A2_eq]; try rfl)

theorem leaves2_0 (c : Dev nD) (t : Fin cfg2.N) :
    (dats2 W c).leavesExact 0 t = owns (c : Thread nD τ) (st2_0 t) fullShare (iblk2 W c 0 t) := by
  unfold Dat.leavesExact; rw [live2_0 t, after2_0]
theorem leaves2_1 (c : Dev nD) (t : Fin cfg2.N) :
    (dats2 W c).leavesExact 1 t = owns (c : Thread nD τ) (st2_1 t) fullShare (iblk2 W c 1 t) := by
  unfold Dat.leavesExact; rw [live2_1 t, after2_1]
theorem leaves2_2 (c : Dev nD) (t : Fin cfg2.N) :
    (dats2 W c).leavesExact 2 t = owns (c : Thread nD τ) (st2_2 t) fullShare (iblk2 W c 2 t) := by
  unfold Dat.leavesExact; rw [live2_2 t, after2_2]

/-! ## The body obligation -/

def bodyPre2 (c : Dev nD) (t : Fin cfg2.N) : sProp 𝕄 :=
  iprop((dats2 W c).Φ t.castSucc ∗ (dats2 W c).owesAt () t.castSucc
    ∗ (∃ d, owns (c : Thread nD τ) (st2_0 t) fullShare ((dats2 W c).before 0 t d))
    ∗ (∃ d, owns (c : Thread nD τ) (st2_1 t) fullShare ((dats2 W c).before 1 t d))
    ∗ (∃ d, owns (c : Thread nD τ) (st2_2 t) fullShare ((dats2 W c).before 2 t d))
    ∗ (∃ d, owns (c : Thread nD τ) (st2_3 t) fullShare ((dats2 W c).before 3 t d)))

def bodyPost2 (c : Dev nD) (t : Fin cfg2.N) : sProp 𝕄 :=
  iprop((dats2 W c).Φ t.succ ∗ (dats2 W c).owesAt () t.succ
    ∗ (dats2 W c).leavesExact 0 t
    ∗ (dats2 W c).leavesExact 1 t
    ∗ (dats2 W c).leavesExact 2 t
    ∗ (dats2 W c).leavesExact 3 t)

set_option maxHeartbeats 4800000 in
/-- The body at any point. The inputs' buffers hold their blocks; the closed forms say which of the three cases the point
    is in; the invariant hands the body the scratch buffers at what the point before left (at anything before the first
    point) and takes them back at this point's contents; the output block is handed back untouched except at a last step,
    where it receives the quotient. -/
theorem sound_body2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  simp only [before2_0, before2_1, before2_2]
  rw [show (dats2 W c).owesAt () t.succ = (dats2 W c).owesAt () t.castSucc from rfl]
  rw [show (dats2 W c).Φ t.succ = PhiS W c (t.val + 1) t.isLt from rfl, PhiS_succ]
  rw [leaves2_0, leaves2_1, leaves2_2]
  have hN : t.val < 80 := lt_of_lt_of_eq t.isLt (show cfg2.N = 80 from N_2)
  by_cases h0 : t.val % 20 = 0
  · have hl : ¬t.val % 20 = 19 := by omega
    rw [Dat.leavesExact_idle (dats2 W c) 3 t (idle2_3 t (fun h => hl ((hlast2 t).mp h))) (noFlush2_3 t (fun h => hl ((hlast2 t).mp h)))]
    rw [sc_first W c t h0]; (try dsimp only)
    by_cases hz : t.val = 0
    · rw [PhiS_castSucc W c t, PhiS_zero W c _ _ hz]
      iintro ⟨HΦ, Ho, ⟨%d0, H0⟩, ⟨%d1, H1⟩, ⟨%d2, H2⟩, ⟨%d3, H3⟩⟩
      ihave HΦ' := (PhiA2_split (F := F) c) $$ HΦ
      icases HΦ' with ⟨Hr, ⟨%e6, HS6⟩, ⟨%e7, HS7⟩, Hg⟩
      iapply (run2_first c (grid2.coords t) _ _ _ _ _ _ _ _ scM6 (Memref.isWhole_whole _) scM7 (Memref.isWhole_whole _) ((hfirst2 t).mpr h0) (fun h => hl ((hlast2 t).mp h)) (iblk2 W c 0 t) (iblk2 W c 1 t) (iblk2 W c 2 t) _ e6 e7 Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [Hr HS6 HS7 Hg]
      · isplitl [Hr]; · iexact Hr
        isplitl [HS6]; · iexact HS6
        isplitl [HS7]; · iexact HS7
        iexact Hg
      isplitl [Ho]; · iexact Ho
      isplitl [H0]; · iexact H0
      isplitl [H1]; · iexact H1
      isplitl [H2]; · iexact H2
      iexists _; iexact H3
    · rw [PhiS_castSucc W c t, PhiS_pos W c _ _ hz]
      iintro ⟨⟨Hr, HS6, HS7, Hg⟩, Ho, ⟨%d0, H0⟩, ⟨%d1, H1⟩, ⟨%d2, H2⟩, ⟨%d3, H3⟩⟩
      iapply (run2_first c (grid2.coords t) _ _ _ _ _ _ _ _ scM6 (Memref.isWhole_whole _) scM7 (Memref.isWhole_whole _) ((hfirst2 t).mpr h0) (fun h => hl ((hlast2 t).mp h)) (iblk2 W c 0 t) (iblk2 W c 1 t) (iblk2 W c 2 t) _ _ _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [Hr HS6 HS7 Hg]
      · isplitl [Hr]; · iexact Hr
        isplitl [HS6]; · iexact HS6
        isplitl [HS7]; · iexact HS7
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 20 = 19
    · rw [show (dats2 W c).leavesExact 3 t = owns (c : Thread nD τ) (st2_3 t) fullShare ((dats2 W c).after 3 t) from by
        unfold Dat.leavesExact; rw [live2_3 t ((hlast2 t).mpr h1)], after2_3]
      rw [sc_next W c t h0]; (try dsimp only)
      rw [PhiS_castSucc W c t, PhiS_pos W c _ _ hz]
      iintro ⟨⟨Hr, HS6, HS7, Hg⟩, Ho, ⟨%d0, H0⟩, ⟨%d1, H1⟩, ⟨%d2, H2⟩, ⟨%d3, H3⟩⟩
      iapply (run2_last c (grid2.coords t) _ _ _ _ _ _ _ _ scM6 (Memref.isWhole_whole _) scM7 (Memref.isWhole_whole _) (fun h => h0 ((hfirst2 t).mp h)) ((hlast2 t).mpr h1) (iblk2 W c 0 t) (iblk2 W c 1 t) (iblk2 W c 2 t) _ _ _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [Hr HS6 HS7 Hg]
      · isplitl [Hr]; · iexact Hr
        isplitl [HS6]; · iexact HS6
        isplitl [HS7]; · iexact HS7
        iexact Hg
      isplitl [Ho]; · iexact Ho
      isplitl [H0]; · iexact H0
      isplitl [H1]; · iexact H1
      isplitl [H2]; · iexact H2
      iexact H3
    · rw [Dat.leavesExact_idle (dats2 W c) 3 t (idle2_3 t (fun h => h1 ((hlast2 t).mp h))) (noFlush2_3 t (fun h => h1 ((hlast2 t).mp h)))]
      rw [sc_next W c t h0]; (try dsimp only)
      rw [PhiS_castSucc W c t, PhiS_pos W c _ _ hz]
      iintro ⟨⟨Hr, HS6, HS7, Hg⟩, Ho, ⟨%d0, H0⟩, ⟨%d1, H1⟩, ⟨%d2, H2⟩, ⟨%d3, H3⟩⟩
      iapply (run2_mid c (grid2.coords t) _ _ _ _ _ _ _ _ scM6 (Memref.isWhole_whole _) scM7 (Memref.isWhole_whole _) (fun h => h0 ((hfirst2 t).mp h)) (fun h => h1 ((hlast2 t).mp h)) (iblk2 W c 0 t) (iblk2 W c 1 t) (iblk2 W c 2 t) _ _ _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [Hr HS6 HS7 Hg]
      · isplitl [Hr]; · iexact Hr
        isplitl [HS6]; · iexact HS6
        isplitl [HS7]; · iexact HS7
        iexact Hg
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dats2 (F := F) W c) (defs₀ (F := F)) Variants.none () Set.univ := fun t => by
  rw [bigSep_W2, bigSep_W2]
  exact sound_body2 W c t

/-- What the launch hands the region is the invariant before the first point. -/
theorem hin2 (c : Dev nD) : Pipeline.ΦA spec2 c ⊢ (dats2 W c).Φ 0 := by
  rw [show (dats2 W c).Φ 0 = PhiS W c 0 (Nat.zero_le _) from rfl, PhiS_zero W c 0 _ rfl]
  try exact Idealize.SL.BI.Entails.refl _

/-- After the last point the invariant gives the class's back: the scratch buffers' contents are forgotten. -/
theorem hout2 (c : Dev nD) : (dats2 W c).Φ (Fin.last cfg2.N) ⊢ Pipeline.ΦA spec2 c := by
  rw [show (dats2 W c).Φ (Fin.last cfg2.N) = PhiS W c (Fin.last cfg2.N).val (Nat.le_of_lt_succ (Fin.last cfg2.N).isLt) from rfl,
    PhiS_pos W c _ _ (by rw [Fin.val_last]; have : cfg2.N = 80 := N_2; omega)]
  refine BIBase.Entails.trans ?_ (PhiA2_join (F := F) c)
  iintro ⟨Hr, HS6, HS7, Hg⟩
  isplitl [Hr]; · iexact Hr
  isplitl [HS6]; · iexists _; iexact HS6
  isplitl [HS7]; · iexists _; iexact HS7
  iexact Hg

end Cert.Kernel.Data

end
-- ==== Proof.RecordsK.lean ====
import proofs.«146975_j56152402427977_2_alg».proof.Proof.LaunchK
import proofs.«146975_j56152402427977_2_alg».proof.Proof.LaunchValK
import proofs.«146975_j56152402427977_2_alg».proof.Proof.Data01K
import proofs.«146975_j56152402427977_2_alg».proof.Proof.Data2K

/-!
# The three regions' records, and the run of @main

The contents each region leaves in its output array are what its proof data compute from the valuation the region is
entered at; the valuation after the region holds them at that array and agrees with the one before elsewhere. With
the unknown contents of the conditional frame set to these, each region's record is entered from the thread state at
the valuation before it and left at the one after it, and the launch gives the run: @main terminates, the result is
the strided slice of what the third region leaves, the arguments are as launched.
-/

noncomputable section

namespace Cert.Kernel.Records

open Cert.Kernel Cert.Kernel.Gen Cert.Kernel.Data Cert.Kernel.Launch
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave, and the valuations between them -/

/-- What the first region leaves in its output array. -/
def X0 (c : Dev nD) : Buf (Elt F) ((c : Thread nD τ).loc main_v12) := (dats0 (fun c => V7 m c) c).arrAt 2 cfg0.N
/-- The valuation after the first region. -/
def W8 (c : Dev nD) : Valuation τ sig (Elt F) := Function.update (V7 m c) main_v12 (X0 m c)
/-- What the second region leaves in its output array. -/
def X1 (c : Dev nD) : Buf (Elt F) ((c : Thread nD τ).loc main_v13) := (dats1 (W8 m) c).arrAt 2 cfg1.N
/-- The valuation after the second region. -/
def W9 (c : Dev nD) : Valuation τ sig (Elt F) := Function.update (W8 m c) main_v13 (X1 m c)
/-- What the third region leaves in its output array. -/
def X2 (c : Dev nD) : Buf (Elt F) ((c : Thread nD τ).loc main_v14) := (dats2 (W9 m) c).arrAt 3 cfg2.N
/-- The valuation after the third region. -/
def W10 (c : Dev nD) : Valuation τ sig (Elt F) := Function.update (W9 m c) main_v14 (X2 m c)

/-- The unknown contents of the conditional frame, set to what the valuations above hold. -/
def outs : Outs (F := F) := fun J r c =>
  if J = 8 then W8 m c (Proc.devRef .tc r) else if J = 9 then W9 m c (Proc.devRef .tc r) else W10 m c (Proc.devRef .tc r)

theorem W8_main_v12 (c : Dev nD) : W8 m c main_v12 = X0 m c := by unfold W8; exact Function.update_self ..
theorem W9_main_v13 (c : Dev nD) : W9 m c main_v13 = X1 m c := by unfold W9; exact Function.update_self ..
theorem W10_main_v14 (c : Dev nD) : W10 m c main_v14 = X2 m c := by unfold W10; exact Function.update_self ..

/-- Elsewhere each valuation is the one before. -/
theorem W8_of (c : Dev nD) (r : Ref sig .tc) (h : r ≠ main_v12) : W8 m c r = V7 m c r := by
  unfold W8; exact Function.update_of_ne (StableHlo.devRef_ne_of_ne h) ..
theorem W9_of (c : Dev nD) (r : Ref sig .tc) (h : r ≠ main_v13) : W9 m c r = W8 m c r := by
  unfold W9; exact Function.update_of_ne (StableHlo.devRef_ne_of_ne h) ..
theorem W10_of (c : Dev nD) (r : Ref sig .tc) (h : r ≠ main_v14) : W10 m c r = W9 m c r := by
  unfold W10; exact Function.update_of_ne (StableHlo.devRef_ne_of_ne h) ..

theorem outs_8 (c : Dev nD) : outs m 8 main_v12 c = X0 m c := by
  unfold outs; rw [if_pos rfl]; exact W8_main_v12 m c
theorem outs_9 (c : Dev nD) : outs m 9 main_v13 c = X1 m c := by
  unfold outs; rw [if_neg (by decide), if_pos rfl]; exact W9_main_v13 m c
theorem outs_10 (c : Dev nD) : outs m 10 main_v14 c = X2 m c := by
  unfold outs; rw [if_neg (by decide), if_neg (by decide)]; exact W10_main_v14 m c

/-- The conditional frame's valuations at these contents are the valuations above. -/
theorem V8_eq (c : Dev nD) : V8 m (outs m) c = W8 m c := by
  show Function.update (V7 m c) main_v12 (outs m 8 main_v12 c) = Function.update (V7 m c) main_v12 (X0 m c)
  rw [outs_8]
theorem V9_eq (c : Dev nD) : V9 m (outs m) c = W9 m c := by
  show Function.update (V8 m (outs m) c) main_v13 (outs m 9 main_v13 c) = Function.update (W8 m c) main_v13 (X1 m c)
  rw [outs_9, V8_eq]
theorem V10_eq (c : Dev nD) : V10 m (outs m) c = W10 m c := by
  show Function.update (V9 m (outs m) c) main_v14 (outs m 10 main_v14 c) = Function.update (W9 m c) main_v14 (X2 m c)
  rw [outs_10, V9_eq]
theorem V8_fun : (fun c => V8 m (outs m) c) = W8 m := funext (V8_eq m)
theorem V9_fun : (fun c => V9 m (outs m) c) = W9 m := funext (V9_eq m)
theorem V10_fun : (fun c => V10 m (outs m) c) = W10 m := funext (V10_eq m)

/-! ## The valuations read at the windows' arrays of the second and third regions -/

theorem W8_main_v0 (c : Dev nD) : W8 m c main_v0 = V7 m c main_v0 := W8_of m c _ (by decide)
theorem W8_main_arg1 (c : Dev nD) : W8 m c main_arg1 = V7 m c main_arg1 := W8_of m c _ (by decide)
theorem W8_main_v13 (c : Dev nD) : W8 m c main_v13 = V7 m c main_v13 := W8_of m c _ (by decide)
theorem W9_main_v12 (c : Dev nD) : W9 m c main_v12 = X0 m c := (W9_of m c _ (by decide)).trans (W8_main_v12 m c)
theorem W9_main_v11 (c : Dev nD) : W9 m c main_v11 = V7 m c main_v11 := (W9_of m c _ (by decide)).trans (W8_of m c _ (by decide))
theorem W9_main_v14 (c : Dev nD) : W9 m c main_v14 = V7 m c main_v14 := (W9_of m c _ (by decide)).trans (W8_of m c _ (by decide))

/-! ## The proof data of the three regions -/

/-- Each region's proof data at the valuation it is entered at. -/
def pdats : (p : Fin 3) → (c : Dev nD) → Dat τ (Elt F) Unit ℕ (UR sig nD τ) ℕ (cfgs p) c
  | ⟨0, _⟩ => fun c => dats0 (fun c => V7 m c) c
  | ⟨1, _⟩ => fun c => dats1 (W8 m) c
  | ⟨2, _⟩ => fun c => dats2 (W9 m) c

/-- No region prefetches a table: the tables held are nothing. -/
theorem prefHeld_none (p : Fin 3) (c : Dev nD) :
    (BI.emp : sProp 𝕄) ⊢ Pipeline.prefHeld (Ix := Unit) (Name := ℕ) (U := UR sig nD τ) (Lvl := ℕ) (pcfgs (F := F) p).pre c (fun _ => fullShare) (adm (F := F) p).1 := by
  unfold Pipeline.prefHeld
  rw [show (Finset.univ : Finset (Fin (pcfgs (F := F) p).pre.K)) = ∅ from rfl, BI.bigSep_empty]

/-! ### The first region -/

theorem hF0 (c : Dev nD) : ∀ w : Fin 3, (dats0 (fun c => V7 m c) c).arrAt w cfg0.N = RegionRecord.tcVal (W8 m) c (Pipeline.arrRef spec0 w)
  | ⟨0, _⟩ => ((dats0 (fun c => V7 m c) c).arrAt_in 0 rfl _).trans ((A0_eq (fun c => V7 m c) c 0).trans (W8_of m c main_arg0 (by decide)).symm)
  | ⟨1, _⟩ => ((dats0 (fun c => V7 m c) c).arrAt_in 1 rfl _).trans ((A0_eq (fun c => V7 m c) c 1).trans (W8_of m c main_arg1 (by decide)).symm)
  | ⟨2, _⟩ => (W8_main_v12 m c).symm

theorem hrest0 (c : Dev nD) (b : Ref sig .tc) (h : b ∉ Finset.univ.image (Pipeline.arrRef spec0)) :
    RegionRecord.tcVal (W8 m) c b = RegionRecord.tcVal (fun c => V7 m c) c b :=
  W8_of m c b fun e => h (by rw [e]; exact Finset.mem_image.mpr ⟨(2 : Fin 3), Finset.mem_univ _, rfl⟩)

theorem hin0 (c : Dev nD) :
    iprop(Pipeline.ΦA (U := UR sig nD τ) spec0 c ∗ Pipeline.prefHeld (Ix := Unit) (Name := ℕ) (U := UR sig nD τ) (Lvl := ℕ) (pcfgs (F := F) 0).pre c (fun _ => fullShare) (adm (F := F) 0).1) ⊢ (dats0 (fun c => V7 m c) c).Φ 0 := by
  rw [show (dats0 (fun c => V7 m c) c).Φ 0 = Pipeline.ΦA spec0 c from rfl]
  iintro ⟨H, -⟩
  iexact H

theorem hout0 (c : Dev nD) :
    (dats0 (fun c => V7 m c) c).Φ (Fin.last cfg0.N) ⊢ iprop(Pipeline.ΦA (U := UR sig nD τ) spec0 c ∗ Pipeline.prefHeld (Ix := Unit) (Name := ℕ) (U := UR sig nD τ) (Lvl := ℕ) (pcfgs (F := F) 0).pre c (fun _ => fullShare) (adm (F := F) 0).1) := by
  rw [show (dats0 (fun c => V7 m c) c).Φ (Fin.last cfg0.N) = Pipeline.ΦA spec0 c from rfl]
  iintro H
  isplitl [H]; · iexact H
  iapply (prefHeld_none (F := F) 0 c)
  iempintro

set_option backward.isDefEq.respectTransparency.types false in
/-- The first region's record, between the valuation before it and the one after it. -/
def R0 : RegionSeg (pcfgs (F := F)) adm (pdats m) () defs₀ Variants.none (fun _ => ∅) (fun _ _ => 0) 0 :=
  RegionRecord.regionSeg (pcfgs (F := F)) adm (pdats m) 0 launch0.toP defs₀ Variants.none (fun c => V7 m c) (W8 m)
    (fun c => (body_obligation0 (fun c => V7 m c) c).loose)
    (fun c w => (pdats m 0 c).share_full (fun _ => rfl) w) (fun _ _ => rfl) (fun _ => rfl)
    (fun c w => A0_eq (fun c => V7 m c) c w)
    (fun c k => k.elim0)
    (hF0 m) (hrest0 m)
    (hin0 m) (hout0 m)

/-! ### The second region -/

theorem hF1 (c : Dev nD) : ∀ w : Fin 3, (dats1 (W8 m) c).arrAt w cfg1.N = RegionRecord.tcVal (W9 m) c (Pipeline.arrRef spec1 w)
  | ⟨0, _⟩ => ((dats1 (W8 m) c).arrAt_in 0 rfl _).trans ((A1_eq (W8 m) c 0).trans (W9_of m c main_v0 (by decide)).symm)
  | ⟨1, _⟩ => ((dats1 (W8 m) c).arrAt_in 1 rfl _).trans ((A1_eq (W8 m) c 1).trans (W9_of m c main_arg1 (by decide)).symm)
  | ⟨2, _⟩ => (W9_main_v13 m c).symm

theorem hrest1 (c : Dev nD) (b : Ref sig .tc) (h : b ∉ Finset.univ.image (Pipeline.arrRef spec1)) :
    RegionRecord.tcVal (W9 m) c b = RegionRecord.tcVal (W8 m) c b :=
  W9_of m c b fun e => h (by rw [e]; exact Finset.mem_image.mpr ⟨(2 : Fin 3), Finset.mem_univ _, rfl⟩)

theorem hin1 (c : Dev nD) :
    iprop(Pipeline.ΦA (U := UR sig nD τ) spec1 c ∗ Pipeline.prefHeld (Ix := Unit) (Name := ℕ) (U := UR sig nD τ) (Lvl := ℕ) (pcfgs (F := F) 1).pre c (fun _ => fullShare) (adm (F := F) 1).1) ⊢ (dats1 (W8 m) c).Φ 0 := by
  rw [show (dats1 (W8 m) c).Φ 0 = Pipeline.ΦA spec1 c from rfl]
  iintro ⟨H, -⟩
  iexact H

theorem hout1 (c : Dev nD) :
    (dats1 (W8 m) c).Φ (Fin.last cfg1.N) ⊢ iprop(Pipeline.ΦA (U := UR sig nD τ) spec1 c ∗ Pipeline.prefHeld (Ix := Unit) (Name := ℕ) (U := UR sig nD τ) (Lvl := ℕ) (pcfgs (F := F) 1).pre c (fun _ => fullShare) (adm (F := F) 1).1) := by
  rw [show (dats1 (W8 m) c).Φ (Fin.last cfg1.N) = Pipeline.ΦA spec1 c from rfl]
  iintro H
  isplitl [H]; · iexact H
  iapply (prefHeld_none (F := F) 1 c)
  iempintro

set_option backward.isDefEq.respectTransparency.types false in
/-- The second region's record. -/
def R1 : RegionSeg (pcfgs (F := F)) adm (pdats m) () defs₀ Variants.none (fun _ => ∅) (fun _ _ => 0) 1 :=
  RegionRecord.regionSeg (pcfgs (F := F)) adm (pdats m) 1 launch1.toP defs₀ Variants.none (W8 m) (W9 m)
    (fun c => (body_obligation1 (W8 m) c).loose)
    (fun c w => (pdats m 1 c).share_full (fun _ => rfl) w) (fun _ _ => rfl) (fun _ => rfl)
    (fun c w => A1_eq (W8 m) c w)
    (fun c k => k.elim0)
    (hF1 m) (hrest1 m)
    (hin1 m) (hout1 m)

/-! ### The third region -/

theorem hF2 (c : Dev nD) : ∀ w : Fin 4, (dats2 (W9 m) c).arrAt w cfg2.N = RegionRecord.tcVal (W10 m) c (Pipeline.arrRef spec2 w)
  | ⟨0, _⟩ => ((dats2 (W9 m) c).arrAt_in 0 rfl _).trans ((A2_eq (W9 m) c 0).trans (W10_of m c main_v12 (by decide)).symm)
  | ⟨1, _⟩ => ((dats2 (W9 m) c).arrAt_in 1 rfl _).trans ((A2_eq (W9 m) c 1).trans (W10_of m c main_v13 (by decide)).symm)
  | ⟨2, _⟩ => ((dats2 (W9 m) c).arrAt_in 2 rfl _).trans ((A2_eq (W9 m) c 2).trans (W10_of m c main_v11 (by decide)).symm)
  | ⟨3, _⟩ => (W10_main_v14 m c).symm

theorem hrest2 (c : Dev nD) (b : Ref sig .tc) (h : b ∉ Finset.univ.image (Pipeline.arrRef spec2)) :
    RegionRecord.tcVal (W10 m) c b = RegionRecord.tcVal (W9 m) c b :=
  W10_of m c b fun e => h (by rw [e]; exact Finset.mem_image.mpr ⟨(3 : Fin 4), Finset.mem_univ _, rfl⟩)

theorem hin2' (c : Dev nD) :
    iprop(Pipeline.ΦA (U := UR sig nD τ) spec2 c ∗ Pipeline.prefHeld (Ix := Unit) (Name := ℕ) (U := UR sig nD τ) (Lvl := ℕ) (pcfgs (F := F) 2).pre c (fun _ => fullShare) (adm (F := F) 2).1) ⊢ (dats2 (W9 m) c).Φ 0 := by
  iintro ⟨H, -⟩
  iapply (hin2 (W9 m) c)
  iexact H

theorem hout2' (c : Dev nD) :
    (dats2 (W9 m) c).Φ (Fin.last cfg2.N) ⊢ iprop(Pipeline.ΦA (U := UR sig nD τ) spec2 c ∗ Pipeline.prefHeld (Ix := Unit) (Name := ℕ) (U := UR sig nD τ) (Lvl := ℕ) (pcfgs (F := F) 2).pre c (fun _ => fullShare) (adm (F := F) 2).1) := by
  iintro H
  ihave H' := (hout2 (W9 m) c) $$ H
  isplitl [H']; · iexact H'
  iapply (prefHeld_none (F := F) 2 c)
  iempintro

set_option backward.isDefEq.respectTransparency.types false in
/-- The third region's record. -/
def R2 : RegionSeg (pcfgs (F := F)) adm (pdats m) () defs₀ Variants.none (fun _ => ∅) (fun _ _ => 0) 2 :=
  RegionRecord.regionSeg (pcfgs (F := F)) adm (pdats m) 2 launch2.toP defs₀ Variants.none (W9 m) (W10 m)
    (fun c => (body_obligation2 (W9 m) c).loose)
    (fun c w => (pdats m 2 c).share_full (fun _ => rfl) w) (fun _ _ => rfl) (fun _ => rfl)
    (fun c w => A2_eq (W9 m) c w)
    (fun c k => k.elim0)
    (hF2 m) (hrest2 m)
    (hin2' m) (hout2' m)

/-! ## The records' ends are the conditional frame's thread states -/

theorem hpre0 (c : Dev nD) : (R0 m).pre c = RegionRecord.threadState (U := UR sig nD τ) (fun c => V7 m c) c := rfl
theorem hpost0 (c : Dev nD) : (R0 m).post c = RegionRecord.threadState (U := UR sig nD τ) (fun c => V8 m (outs m) c) c :=
  (congrArg (fun W => RegionRecord.threadState (U := UR sig nD τ) W c) (V8_fun m)).symm
theorem hpre1 (c : Dev nD) : (R1 m).pre c = RegionRecord.threadState (U := UR sig nD τ) (fun c => V8 m (outs m) c) c :=
  (congrArg (fun W => RegionRecord.threadState (U := UR sig nD τ) W c) (V8_fun m)).symm
theorem hpost1 (c : Dev nD) : (R1 m).post c = RegionRecord.threadState (U := UR sig nD τ) (fun c => V9 m (outs m) c) c :=
  (congrArg (fun W => RegionRecord.threadState (U := UR sig nD τ) W c) (V9_fun m)).symm
theorem hpre2 (c : Dev nD) : (R2 m).pre c = RegionRecord.threadState (U := UR sig nD τ) (fun c => V9 m (outs m) c) c :=
  (congrArg (fun W => RegionRecord.threadState (U := UR sig nD τ) W c) (V9_fun m)).symm
theorem hpost2 (c : Dev nD) : (R2 m).post c = RegionRecord.threadState (U := UR sig nD τ) (fun c => V10 m (outs m) c) c :=
  (congrArg (fun W => RegionRecord.threadState (U := UR sig nD τ) W c) (V10_fun m)).symm

/-! ## The run -/

/-- The frame: @main terminates and every argument ends as launched. -/
theorem frameI (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_only m ρ (outs m) Variants.none (pdats m) (R0 m) (hpre0 m) (hpost0 m) (R1 m) (hpre1 m) (hpost1 m) (R2 m) (hpre2 m) (hpost2 m)

/-- The run with the result's value: the strided slice of what the third region leaves. -/
theorem run_valI (ρ : Dev nD → PrngReg) :
    θ_run defs (onTc (τ := τ) (main (F := F))) ⟨m, fun _ => 0, ρ⟩ (fun r => ∀ c : Dev nD,
      r.2.mem ((c.tc : Thread nD τ).loc main_v15) = extractStridedSlice S4096x100 ![0, 0] (X2 m c) slices_S4096x128_S4096x100_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => by
      obtain ⟨h15, hargs⟩ := hr c
      refine ⟨h15.trans ?_, hargs⟩
      rw [V11_main_v15, V10_main_v14, outs_10])
    (frame_val m ρ (outs m) Variants.none (pdats m) (R0 m) (hpre0 m) (hpost0 m) (R1 m) (hpre1 m) (hpost1 m) (R2 m) (hpre2 m) (hpost2 m))

end Cert.Kernel.Records

end
-- ==== Proof.LaunchI.lean ====
import proofs.«146975_j56152402427977_2_alg».proof.Proof.Gen.KernelIdeal.Regions
import proofs.«146975_j56152402427977_2_alg».proof.Proof.LibRegionRecord
import Idealize.ShloMosaic.Lib.Pipeline.Kit

/-!
# The launch of a program of three kernel regions, given the regions' segment records

@main is host stretches, three kernel regions and one last host operation. Between two items every core holds each
unscoped buffer whole at a valuation, beside its generator register at some state and the core owing nothing. Given
one segment record per region, entered from that thread state at the valuation before the region and left at the one
after it, every weakly fair execution of @main terminates and every final memory holds the result buffer at the last
valuation and each argument as launched.
-/

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The rider ends owing nothing: the generator register is let go. -/
theorem rider_owes {U : Type} [URA U] (c : Dev nD) :
    (RegionRecord.rider (U := U) (Val := Elt F) c : sProp (MT nD τ sig Unit (Elt F) ℕ U ℕ))
      ⊢ iprop(∃ W, owes (c : Thread nD τ) (0 : CellTallies nD τ sig Unit) W) := by
  iintro ⟨-, HO⟩
  iexact HO

-- the launch theorem's implicit arguments are found by unifying its conclusion with this one, which takes unfolding
-- plain definitions in a metavariable's type
set_option backward.isDefEq.respectTransparency.types false in
/-- The launch over any user algebra whose launch element yields the pipeline library's: given the three regions'
    records between the thread states at the valuations around them, @main terminates and the final memory holds the
    result buffer at the last valuation and every argument as launched. -/
theorem frame_val_of
    {U : Type} [URA U]
    (EP : Emb (URounds (GSem nD τ sig) Unit) (MT nD τ sig Unit (Elt F) ℕ U ℕ)) [EP.LandsIn (upEmb : UEmb _ (MT nD τ sig Unit (Elt F) ℕ U ℕ))]
    (u₀ : U)
    (hu₀ : (ownU u₀ : sProp (MT nD τ sig Unit (Elt F) ℕ U ℕ)) ⊢ |={Set.univ}=> iprop(BI.own (EP (initOf (Pipeline.cells cfgs cellOf_inj) (Pipeline.launchToks cfgs cellOf_inj))) ∗ bigSep Finset.univ fun _ : Dev nD => (iprop(emp) : sProp (MT nD τ sig Unit (Elt F) ℕ U ℕ))))
    (m : (ℓ : Loc nD τ sig) → Buf (Elt F) ℓ) (ρ : Dev nD → PrngReg) (outs : Outs (F := F)) (𝒱₀ : Variants)
    (pdats : (p : Fin 3) → (c : Dev nD) → Dat τ (Elt F) Unit ℕ U ℕ (cfgs p) c)
    (R0 : RegionSeg (pcfgs (F := F)) adm pdats () defs₀ 𝒱₀ (fun _ => ∅) (fun _ _ => 0) 0)
    (hpre0 : ∀ c : Dev nD, R0.pre c = RegionRecord.threadState (fun c => V7 m c) c)
    (hpost0 : ∀ c : Dev nD, R0.post c = RegionRecord.threadState (fun c => V8 m outs c) c)
    (R1 : RegionSeg (pcfgs (F := F)) adm pdats () defs₀ 𝒱₀ (fun _ => ∅) (fun _ _ => 0) 1)
    (hpre1 : ∀ c : Dev nD, R1.pre c = RegionRecord.threadState (fun c => V8 m outs c) c)
    (hpost1 : ∀ c : Dev nD, R1.post c = RegionRecord.threadState (fun c => V9 m outs c) c)
    (R2 : RegionSeg (pcfgs (F := F)) adm pdats () defs₀ 𝒱₀ (fun _ => ∅) (fun _ _ => 0) 2)
    (hpre2 : ∀ c : Dev nD, R2.pre c = RegionRecord.threadState (fun c => V9 m outs c) c)
    (hpost2 : ∀ c : Dev nD, R2.post c = RegionRecord.threadState (fun c => V10 m outs c) c) :
    θ_run defs (onTc (τ := τ) (main (F := F))) ⟨m, fun _ => 0, ρ⟩ (fun r => ∀ c : Dev nD,
      r.2.mem ((c.tc : Thread nD τ).loc main_v15) = V11 m outs c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats () cellOf_inj EP defs₀ 𝒱₀ (fun _ => ∅) (fun _ _ => 0) m ρ main
    (segs m outs 𝒱₀ (fun _ => ∅) (fun _ _ => 0) (fun _ c => RegionRecord.rider c) () pdats R0 R1 R2)
    (fun c Q => by
      rewrite [main_chain c, Seg.run_eq_chain,
        show (segs m outs 𝒱₀ (fun _ => ∅) (fun _ _ => 0) (fun _ c => RegionRecord.rider c) () pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide) (O₀ := 0) (fun _ _ => rfl)
    (G := fun _ => iprop(emp)) u₀ hu₀
    (T₀ := fun c => iprop(StableHlo.held (c : Thread nD τ) (Pipeline.ucRefs τ sig) (V0 m c) ∗ RegionRecord.rider c))
    (Tₙ := fun c => StableHlo.held (c : Thread nD τ) (Pipeline.ucRefs τ sig) (V11 m outs c))
    (hch := fun c => ⟨.rfl, .rfl, .rfl, .rfl, .rfl, .rfl, .rfl,
      Entails.of_eq (hpre0 c).symm,
      (Entails.of_eq (hpost0 c)).trans (Entails.of_eq (hpre1 c).symm),
      (Entails.of_eq (hpost1 c)).trans (Entails.of_eq (hpre2 c).symm),
      Entails.of_eq (hpost2 c),
      sep_mono .rfl (rider_owes c)⟩)
    (hinit := ?_) (QY := fun c s => s.mem ((c.tc : Thread nD τ).loc main_v15) = V11 m outs c main_v15 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are held at the launch contents; the register and the dues make the rider
    refine Pipeline.initEach (fun _ => ∅) (fun _ _ => 0) fun c => ?_
    rw [show unscopedBufs c (fun b => m ((c.tc : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: each buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v15) (Finset.mem_filter.mpr ⟨StableHlo.devRef_mem_tcRefs main_v15, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c)⟩
    · iexact HSI

/-- The pipeline library's launch element, in the algebra that is the library's own, yields itself and nothing else. -/
theorem own_launch :
    (ownU (initOf (Pipeline.cells cfgs cellOf_inj) (Pipeline.launchToks cfgs cellOf_inj)) : sProp (MT nD τ sig Unit (Elt F) ℕ (UR sig nD τ) ℕ))
      ⊢ |={Set.univ}=> iprop(BI.own ((emb₁ : Emb (UR sig nD τ) (MT nD τ sig Unit (Elt F) ℕ (UR sig nD τ) ℕ)) (initOf (Pipeline.cells cfgs cellOf_inj) (Pipeline.launchToks cfgs cellOf_inj)))
          ∗ bigSep Finset.univ fun _ : Dev nD => (iprop(emp) : sProp (MT nD τ sig Unit (Elt F) ℕ (UR sig nD τ) ℕ))) := by
  rw [ownU_emb₁]
  iintro HP
  imodintro
  isplitl [HP]; · iexact HP
  iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
  iempintro

/-- The launch at the pipeline library's own algebra. -/
theorem frame_val
    (m : (ℓ : Loc nD τ sig) → Buf (Elt F) ℓ) (ρ : Dev nD → PrngReg) (outs : Outs (F := F)) (𝒱₀ : Variants)
    (pdats : (p : Fin 3) → (c : Dev nD) → Dat τ (Elt F) Unit ℕ (UR sig nD τ) ℕ (cfgs p) c)
    (R0 : RegionSeg (pcfgs (F := F)) adm pdats () defs₀ 𝒱₀ (fun _ => ∅) (fun _ _ => 0) 0)
    (hpre0 : ∀ c : Dev nD, R0.pre c = RegionRecord.threadState (fun c => V7 m c) c)
    (hpost0 : ∀ c : Dev nD, R0.post c = RegionRecord.threadState (fun c => V8 m outs c) c)
    (R1 : RegionSeg (pcfgs (F := F)) adm pdats () defs₀ 𝒱₀ (fun _ => ∅) (fun _ _ => 0) 1)
    (hpre1 : ∀ c : Dev nD, R1.pre c = RegionRecord.threadState (fun c => V8 m outs c) c)
    (hpost1 : ∀ c : Dev nD, R1.post c = RegionRecord.threadState (fun c => V9 m outs c) c)
    (R2 : RegionSeg (pcfgs (F := F)) adm pdats () defs₀ 𝒱₀ (fun _ => ∅) (fun _ _ => 0) 2)
    (hpre2 : ∀ c : Dev nD, R2.pre c = RegionRecord.threadState (fun c => V9 m outs c) c)
    (hpost2 : ∀ c : Dev nD, R2.post c = RegionRecord.threadState (fun c => V10 m outs c) c) :
    θ_run defs (onTc (τ := τ) (main (F := F))) ⟨m, fun _ => 0, ρ⟩ (fun r => ∀ c : Dev nD,
      r.2.mem ((c.tc : Thread nD τ).loc main_v15) = V11 m outs c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_val_of emb₁ _ own_launch m ρ outs 𝒱₀ pdats R0 hpre0 hpost0 R1 hpre1 hpost1 R2 hpre2 hpost2

set_option backward.isDefEq.respectTransparency.types false in
/-- The arguments' part alone, as the generated conditional frame gives it at the rider for every rest state. -/
theorem frame_only_of
    {U : Type} [URA U]
    (EP : Emb (URounds (GSem nD τ sig) Unit) (MT nD τ sig Unit (Elt F) ℕ U ℕ)) [EP.LandsIn (upEmb : UEmb _ (MT nD τ sig Unit (Elt F) ℕ U ℕ))]
    (u₀ : U)
    (hu₀ : (ownU u₀ : sProp (MT nD τ sig Unit (Elt F) ℕ U ℕ)) ⊢ |={Set.univ}=> iprop(BI.own (EP (initOf (Pipeline.cells cfgs cellOf_inj) (Pipeline.launchToks cfgs cellOf_inj))) ∗ bigSep Finset.univ fun _ : Dev nD => (iprop(emp) : sProp (MT nD τ sig Unit (Elt F) ℕ U ℕ))))
    (m : (ℓ : Loc nD τ sig) → Buf (Elt F) ℓ) (ρ : Dev nD → PrngReg) (outs : Outs (F := F)) (𝒱₀ : Variants)
    (pdats : (p : Fin 3) → (c : Dev nD) → Dat τ (Elt F) Unit ℕ U ℕ (cfgs p) c)
    (R0 : RegionSeg (pcfgs (F := F)) adm pdats () defs₀ 𝒱₀ (fun _ => ∅) (fun _ _ => 0) 0)
    (hpre0 : ∀ c : Dev nD, R0.pre c = RegionRecord.threadState (fun c => V7 m c) c)
    (hpost0 : ∀ c : Dev nD, R0.post c = RegionRecord.threadState (fun c => V8 m outs c) c)
    (R1 : RegionSeg (pcfgs (F := F)) adm pdats () defs₀ 𝒱₀ (fun _ => ∅) (fun _ _ => 0) 1)
    (hpre1 : ∀ c : Dev nD, R1.pre c = RegionRecord.threadState (fun c => V8 m outs c) c)
    (hpost1 : ∀ c : Dev nD, R1.post c = RegionRecord.threadState (fun c => V9 m outs c) c)
    (R2 : RegionSeg (pcfgs (F := F)) adm pdats () defs₀ 𝒱₀ (fun _ => ∅) (fun _ _ => 0) 2)
    (hpre2 : ∀ c : Dev nD, R2.pre c = RegionRecord.threadState (fun c => V9 m outs c) c)
    (hpost2 : ∀ c : Dev nD, R2.post c = RegionRecord.threadState (fun c => V10 m outs c) c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine frame_cond m EP () 𝒱₀ (fun _ => ∅) (fun _ _ => 0) (fun _ _ => rfl) ρ outs pdats 0 (fun _ => iprop(emp)) u₀ hu₀
    (fun _ c => RegionRecord.rider c) ?_ (fun c => rider_owes c)
    R0 (fun c => Entails.of_eq (hpre0 c).symm) (fun c => Entails.of_eq (hpost0 c))
    R1 (fun c => Entails.of_eq (hpre1 c).symm) (fun c => Entails.of_eq (hpost1 c))
    R2 (fun c => Entails.of_eq (hpre2 c).symm) (fun c => Entails.of_eq (hpost2 c))
  refine Pipeline.initEach (fun _ => ∅) (fun _ _ => 0) fun c => ?_
  iintro ⟨⟨-, HO, -, Hp, -⟩, -⟩
  imodintro
  isplitl [Hp]; · iexists _; iexact Hp
  iexists ∅; iexact HO

/-- The arguments' part at the pipeline library's own algebra. -/
theorem frame_only
    (m : (ℓ : Loc nD τ sig) → Buf (Elt F) ℓ) (ρ : Dev nD → PrngReg) (outs : Outs (F := F)) (𝒱₀ : Variants)
    (pdats : (p : Fin 3) → (c : Dev nD) → Dat τ (Elt F) Unit ℕ (UR sig nD τ) ℕ (cfgs p) c)
    (R0 : RegionSeg (pcfgs (F := F)) adm pdats () defs₀ 𝒱₀ (fun _ => ∅) (fun _ _ => 0) 0)
    (hpre0 : ∀ c : Dev nD, R0.pre c = RegionRecord.threadState (fun c => V7 m c) c)
    (hpost0 : ∀ c : Dev nD, R0.post c = RegionRecord.threadState (fun c => V8 m outs c) c)
    (R1 : RegionSeg (pcfgs (F := F)) adm pdats () defs₀ 𝒱₀ (fun _ => ∅) (fun _ _ => 0) 1)
    (hpre1 : ∀ c : Dev nD, R1.pre c = RegionRecord.threadState (fun c => V8 m outs c) c)
    (hpost1 : ∀ c : Dev nD, R1.post c = RegionRecord.threadState (fun c => V9 m outs c) c)
    (R2 : RegionSeg (pcfgs (F := F)) adm pdats () defs₀ 𝒱₀ (fun _ => ∅) (fun _ _ => 0) 2)
    (hpre2 : ∀ c : Dev nD, R2.pre c = RegionRecord.threadState (fun c => V9 m outs c) c)
    (hpost2 : ∀ c : Dev nD, R2.post c = RegionRecord.threadState (fun c => V10 m outs c) c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_only_of emb₁ _ own_launch m ρ outs 𝒱₀ pdats R0 hpre0 hpost0 R1 hpre1 hpost1 R2 hpre2 hpost2

end Cert.KernelIdeal.Launch

end
-- ==== Proof.LaunchValI.lean ====
import proofs.«146975_j56152402427977_2_alg».proof.Proof.Gen.KernelIdeal.Regions

/-!
# The valuations between @main's items read at the regions' outputs and at the result

After each kernel region the valuation holds, at the buffer the region may change, that region's unknown contents;
the last valuation holds at the result the strided slice of what the third region leaves.
-/

noncomputable section

namespace Cert.KernelIdeal.Launch

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (outs : Outs (F := F))

/-- The valuation after the first region at its output is that region's unknown contents. -/
theorem V8_main_v12 (c : Dev nD) : V8 m outs c main_v12 = outs 8 main_v12 c := by
  simp only [V8, Function.update_self]

/-- The valuation after the second region at its output is that region's unknown contents. -/
theorem V9_main_v13 (c : Dev nD) : V9 m outs c main_v13 = outs 9 main_v13 c := by
  simp only [V9, Function.update_self]

/-- The valuation after the third region at its output is that region's unknown contents. -/
theorem V10_main_v14 (c : Dev nD) : V10 m outs c main_v14 = outs 10 main_v14 c := by
  simp only [V10, Function.update_self]

/-- The last valuation at the result: the strided slice of the third region's output. -/
theorem V11_main_v15 (c : Dev nD) :
    V11 m outs c main_v15 = extractStridedSlice S4096x100 ![0, 0] (V10 m outs c main_v14) slices_S4096x128_S4096x100_0_0 := by
  simp only [V11, hostOps3, StableHlo.after_cons, StableHlo.after_nil]
  exact StableHlo.unary_result' _ _ _ _

end Cert.KernelIdeal.Launch

end
-- ==== Proof.BodyI.lean ====
import proofs.«146975_j56152402427977_2_alg».proof.Proof.Gen.KernelIdeal.Launch
import proofs.«146975_j56152402427977_2_alg».proof.Proof.Gen.KernelIdeal.Skeleton
import proofs.«146975_j56152402427977_2_alg».proof.Proof.Gen.KernelIdeal.Points
import proofs.«146975_j56152402427977_2_alg».proof.Proof.LibLastStore
import Idealize.ShloMosaic.Lib.Pipeline.FrameBody
import Idealize.ShloMosaic.Lib.Ring
import Idealize.ShloMosaic.Lib.Tactic

/-!
# The three kernel bodies run on whole staging buffers

Each body, started with its input buffers at given contents, runs to the end and leaves every buffer it stores into
at the payload of its last store there, a pure function of what it loaded. The projection kernels load two blocks and
store one. The accumulating kernel keeps a running absolute sum and a running weighted sum in two scratch buffers: at
the first step of a row tile it zeroes them first, at every step it adds the step's contribution, and at the last step
it also stores the quotient into its output block.
-/

set_option maxRecDepth 16384

noncomputable section

namespace Cert.KernelIdeal.Body

open Cert.KernelIdeal Cert.KernelIdeal.Gen Cert.Lib.LastStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

set_option maxHeartbeats 1000000 in
/-- The first projection kernel: the output buffer ends at the row-scaled projection of the two loaded blocks. -/
theorem run0 (c : Dev nD) (i : grid0.Coords) (arg1 : Memref sig .tc .vmem S512x512 .f32) (harg1 : arg1.IsWhole)
    (arg2 : Memref sig .tc .vmem S512x512 .f32) (harg2 : arg2.IsWhole) (arg3 : Memref sig .tc .vmem S512x512 .bf16) (harg3 : arg3.IsWhole)
    (x0 : Vec F S512x512 .f32) (x1 : Vec F S512x512 .f32) (d3 : Vec F S512x512 .bf16) (E : Set ℕ) (K : PUnit → sProp 𝕄) :
    iprop(owns (c : Thread nD τ) arg1 fullShare x0 ∗ owns (c : Thread nD τ) arg2 fullShare x1 ∗ owns (c : Thread nD τ) arg3 fullShare d3
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__proj_norm_kernel i arg1 harg1 arg2 harg2 arg3 harg3) K := by
  simp only [cc0__proj_norm_kernel_eq_skeleton]; unfold cc0__proj_norm_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [read_last_whole_store (S := S512x512) _ _ zero_offsets]
  simp only [View.readAt_eq_ld, harg1.read_unread, harg2.read_unread, View.ld_unit_zero (S := S512x512) zero_offsets]

set_option maxHeartbeats 1000000 in
/-- The second projection kernel, on blocks of 1024 rows. -/
theorem run1 (c : Dev nD) (i : grid1.Coords) (arg1 : Memref sig .tc .vmem S1024x512 .f32) (harg1 : arg1.IsWhole)
    (arg2 : Memref sig .tc .vmem S512x512 .f32) (harg2 : arg2.IsWhole) (arg3 : Memref sig .tc .vmem S1024x512 .bf16) (harg3 : arg3.IsWhole)
    (x0 : Vec F S1024x512 .f32) (x1 : Vec F S512x512 .f32) (d3 : Vec F S1024x512 .bf16) (E : Set ℕ) (K : PUnit → sProp 𝕄) :
    iprop(owns (c : Thread nD τ) arg1 fullShare x0 ∗ owns (c : Thread nD τ) arg2 fullShare x1 ∗ owns (c : Thread nD τ) arg3 fullShare d3
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__proj_norm_kernel i arg1 harg1 arg2 harg2 arg3 harg3) K := by
  simp only [cc1__proj_norm_kernel_eq_skeleton]; unfold cc1__proj_norm_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [read_last_whole_store (S := S1024x512) _ _ zero_offsets]
  simp only [View.readAt_eq_ld, harg1.read_unread, harg2.read_unread, View.ld_unit_zero (S := S1024x512) zero_offsets,
    View.ld_unit_zero (S := S512x512) zero_offsets]

/-- The accumulating kernel is at the first step of a row tile: it zeroes its scratch. -/
abbrev first2 (i : grid2.Coords) : Prop :=
  (Scalar.cmpi .ne (Scalar.extui (Scalar.cmpi .eq (BitVec.ofNat 32 (i 1).val) 0#32)) 0#32) = 1#1
/-- It is at the last step: it stores the quotient. -/
abbrev last2 (i : grid2.Coords) : Prop := k2_cond2 i = 1#1

set_option maxHeartbeats 2000000 in
/-- First step of a row tile: both scratch buffers restart from zero plus this step's contribution; the output block
    is not touched. -/
theorem run2_first (c : Dev nD) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x128 .bf16) (harg4 : arg4.IsWhole) (arg5 : Memref sig .tc .vmem S1024x128 .f32) (harg5 : arg5.IsWhole)
    (arg6 : Memref sig .tc .vmem S1024x1 .f32) (harg6 : arg6.IsWhole) (arg7 : Memref sig .tc .vmem S1024x128 .f32) (harg7 : arg7.IsWhole)
    (hc0 : first2 i) (hc1 : ¬last2 i)
    (x0 : Vec F S1024x512 .bf16) (x1 : Vec F S1024x512 .bf16) (x2 : Vec F S1024x128 .bf16) (x3 : Vec F S1024x128 .f32)
    (s6 : Vec F S1024x1 .f32) (s7 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k2_pay4 x0 x1 (k2_pay1 (F := F)))
            ∗ owns (c : Thread nD τ) arg7 fullShare (k2_pay5 x0 x1 x2 (k2_pay2 (F := F)))) -∗ K ⟨⟩))
      ⊢ wp frame (wpE (defs₀ (F := F)) Variants.none c none) E (cc2__echo_kernel i arg2 harg2 arg3 harg3 arg4 harg4 arg5 harg5 arg6 harg6 arg7 harg7) K := by
  simp only [cc2__echo_kernel_eq_skeleton]; unfold cc2__echo_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_run_names
    simp only [View.readAt_eq_ld, View.readCov_unit_zero (S := S1024x1) _ zero_offsets, View.readCov_unit_zero (S := S1024x128) _ zero_offsets, read_last_whole_store (S := S1024x1) _ _ zero_offsets, harg2.read_unread, harg3.read_unread,
      View.ld_unit_zero (S := S1024x512) zero_offsets, View.ld_unit_zero (S := S1024x1) zero_offsets]
  · iexists _; isplitr
    swap; · iexact H7
    ipureintro
    sl_unfold_run_names
    simp only [View.readAt_eq_ld, View.readCov_unit_zero (S := S1024x1) _ zero_offsets, View.readCov_unit_zero (S := S1024x128) _ zero_offsets, read_last_whole_store (S := S1024x128) _ _ zero_offsets, harg2.read_unread, harg3.read_unread, harg4.read_unread,
      View.ld_unit_zero (S := S1024x512) zero_offsets, View.ld_unit_zero (S := S1024x128) zero_offsets]

set_option maxHeartbeats 2000000 in
/-- A middle step: both scratch buffers gain this step's contribution; the output block is not touched. -/
theorem run2_mid (c : Dev nD) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x128 .bf16) (harg4 : arg4.IsWhole) (arg5 : Memref sig .tc .vmem S1024x128 .f32) (harg5 : arg5.IsWhole)
    (arg6 : Memref sig .tc .vmem S1024x1 .f32) (harg6 : arg6.IsWhole) (arg7 : Memref sig .tc .vmem S1024x128 .f32) (harg7 : arg7.IsWhole)
    (hc0 : ¬first2 i) (hc1 : ¬last2 i)
    (x0 : Vec F S1024x512 .bf16) (x1 : Vec F S1024x512 .bf16) (x2 : Vec F S1024x128 .bf16) (x3 : Vec F S1024x128 .f32)
    (s6 : Vec F S1024x1 .f32) (s7 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k2_pay4 x0 x1 s6)
            ∗ owns (c : Thread nD τ) arg7 fullShare (k2_pay5 x0 x1 x2 s7)) -∗ K ⟨⟩))
      ⊢ wp frame (wpE (defs₀ (F := F)) Variants.none c none) E (cc2__echo_kernel i arg2 harg2 arg3 harg3 arg4 harg4 arg5 harg5 arg6 harg6 arg7 harg7) K := by
  simp only [cc2__echo_kernel_eq_skeleton]; unfold cc2__echo_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    sl_unfold_run_names
    simp only [View.readAt_eq_ld, View.readCov_unit_zero (S := S1024x1) _ zero_offsets, View.readCov_unit_zero (S := S1024x128) _ zero_offsets, read_last_whole_store (S := S1024x1) _ _ zero_offsets, harg2.read_unread, harg3.read_unread, harg6.read_unread,
      View.ld_unit_zero (S := S1024x512) zero_offsets, View.ld_unit_zero (S := S1024x1) zero_offsets]
  · iexists _; isplitr
    swap; · iexact H7
    ipureintro
    sl_unfold_run_names
    simp only [View.readAt_eq_ld, View.readCov_unit_zero (S := S1024x1) _ zero_offsets, View.readCov_unit_zero (S := S1024x128) _ zero_offsets, read_last_whole_store (S := S1024x128) _ _ zero_offsets, harg2.read_unread, harg3.read_unread, harg4.read_unread, harg7.read_unread,
      View.ld_unit_zero (S := S1024x512) zero_offsets, View.ld_unit_zero (S := S1024x128) zero_offsets]

set_option maxHeartbeats 2000000 in
/-- The last step: the scratch buffers gain the step's contribution and the output block receives the quotient of the
    two totals. -/
theorem run2_last (c : Dev nD) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x128 .bf16) (harg4 : arg4.IsWhole) (arg5 : Memref sig .tc .vmem S1024x128 .f32) (harg5 : arg5.IsWhole)
    (arg6 : Memref sig .tc .vmem S1024x1 .f32) (harg6 : arg6.IsWhole) (arg7 : Memref sig .tc .vmem S1024x128 .f32) (harg7 : arg7.IsWhole)
    (hc0 : ¬first2 i) (hc1 : last2 i)
    (x0 : Vec F S1024x512 .bf16) (x1 : Vec F S1024x512 .bf16) (x2 : Vec F S1024x128 .bf16) (x3 : Vec F S1024x128 .f32)
    (s6 : Vec F S1024x1 .f32) (s7 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare s6 ∗ owns (c : Thread nD τ) arg7 fullShare s7
        ∗ (iprop(owns (c : Thread nD τ) arg2 fullShare x0 ∗ owns (c : Thread nD τ) arg3 fullShare x1 ∗ owns (c : Thread nD τ) arg4 fullShare x2
            ∗ owns (c : Thread nD τ) arg5 fullShare (k2_pay6 (k2_pay4 x0 x1 s6) (k2_pay5 x0 x1 x2 s7))
            ∗ owns (c : Thread nD τ) arg6 fullShare (k2_pay4 x0 x1 s6)
            ∗ owns (c : Thread nD τ) arg7 fullShare (k2_pay5 x0 x1 x2 s7)) -∗ K ⟨⟩))
      ⊢ wp frame (wpE (defs₀ (F := F)) Variants.none c none) E (cc2__echo_kernel i arg2 harg2 arg3 harg3 arg4 harg4 arg5 harg5 arg6 harg6 arg7 harg7) K := by
  simp only [cc2__echo_kernel_eq_skeleton]; unfold cc2__echo_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf6; obtain rfl := harg7.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    simp only [View.readAt_eq_ld, View.readCov_unit_zero (S := S1024x1) _ zero_offsets, View.readCov_unit_zero (S := S1024x128) _ zero_offsets, read_last_whole_store (S := S1024x128) _ _ zero_offsets, read_last_whole_store (S := S1024x1) _ _ zero_offsets, harg2.read_unread, harg3.read_unread, harg4.read_unread,
      harg6.read_unread, harg7.read_unread,
      View.ld_unit_zero (S := S1024x512) zero_offsets, View.ld_unit_zero (S := S1024x128) zero_offsets, View.ld_unit_zero (S := S1024x1) zero_offsets]
  isplitl [H6]
  · iexists _; isplitr
    swap; · iexact H6
    ipureintro
    sl_unfold_run_names
    simp only [View.readAt_eq_ld, View.readCov_unit_zero (S := S1024x1) _ zero_offsets, View.readCov_unit_zero (S := S1024x128) _ zero_offsets, read_last_whole_store (S := S1024x1) _ _ zero_offsets, harg2.read_unread, harg3.read_unread, harg6.read_unread,
      View.ld_unit_zero (S := S1024x512) zero_offsets, View.ld_unit_zero (S := S1024x1) zero_offsets]
  · iexists _; isplitr
    swap; · iexact H7
    ipureintro
    sl_unfold_run_names
    simp only [View.readAt_eq_ld, View.readCov_unit_zero (S := S1024x1) _ zero_offsets, View.readCov_unit_zero (S := S1024x128) _ zero_offsets, read_last_whole_store (S := S1024x128) _ _ zero_offsets, harg2.read_unread, harg3.read_unread, harg4.read_unread, harg7.read_unread,
      View.ld_unit_zero (S := S1024x512) zero_offsets, View.ld_unit_zero (S := S1024x128) zero_offsets]

end Cert.KernelIdeal.Body

end
-- ==== Proof.Data01I.lean ====
import proofs.«146975_j56152402427977_2_alg».proof.Proof.BodyI
import proofs.«146975_j56152402427977_2_alg».proof.Proof.Gen.KernelIdeal.Regions
import proofs.«146975_j56152402427977_2_alg».proof.Proof.LibRegionRecord
import Idealize.ShloMosaic.Lib.Pipeline.FrameBody
import Idealize.ShloMosaic.Lib.Pipeline.Kit
import Idealize.ShloMosaic.Lib.Ring
import Idealize.ShloMosaic.Lib.Tactic

/-!
# The proof data of the two projection regions

For a region entered with the unscoped buffers at a valuation W: what each window's staging buffer holds after the
body at each grid point, and the body obligation. Both regions are a pointwise pipeline: no scratch, no branch.
-/

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's unscoped buffers when a region is entered, per core
variable (W : Dev nD → Valuation τ sig (Elt F))

/-! ## The projection region 0: every point loads a block of rows and the whole weight matrix and stores the scaled projection -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (RegionRecord.tcVal W c (Pipeline.arrRef spec0 w))

/-- The proof data: the arrays as found; after the body each input's buffer at its block, the output's at the scaled
    projection of the two blocks; the invariant the scoped rest and the generator register, untouched. -/
def dats0 (c : Dev nD) : Dat τ (Elt F) Unit ℕ (UR sig nD τ) ℕ cfg0 c where
  A w := RegionRecord.tcVal W c (Pipeline.arrRef spec0 w)
  after w t := match w with
    | ⟨0, _⟩ => iblk0 W c 0 t
    | ⟨1, _⟩ => iblk0 W c 1 t
    | ⟨2, _⟩ => k0_pay1 (iblk0 W c 0 t) (iblk0 W c 1 t)
  Φ _ := Pipeline.ΦA spec0 c
  q _ := fullShare
  owed _ := 0

theorem A0_eq (c : Dev nD) (w : Fin cfg0.W) : (dats0 W c).A w = RegionRecord.tcVal W c (Pipeline.arrRef spec0 w) := by
  dsimp only [dats0]

theorem after0_0 (c : Dev nD) (t : Fin cfg0.N) : (dats0 W c).after 0 t = iblk0 W c 0 t := by dsimp only [dats0]
theorem after0_1 (c : Dev nD) (t : Fin cfg0.N) : (dats0 W c).after 1 t = iblk0 W c 1 t := by dsimp only [dats0]
theorem after0_2 (c : Dev nD) (t : Fin cfg0.N) :
    (dats0 W c).after 2 t = k0_pay1 (iblk0 W c 0 t) (iblk0 W c 1 t) := by dsimp only [dats0]

/-- Each input's current staging buffer holds its block at every point, fetched there or not. -/
theorem before0_0 (c : Dev nD) (t : Fin cfg0.N) (d) : (dats0 W c).before 0 t d = iblk0 W c 0 t :=
  ((dats0 W c).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dats0 W c).before 1 t d = iblk0 W c 1 t :=
  ((dats0 W c).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)

/-- What the body is called with at point t, -/
def bodyPre0 (c : Dev nD) (t : Fin cfg0.N) : sProp 𝕄 :=
  iprop((dats0 W c).Φ t.castSucc ∗ (dats0 W c).owesAt () t.castSucc
    ∗ (∃ d, owns (c : Thread nD τ) (st0_0 t) fullShare ((dats0 W c).before 0 t d))
    ∗ (∃ d, owns (c : Thread nD τ) (st0_1 t) fullShare ((dats0 W c).before 1 t d))
    ∗ (∃ d, owns (c : Thread nD τ) (st0_2 t) fullShare ((dats0 W c).before 2 t d)))

/-- and what it returns. -/
def bodyPost0 (c : Dev nD) (t : Fin cfg0.N) : sProp 𝕄 :=
  iprop((dats0 W c).Φ t.succ ∗ (dats0 W c).owesAt () t.succ
    ∗ owns (c : Thread nD τ) (st0_0 t) fullShare ((dats0 W c).after 0 t)
    ∗ owns (c : Thread nD τ) (st0_1 t) fullShare ((dats0 W c).after 1 t)
    ∗ owns (c : Thread nD τ) (st0_2 t) fullShare ((dats0 W c).after 2 t))

/-- The body at any point: the inputs' buffers hold their blocks, so the body's run applies; the invariant and what
    the core owes pass through unread. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1]
  rw [show (dats0 W c).Φ t.succ = (dats0 W c).Φ t.castSucc from rfl,
    show (dats0 W c).owesAt () t.succ = (dats0 W c).owesAt () t.castSucc from rfl,
    after0_0, after0_1, after0_2]
  iintro ⟨HΦ, Ho, ⟨%d0, H0⟩, ⟨%d1, H1⟩, ⟨%d2, H2⟩⟩
  iapply (run0 c _ _ _ _ _ _ _ (iblk0 W c 0 t) (iblk0 W c 1 t) _ Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dats0 (F := F) W c) (defs₀ (F := F)) Variants.none () Set.univ := fun t => by
  rw [bigSep_W0, bigSep_W0]
  exact sound_body0 W c t

/-! ## The projection region 1: every point loads a block of rows and the whole weight matrix and stores the scaled projection -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (RegionRecord.tcVal W c (Pipeline.arrRef spec1 w))

/-- The proof data: the arrays as found; after the body each input's buffer at its block, the output's at the scaled
    projection of the two blocks; the invariant the scoped rest and the generator register, untouched. -/
def dats1 (c : Dev nD) : Dat τ (Elt F) Unit ℕ (UR sig nD τ) ℕ cfg1 c where
  A w := RegionRecord.tcVal W c (Pipeline.arrRef spec1 w)
  after w t := match w with
    | ⟨0, _⟩ => iblk1 W c 0 t
    | ⟨1, _⟩ => iblk1 W c 1 t
    | ⟨2, _⟩ => k1_pay1 (iblk1 W c 0 t) (iblk1 W c 1 t)
  Φ _ := Pipeline.ΦA spec1 c
  q _ := fullShare
  owed _ := 0

theorem A1_eq (c : Dev nD) (w : Fin cfg1.W) : (dats1 W c).A w = RegionRecord.tcVal W c (Pipeline.arrRef spec1 w) := by
  dsimp only [dats1]

theorem after1_0 (c : Dev nD) (t : Fin cfg1.N) : (dats1 W c).after 0 t = iblk1 W c 0 t := by dsimp only [dats1]
theorem after1_1 (c : Dev nD) (t : Fin cfg1.N) : (dats1 W c).after 1 t = iblk1 W c 1 t := by dsimp only [dats1]
theorem after1_2 (c : Dev nD) (t : Fin cfg1.N) :
    (dats1 W c).after 2 t = k1_pay1 (iblk1 W c 0 t) (iblk1 W c 1 t) := by dsimp only [dats1]

/-- Each input's current staging buffer holds its block at every point, fetched there or not. -/
theorem before1_0 (c : Dev nD) (t : Fin cfg1.N) (d) : (dats1 W c).before 0 t d = iblk1 W c 0 t :=
  ((dats1 W c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dats1 W c).before 1 t d = iblk1 W c 1 t :=
  ((dats1 W c).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)

/-- What the body is called with at point t, -/
def bodyPre1 (c : Dev nD) (t : Fin cfg1.N) : sProp 𝕄 :=
  iprop((dats1 W c).Φ t.castSucc ∗ (dats1 W c).owesAt () t.castSucc
    ∗ (∃ d, owns (c : Thread nD τ) (st1_0 t) fullShare ((dats1 W c).before 0 t d))
    ∗ (∃ d, owns (c : Thread nD τ) (st1_1 t) fullShare ((dats1 W c).before 1 t d))
    ∗ (∃ d, owns (c : Thread nD τ) (st1_2 t) fullShare ((dats1 W c).before 2 t d)))

/-- and what it returns. -/
def bodyPost1 (c : Dev nD) (t : Fin cfg1.N) : sProp 𝕄 :=
  iprop((dats1 W c).Φ t.succ ∗ (dats1 W c).owesAt () t.succ
    ∗ owns (c : Thread nD τ) (st1_0 t) fullShare ((dats1 W c).after 0 t)
    ∗ owns (c : Thread nD τ) (st1_1 t) fullShare ((dats1 W c).after 1 t)
    ∗ owns (c : Thread nD τ) (st1_2 t) fullShare ((dats1 W c).after 2 t))

/-- The body at any point: the inputs' buffers hold their blocks, so the body's run applies; the invariant and what
    the core owes pass through unread. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1]
  rw [show (dats1 W c).Φ t.succ = (dats1 W c).Φ t.castSucc from rfl,
    show (dats1 W c).owesAt () t.succ = (dats1 W c).owesAt () t.castSucc from rfl,
    after1_0, after1_1, after1_2]
  iintro ⟨HΦ, Ho, ⟨%d0, H0⟩, ⟨%d1, H1⟩, ⟨%d2, H2⟩⟩
  iapply (run1 c _ _ _ _ _ _ _ (iblk1 W c 0 t) (iblk1 W c 1 t) _ Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dats1 (F := F) W c) (defs₀ (F := F)) Variants.none () Set.univ := fun t => by
  rw [bigSep_W1, bigSep_W1]
  exact sound_body1 W c t

end Cert.KernelIdeal.Data

end
-- ==== Proof.Data2I.lean ====
import proofs.«146975_j56152402427977_2_alg».proof.Proof.BodyI
import proofs.«146975_j56152402427977_2_alg».proof.Proof.Gen.KernelIdeal.Regions
import proofs.«146975_j56152402427977_2_alg».proof.Proof.LibRegionRecord
import Idealize.ShloMosaic.Lib.Pipeline.FrameBody
import Idealize.ShloMosaic.Lib.Pipeline.Kit
import Idealize.ShloMosaic.Lib.Ring
import Idealize.ShloMosaic.Lib.Tactic

/-!
# The proof data of the accumulating region

The region's grid is 4 row tiles by 20 steps. Two scratch buffers carry, across the 20 steps of a row tile, the running
absolute sum and the running weighted sum; the first step of a row tile restarts them from zero, the last step stores
their quotient into the output block, which is written back there and nowhere else. What the scratch buffers hold after
each point is a recursion on the point; the region's invariant holds them at exactly that.
-/

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's unscoped buffers when a region is entered, per core
variable (W : Dev nD → Valuation τ sig (Elt F))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (RegionRecord.tcVal W c (Pipeline.arrRef spec2 w))

/-- The two scratch buffers, whole. -/
abbrev scM6 : Memref sig .tc .vmem S1024x1 .f32 := Memref.whole cc2_scratch0
abbrev scM7 : Memref sig .tc .vmem S1024x128 .f32 := Memref.whole cc2_scratch1

/-! ## The two conditions over the grid, and where the output window is idle -/

theorem hfirst2 : ∀ t : Fin cfg2.N, first2 (grid2.coords t) ↔ t.val % 20 = 0 :=
  (by decide +kernel : ∀ t : Fin grid2.N, first2 (grid2.coords t) ↔ t.val % 20 = 0)
theorem hlast2 : ∀ t : Fin cfg2.N, last2 (grid2.coords t) ↔ t.val % 20 = 19 :=
  (by decide +kernel : ∀ t : Fin grid2.N, last2 (grid2.coords t) ↔ t.val % 20 = 19)
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem idle2_3 : ∀ t : Fin cfg2.N, ¬last2 (grid2.coords t) → cfg2.idle 3 (grid2.coords t) = true := by decide +kernel
theorem noFlush2_3 : ∀ t : Fin cfg2.N, ¬last2 (grid2.coords t) → (cfg2.win 3).flush t = false := by decide +kernel
theorem live2_3 : ∀ t : Fin cfg2.N, last2 (grid2.coords t) → cfg2.idle 3 (grid2.coords t) = false := by decide +kernel

/-! ## What the scratch buffers hold after each point -/

/-- The running absolute sum and the running weighted sum after point n: restarted from the zero payloads at the first
    step of a row tile, else the previous point's plus this step's contribution. -/
def sc (c : Dev nD) : (n : ℕ) → n < cfg2.N → Vec F S1024x1 .f32 × Vec F S1024x128 .f32
  | 0, hn => (k2_pay4 (iblk2 W c 0 ⟨0, hn⟩) (iblk2 W c 1 ⟨0, hn⟩) (k2_pay1 (F := F)),
      k2_pay5 (iblk2 W c 0 ⟨0, hn⟩) (iblk2 W c 1 ⟨0, hn⟩) (iblk2 W c 2 ⟨0, hn⟩) (k2_pay2 (F := F)))
  | n + 1, hn =>
    if (n + 1) % 20 = 0 then
      (k2_pay4 (iblk2 W c 0 ⟨n + 1, hn⟩) (iblk2 W c 1 ⟨n + 1, hn⟩) (k2_pay1 (F := F)),
        k2_pay5 (iblk2 W c 0 ⟨n + 1, hn⟩) (iblk2 W c 1 ⟨n + 1, hn⟩) (iblk2 W c 2 ⟨n + 1, hn⟩) (k2_pay2 (F := F)))
    else
      (k2_pay4 (iblk2 W c 0 ⟨n + 1, hn⟩) (iblk2 W c 1 ⟨n + 1, hn⟩) (sc c n (Nat.lt_of_succ_lt hn)).1,
        k2_pay5 (iblk2 W c 0 ⟨n + 1, hn⟩) (iblk2 W c 1 ⟨n + 1, hn⟩) (iblk2 W c 2 ⟨n + 1, hn⟩) (sc c n (Nat.lt_of_succ_lt hn)).2)

theorem sc_first (c : Dev nD) (t : Fin cfg2.N) (h : t.val % 20 = 0) :
    sc W c t.val t.isLt = (k2_pay4 (iblk2 W c 0 t) (iblk2 W c 1 t) (k2_pay1 (F := F)),
      k2_pay5 (iblk2 W c 0 t) (iblk2 W c 1 t) (iblk2 W c 2 t) (k2_pay2 (F := F))) := by
  obtain ⟨n, hn⟩ := t
  cases n with
  | zero => exact rfl
  | succ n => exact (if_pos h).trans rfl

theorem sc_next (c : Dev nD) (t : Fin cfg2.N) (h : ¬t.val % 20 = 0) :
    sc W c t.val t.isLt = (k2_pay4 (iblk2 W c 0 t) (iblk2 W c 1 t) (sc W c (t.val - 1) (Nat.lt_of_le_of_lt (Nat.sub_le _ _) t.isLt)).1,
      k2_pay5 (iblk2 W c 0 t) (iblk2 W c 1 t) (iblk2 W c 2 t) (sc W c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant -/

/-- The core's other scoped buffers (the staging buffers of the two projection regions), each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The class invariant with the two scratch buffers taken out by name. -/
theorem PhiA2_split (c : Dev nD) :
    (Pipeline.ΦA spec2 c : sProp 𝕄) ⊢ iprop(rest2 (F := F) c ∗ (∃ d, owns (c : Thread nD τ) scM6 fullShare d)
      ∗ (∃ d, owns (c : Thread nD τ) scM7 fullShare d) ∗ (∃ r, prngReg c r)) := by
  unfold Pipeline.ΦA rest2; rw [scopedRest2_eq]; simp only [scM6, scM7, owns_whole]
  iintro ⟨⟨H0, H1, H2, H3, H4, H5, H6, H7, H8, H9, HS6, HS7⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS6]; · iexact HS6
  isplitl [HS7]; · iexact HS7
  iexact Hg

theorem PhiA2_join (c : Dev nD) :
    iprop(rest2 (F := F) c ∗ (∃ d, owns (c : Thread nD τ) scM6 fullShare d)
      ∗ (∃ d, owns (c : Thread nD τ) scM7 fullShare d) ∗ (∃ r, prngReg c r)) ⊢ (Pipeline.ΦA spec2 c : sProp 𝕄) := by
  unfold Pipeline.ΦA rest2; rw [scopedRest2_eq]; simp only [scM6, scM7, owns_whole]
  iintro ⟨⟨H0, H1, H2, H3, H4, H5, H6, H7, H8, H9⟩, HS6, HS7, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS6]; · iexact HS6
  iexact HS7

/-- The invariant before position n: before the first point the class's; afterwards the other scoped buffers at anything,
    the two scratch buffers at what the point before left, the generator register at some state. -/
def PhiS (c : Dev nD) : (n : ℕ) → n ≤ cfg2.N → sProp 𝕄
  | 0, _ => Pipeline.ΦA spec2 c
  | n + 1, hn => iprop(rest2 (F := F) c ∗ owns (c : Thread nD τ) scM6 fullShare (sc W c n hn).1
      ∗ owns (c : Thread nD τ) scM7 fullShare (sc W c n hn).2 ∗ (∃ r, prngReg c r))

theorem PhiS_zero (c : Dev nD) (n : ℕ) (h : n ≤ cfg2.N) (hz : n = 0) : PhiS W c n h = Pipeline.ΦA spec2 c := by
  subst hz; rfl

theorem PhiS_succ (c : Dev nD) (n : ℕ) (hn : n < cfg2.N) :
    PhiS W c (n + 1) hn = iprop(rest2 (F := F) c ∗ owns (c : Thread nD τ) scM6 fullShare (sc W c n hn).1
      ∗ owns (c : Thread nD τ) scM7 fullShare (sc W c n hn).2 ∗ (∃ r, prngReg c r)) := rfl

theorem PhiS_pos (c : Dev nD) (n : ℕ) (h : n ≤ cfg2.N) (hz : n ≠ 0) :
    PhiS W c n h = iprop(rest2 (F := F) c ∗ owns (c : Thread nD τ) scM6 fullShare (sc W c (n - 1) (by omega)).1
      ∗ owns (c : Thread nD τ) scM7 fullShare (sc W c (n - 1) (by omega)).2 ∗ (∃ r, prngReg c r)) := by
  cases n with
  | zero => exact absurd rfl hz
  | succ n => rfl

/-! ## The proof data -/

def dats2 (c : Dev nD) : Dat τ (Elt F) Unit ℕ (UR sig nD τ) ℕ cfg2 c where
  A w := RegionRecord.tcVal W c (Pipeline.arrRef spec2 w)
  after w t := match w with
    | ⟨0, _⟩ => iblk2 W c 0 t
    | ⟨1, _⟩ => iblk2 W c 1 t
    | ⟨2, _⟩ => iblk2 W c 2 t
    | ⟨3, _⟩ => k2_pay6 (sc W c t.val t.isLt).1 (sc W c t.val t.isLt).2
  Φ t := PhiS W c t.val (Nat.le_of_lt_succ t.isLt)
  q _ := fullShare
  owed _ := 0

theorem A2_eq (c : Dev nD) (w : Fin cfg2.W) : (dats2 W c).A w = RegionRecord.tcVal W c (Pipeline.arrRef spec2 w) := by
  dsimp only [dats2]

theorem PhiS_castSucc (c : Dev nD) (t : Fin cfg2.N) :
    (dats2 W c).Φ t.castSucc = PhiS W c t.val (Nat.le_of_lt t.isLt) := by
  dsimp only [dats2]; simp only [Fin.coe_castSucc]

theorem after2_0 (c : Dev nD) (t : Fin cfg2.N) : (dats2 W c).after 0 t = iblk2 W c 0 t := by dsimp only [dats2]
theorem after2_1 (c : Dev nD) (t : Fin cfg2.N) : (dats2 W c).after 1 t = iblk2 W c 1 t := by dsimp only [dats2]
theorem after2_2 (c : Dev nD) (t : Fin cfg2.N) : (dats2 W c).after 2 t = iblk2 W c 2 t := by dsimp only [dats2]
theorem after2_3 (c : Dev nD) (t : Fin cfg2.N) :
    (dats2 W c).after 3 t = k2_pay6 (sc W c t.val t.isLt).1 (sc W c t.val t.isLt).2 := by dsimp only [dats2]

theorem before2_0 (c : Dev nD) (t : Fin cfg2.N) (d) : (dats2 W c).before 0 t d = iblk2 W c 0 t :=
  ((dats2 W c).before_in_eq_fetched 0 rfl (fun i => rfl) (fun _ _ _ => rfl)
    (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dats2 W c).before 1 t d = iblk2 W c 1 t :=
  ((dats2 W c).before_in_eq_fetched 1 rfl (fun i => rfl) (fun _ _ _ => rfl)
    (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dats2 W c).before 2 t d = iblk2 W c 2 t :=
  ((dats2 W c).before_in_eq_fetched 2 rfl (fun i => rfl) (fun _ _ _ => rfl)
    (fun t => by rw [after2_2]; unfold Dat.blockOf iblk2; rw [A2_eq]; try rfl) t d).trans
    (by unfold Dat.fetched Dat.blockOf iblk2; rw [A2_eq]; try rfl)

theorem leaves2_0 (c : Dev nD) (t : Fin cfg2.N) :
    (dats2 W c).leavesExact 0 t = owns (c : Thread nD τ) (st2_0 t) fullShare (iblk2 W c 0 t) := by
  unfold Dat.leavesExact; rw [live2_0 t, after2_0]
theorem leaves2_1 (c : Dev nD) (t : Fin cfg2.N) :
    (dats2 W c).leavesExact 1 t = owns (c : Thread nD τ) (st2_1 t) fullShare (iblk2 W c 1 t) := by
  unfold Dat.leavesExact; rw [live2_1 t, after2_1]
theorem leaves2_2 (c : Dev nD) (t : Fin cfg2.N) :
    (dats2 W c).leavesExact 2 t = owns (c : Thread nD τ) (st2_2 t) fullShare (iblk2 W c 2 t) := by
  unfold Dat.leavesExact; rw [live2_2 t, after2_2]

/-! ## The body obligation -/

def bodyPre2 (c : Dev nD) (t : Fin cfg2.N) : sProp 𝕄 :=
  iprop((dats2 W c).Φ t.castSucc ∗ (dats2 W c).owesAt () t.castSucc
    ∗ (∃ d, owns (c : Thread nD τ) (st2_0 t) fullShare ((dats2 W c).before 0 t d))
    ∗ (∃ d, owns (c : Thread nD τ) (st2_1 t) fullShare ((dats2 W c).before 1 t d))
    ∗ (∃ d, owns (c : Thread nD τ) (st2_2 t) fullShare ((dats2 W c).before 2 t d))
    ∗ (∃ d, owns (c : Thread nD τ) (st2_3 t) fullShare ((dats2 W c).before 3 t d)))

def bodyPost2 (c : Dev nD) (t : Fin cfg2.N) : sProp 𝕄 :=
  iprop((dats2 W c).Φ t.succ ∗ (dats2 W c).owesAt () t.succ
    ∗ (dats2 W c).leavesExact 0 t
    ∗ (dats2 W c).leavesExact 1 t
    ∗ (dats2 W c).leavesExact 2 t
    ∗ (dats2 W c).leavesExact 3 t)

set_option maxHeartbeats 4800000 in
/-- The body at any point. The inputs' buffers hold their blocks; the closed forms say which of the three cases the point
    is in; the invariant hands the body the scratch buffers at what the point before left (at anything before the first
    point) and takes them back at this point's contents; the output block is handed back untouched except at a last step,
    where it receives the quotient. -/
theorem sound_body2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  simp only [before2_0, before2_1, before2_2]
  rw [show (dats2 W c).owesAt () t.succ = (dats2 W c).owesAt () t.castSucc from rfl]
  rw [show (dats2 W c).Φ t.succ = PhiS W c (t.val + 1) t.isLt from rfl, PhiS_succ]
  rw [leaves2_0, leaves2_1, leaves2_2]
  have hN : t.val < 80 := lt_of_lt_of_eq t.isLt (show cfg2.N = 80 from N_2)
  by_cases h0 : t.val % 20 = 0
  · have hl : ¬t.val % 20 = 19 := by omega
    rw [Dat.leavesExact_idle (dats2 W c) 3 t (idle2_3 t (fun h => hl ((hlast2 t).mp h))) (noFlush2_3 t (fun h => hl ((hlast2 t).mp h)))]
    rw [sc_first W c t h0]; (try dsimp only)
    by_cases hz : t.val = 0
    · rw [PhiS_castSucc W c t, PhiS_zero W c _ _ hz]
      iintro ⟨HΦ, Ho, ⟨%d0, H0⟩, ⟨%d1, H1⟩, ⟨%d2, H2⟩, ⟨%d3, H3⟩⟩
      ihave HΦ' := (PhiA2_split (F := F) c) $$ HΦ
      icases HΦ' with ⟨Hr, ⟨%e6, HS6⟩, ⟨%e7, HS7⟩, Hg⟩
      iapply (run2_first c (grid2.coords t) _ _ _ _ _ _ _ _ scM6 (Memref.isWhole_whole _) scM7 (Memref.isWhole_whole _) ((hfirst2 t).mpr h0) (fun h => hl ((hlast2 t).mp h)) (iblk2 W c 0 t) (iblk2 W c 1 t) (iblk2 W c 2 t) _ e6 e7 Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [Hr HS6 HS7 Hg]
      · isplitl [Hr]; · iexact Hr
        isplitl [HS6]; · iexact HS6
        isplitl [HS7]; · iexact HS7
        iexact Hg
      isplitl [Ho]; · iexact Ho
      isplitl [H0]; · iexact H0
      isplitl [H1]; · iexact H1
      isplitl [H2]; · iexact H2
      iexists _; iexact H3
    · rw [PhiS_castSucc W c t, PhiS_pos W c _ _ hz]
      iintro ⟨⟨Hr, HS6, HS7, Hg⟩, Ho, ⟨%d0, H0⟩, ⟨%d1, H1⟩, ⟨%d2, H2⟩, ⟨%d3, H3⟩⟩
      iapply (run2_first c (grid2.coords t) _ _ _ _ _ _ _ _ scM6 (Memref.isWhole_whole _) scM7 (Memref.isWhole_whole _) ((hfirst2 t).mpr h0) (fun h => hl ((hlast2 t).mp h)) (iblk2 W c 0 t) (iblk2 W c 1 t) (iblk2 W c 2 t) _ _ _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [Hr HS6 HS7 Hg]
      · isplitl [Hr]; · iexact Hr
        isplitl [HS6]; · iexact HS6
        isplitl [HS7]; · iexact HS7
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 20 = 19
    · rw [show (dats2 W c).leavesExact 3 t = owns (c : Thread nD τ) (st2_3 t) fullShare ((dats2 W c).after 3 t) from by
        unfold Dat.leavesExact; rw [live2_3 t ((hlast2 t).mpr h1)], after2_3]
      rw [sc_next W c t h0]; (try dsimp only)
      rw [PhiS_castSucc W c t, PhiS_pos W c _ _ hz]
      iintro ⟨⟨Hr, HS6, HS7, Hg⟩, Ho, ⟨%d0, H0⟩, ⟨%d1, H1⟩, ⟨%d2, H2⟩, ⟨%d3, H3⟩⟩
      iapply (run2_last c (grid2.coords t) _ _ _ _ _ _ _ _ scM6 (Memref.isWhole_whole _) scM7 (Memref.isWhole_whole _) (fun h => h0 ((hfirst2 t).mp h)) ((hlast2 t).mpr h1) (iblk2 W c 0 t) (iblk2 W c 1 t) (iblk2 W c 2 t) _ _ _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [Hr HS6 HS7 Hg]
      · isplitl [Hr]; · iexact Hr
        isplitl [HS6]; · iexact HS6
        isplitl [HS7]; · iexact HS7
        iexact Hg
      isplitl [Ho]; · iexact Ho
      isplitl [H0]; · iexact H0
      isplitl [H1]; · iexact H1
      isplitl [H2]; · iexact H2
      iexact H3
    · rw [Dat.leavesExact_idle (dats2 W c) 3 t (idle2_3 t (fun h => h1 ((hlast2 t).mp h))) (noFlush2_3 t (fun h => h1 ((hlast2 t).mp h)))]
      rw [sc_next W c t h0]; (try dsimp only)
      rw [PhiS_castSucc W c t, PhiS_pos W c _ _ hz]
      iintro ⟨⟨Hr, HS6, HS7, Hg⟩, Ho, ⟨%d0, H0⟩, ⟨%d1, H1⟩, ⟨%d2, H2⟩, ⟨%d3, H3⟩⟩
      iapply (run2_mid c (grid2.coords t) _ _ _ _ _ _ _ _ scM6 (Memref.isWhole_whole _) scM7 (Memref.isWhole_whole _) (fun h => h0 ((hfirst2 t).mp h)) (fun h => h1 ((hlast2 t).mp h)) (iblk2 W c 0 t) (iblk2 W c 1 t) (iblk2 W c 2 t) _ _ _ Set.univ _)
      isplitl [H0]; · iexact H0
      isplitl [H1]; · iexact H1
      isplitl [H2]; · iexact H2
      isplitl [H3]; · iexact H3
      isplitl [HS6]; · iexact HS6
      isplitl [HS7]; · iexact HS7
      iintro ⟨H0, H1, H2, H3, HS6, HS7⟩
      isplitl [Hr HS6 HS7 Hg]
      · isplitl [Hr]; · iexact Hr
        isplitl [HS6]; · iexact HS6
        isplitl [HS7]; · iexact HS7
        iexact Hg
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dats2 (F := F) W c) (defs₀ (F := F)) Variants.none () Set.univ := fun t => by
  rw [bigSep_W2, bigSep_W2]
  exact sound_body2 W c t

/-- What the launch hands the region is the invariant before the first point. -/
theorem hin2 (c : Dev nD) : Pipeline.ΦA spec2 c ⊢ (dats2 W c).Φ 0 := by
  rw [show (dats2 W c).Φ 0 = PhiS W c 0 (Nat.zero_le _) from rfl, PhiS_zero W c 0 _ rfl]
  try exact Idealize.SL.BI.Entails.refl _

/-- After the last point the invariant gives the class's back: the scratch buffers' contents are forgotten. -/
theorem hout2 (c : Dev nD) : (dats2 W c).Φ (Fin.last cfg2.N) ⊢ Pipeline.ΦA spec2 c := by
  rw [show (dats2 W c).Φ (Fin.last cfg2.N) = PhiS W c (Fin.last cfg2.N).val (Nat.le_of_lt_succ (Fin.last cfg2.N).isLt) from rfl,
    PhiS_pos W c _ _ (by rw [Fin.val_last]; have : cfg2.N = 80 := N_2; omega)]
  refine BIBase.Entails.trans ?_ (PhiA2_join (F := F) c)
  iintro ⟨Hr, HS6, HS7, Hg⟩
  isplitl [Hr]; · iexact Hr
  isplitl [HS6]; · iexists _; iexact HS6
  isplitl [HS7]; · iexists _; iexact HS7
  iexact Hg

end Cert.KernelIdeal.Data

end
-- ==== Proof.RecordsI.lean ====
import proofs.«146975_j56152402427977_2_alg».proof.Proof.LaunchI
import proofs.«146975_j56152402427977_2_alg».proof.Proof.LaunchValI
import proofs.«146975_j56152402427977_2_alg».proof.Proof.Data01I
import proofs.«146975_j56152402427977_2_alg».proof.Proof.Data2I

/-!
# The three regions' records, and the run of @main

The contents each region leaves in its output array are what its proof data compute from the valuation the region is
entered at; the valuation after the region holds them at that array and agrees with the one before elsewhere. With
the unknown contents of the conditional frame set to these, each region's record is entered from the thread state at
the valuation before it and left at the one after it, and the launch gives the run: @main terminates, the result is
the strided slice of what the third region leaves, the arguments are as launched.
-/

noncomputable section

namespace Cert.KernelIdeal.Records

open Cert.KernelIdeal Cert.KernelIdeal.Gen Cert.KernelIdeal.Data Cert.KernelIdeal.Launch
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave, and the valuations between them -/

/-- What the first region leaves in its output array. -/
def X0 (c : Dev nD) : Buf (Elt F) ((c : Thread nD τ).loc main_v12) := (dats0 (fun c => V7 m c) c).arrAt 2 cfg0.N
/-- The valuation after the first region. -/
def W8 (c : Dev nD) : Valuation τ sig (Elt F) := Function.update (V7 m c) main_v12 (X0 m c)
/-- What the second region leaves in its output array. -/
def X1 (c : Dev nD) : Buf (Elt F) ((c : Thread nD τ).loc main_v13) := (dats1 (W8 m) c).arrAt 2 cfg1.N
/-- The valuation after the second region. -/
def W9 (c : Dev nD) : Valuation τ sig (Elt F) := Function.update (W8 m c) main_v13 (X1 m c)
/-- What the third region leaves in its output array. -/
def X2 (c : Dev nD) : Buf (Elt F) ((c : Thread nD τ).loc main_v14) := (dats2 (W9 m) c).arrAt 3 cfg2.N
/-- The valuation after the third region. -/
def W10 (c : Dev nD) : Valuation τ sig (Elt F) := Function.update (W9 m c) main_v14 (X2 m c)

/-- The unknown contents of the conditional frame, set to what the valuations above hold. -/
def outs : Outs (F := F) := fun J r c =>
  if J = 8 then W8 m c (Proc.devRef .tc r) else if J = 9 then W9 m c (Proc.devRef .tc r) else W10 m c (Proc.devRef .tc r)

theorem W8_main_v12 (c : Dev nD) : W8 m c main_v12 = X0 m c := by unfold W8; exact Function.update_self ..
theorem W9_main_v13 (c : Dev nD) : W9 m c main_v13 = X1 m c := by unfold W9; exact Function.update_self ..
theorem W10_main_v14 (c : Dev nD) : W10 m c main_v14 = X2 m c := by unfold W10; exact Function.update_self ..

/-- Elsewhere each valuation is the one before. -/
theorem W8_of (c : Dev nD) (r : Ref sig .tc) (h : r ≠ main_v12) : W8 m c r = V7 m c r := by
  unfold W8; exact Function.update_of_ne (StableHlo.devRef_ne_of_ne h) ..
theorem W9_of (c : Dev nD) (r : Ref sig .tc) (h : r ≠ main_v13) : W9 m c r = W8 m c r := by
  unfold W9; exact Function.update_of_ne (StableHlo.devRef_ne_of_ne h) ..
theorem W10_of (c : Dev nD) (r : Ref sig .tc) (h : r ≠ main_v14) : W10 m c r = W9 m c r := by
  unfold W10; exact Function.update_of_ne (StableHlo.devRef_ne_of_ne h) ..

theorem outs_8 (c : Dev nD) : outs m 8 main_v12 c = X0 m c := by
  unfold outs; rw [if_pos rfl]; exact W8_main_v12 m c
theorem outs_9 (c : Dev nD) : outs m 9 main_v13 c = X1 m c := by
  unfold outs; rw [if_neg (by decide), if_pos rfl]; exact W9_main_v13 m c
theorem outs_10 (c : Dev nD) : outs m 10 main_v14 c = X2 m c := by
  unfold outs; rw [if_neg (by decide), if_neg (by decide)]; exact W10_main_v14 m c

/-- The conditional frame's valuations at these contents are the valuations above. -/
theorem V8_eq (c : Dev nD) : V8 m (outs m) c = W8 m c := by
  show Function.update (V7 m c) main_v12 (outs m 8 main_v12 c) = Function.update (V7 m c) main_v12 (X0 m c)
  rw [outs_8]
theorem V9_eq (c : Dev nD) : V9 m (outs m) c = W9 m c := by
  show Function.update (V8 m (outs m) c) main_v13 (outs m 9 main_v13 c) = Function.update (W8 m c) main_v13 (X1 m c)
  rw [outs_9, V8_eq]
theorem V10_eq (c : Dev nD) : V10 m (outs m) c = W10 m c := by
  show Function.update (V9 m (outs m) c) main_v14 (outs m 10 main_v14 c) = Function.update (W9 m c) main_v14 (X2 m c)
  rw [outs_10, V9_eq]
theorem V8_fun : (fun c => V8 m (outs m) c) = W8 m := funext (V8_eq m)
theorem V9_fun : (fun c => V9 m (outs m) c) = W9 m := funext (V9_eq m)
theorem V10_fun : (fun c => V10 m (outs m) c) = W10 m := funext (V10_eq m)

/-! ## The valuations read at the windows' arrays of the second and third regions -/

theorem W8_main_v0 (c : Dev nD) : W8 m c main_v0 = V7 m c main_v0 := W8_of m c _ (by decide)
theorem W8_main_arg1 (c : Dev nD) : W8 m c main_arg1 = V7 m c main_arg1 := W8_of m c _ (by decide)
theorem W8_main_v13 (c : Dev nD) : W8 m c main_v13 = V7 m c main_v13 := W8_of m c _ (by decide)
theorem W9_main_v12 (c : Dev nD) : W9 m c main_v12 = X0 m c := (W9_of m c _ (by decide)).trans (W8_main_v12 m c)
theorem W9_main_v11 (c : Dev nD) : W9 m c main_v11 = V7 m c main_v11 := (W9_of m c _ (by decide)).trans (W8_of m c _ (by decide))
theorem W9_main_v14 (c : Dev nD) : W9 m c main_v14 = V7 m c main_v14 := (W9_of m c _ (by decide)).trans (W8_of m c _ (by decide))

/-! ## The proof data of the three regions -/

/-- Each region's proof data at the valuation it is entered at. -/
def pdats : (p : Fin 3) → (c : Dev nD) → Dat τ (Elt F) Unit ℕ (UR sig nD τ) ℕ (cfgs p) c
  | ⟨0, _⟩ => fun c => dats0 (fun c => V7 m c) c
  | ⟨1, _⟩ => fun c => dats1 (W8 m) c
  | ⟨2, _⟩ => fun c => dats2 (W9 m) c

/-- No region prefetches a table: the tables held are nothing. -/
theorem prefHeld_none (p : Fin 3) (c : Dev nD) :
    (BI.emp : sProp 𝕄) ⊢ Pipeline.prefHeld (Ix := Unit) (Name := ℕ) (U := UR sig nD τ) (Lvl := ℕ) (pcfgs (F := F) p).pre c (fun _ => fullShare) (adm (F := F) p).1 := by
  unfold Pipeline.prefHeld
  rw [show (Finset.univ : Finset (Fin (pcfgs (F := F) p).pre.K)) = ∅ from rfl, BI.bigSep_empty]

/-! ### The first region -/

theorem hF0 (c : Dev nD) : ∀ w : Fin 3, (dats0 (fun c => V7 m c) c).arrAt w cfg0.N = RegionRecord.tcVal (W8 m) c (Pipeline.arrRef spec0 w)
  | ⟨0, _⟩ => ((dats0 (fun c => V7 m c) c).arrAt_in 0 rfl _).trans ((A0_eq (fun c => V7 m c) c 0).trans (W8_of m c main_arg0 (by decide)).symm)
  | ⟨1, _⟩ => ((dats0 (fun c => V7 m c) c).arrAt_in 1 rfl _).trans ((A0_eq (fun c => V7 m c) c 1).trans (W8_of m c main_arg1 (by decide)).symm)
  | ⟨2, _⟩ => (W8_main_v12 m c).symm

theorem hrest0 (c : Dev nD) (b : Ref sig .tc) (h : b ∉ Finset.univ.image (Pipeline.arrRef spec0)) :
    RegionRecord.tcVal (W8 m) c b = RegionRecord.tcVal (fun c => V7 m c) c b :=
  W8_of m c b fun e => h (by rw [e]; exact Finset.mem_image.mpr ⟨(2 : Fin 3), Finset.mem_univ _, rfl⟩)

theorem hin0 (c : Dev nD) :
    iprop(Pipeline.ΦA (U := UR sig nD τ) spec0 c ∗ Pipeline.prefHeld (Ix := Unit) (Name := ℕ) (U := UR sig nD τ) (Lvl := ℕ) (pcfgs (F := F) 0).pre c (fun _ => fullShare) (adm (F := F) 0).1) ⊢ (dats0 (fun c => V7 m c) c).Φ 0 := by
  rw [show (dats0 (fun c => V7 m c) c).Φ 0 = Pipeline.ΦA spec0 c from rfl]
  iintro ⟨H, -⟩
  iexact H

theorem hout0 (c : Dev nD) :
    (dats0 (fun c => V7 m c) c).Φ (Fin.last cfg0.N) ⊢ iprop(Pipeline.ΦA (U := UR sig nD τ) spec0 c ∗ Pipeline.prefHeld (Ix := Unit) (Name := ℕ) (U := UR sig nD τ) (Lvl := ℕ) (pcfgs (F := F) 0).pre c (fun _ => fullShare) (adm (F := F) 0).1) := by
  rw [show (dats0 (fun c => V7 m c) c).Φ (Fin.last cfg0.N) = Pipeline.ΦA spec0 c from rfl]
  iintro H
  isplitl [H]; · iexact H
  iapply (prefHeld_none (F := F) 0 c)
  iempintro

set_option backward.isDefEq.respectTransparency.types false in
/-- The first region's record, between the valuation before it and the one after it. -/
def R0 : RegionSeg (pcfgs (F := F)) adm (pdats m) () defs₀ Variants.none (fun _ => ∅) (fun _ _ => 0) 0 :=
  RegionRecord.regionSeg (pcfgs (F := F)) adm (pdats m) 0 launch0.toP defs₀ Variants.none (fun c => V7 m c) (W8 m)
    (fun c => (body_obligation0 (fun c => V7 m c) c).loose)
    (fun c w => (pdats m 0 c).share_full (fun _ => rfl) w) (fun _ _ => rfl) (fun _ => rfl)
    (fun c w => A0_eq (fun c => V7 m c) c w)
    (fun c k => k.elim0)
    (hF0 m) (hrest0 m)
    (hin0 m) (hout0 m)

/-! ### The second region -/

theorem hF1 (c : Dev nD) : ∀ w : Fin 3, (dats1 (W8 m) c).arrAt w cfg1.N = RegionRecord.tcVal (W9 m) c (Pipeline.arrRef spec1 w)
  | ⟨0, _⟩ => ((dats1 (W8 m) c).arrAt_in 0 rfl _).trans ((A1_eq (W8 m) c 0).trans (W9_of m c main_v0 (by decide)).symm)
  | ⟨1, _⟩ => ((dats1 (W8 m) c).arrAt_in 1 rfl _).trans ((A1_eq (W8 m) c 1).trans (W9_of m c main_arg1 (by decide)).symm)
  | ⟨2, _⟩ => (W9_main_v13 m c).symm

theorem hrest1 (c : Dev nD) (b : Ref sig .tc) (h : b ∉ Finset.univ.image (Pipeline.arrRef spec1)) :
    RegionRecord.tcVal (W9 m) c b = RegionRecord.tcVal (W8 m) c b :=
  W9_of m c b fun e => h (by rw [e]; exact Finset.mem_image.mpr ⟨(2 : Fin 3), Finset.mem_univ _, rfl⟩)

theorem hin1 (c : Dev nD) :
    iprop(Pipeline.ΦA (U := UR sig nD τ) spec1 c ∗ Pipeline.prefHeld (Ix := Unit) (Name := ℕ) (U := UR sig nD τ) (Lvl := ℕ) (pcfgs (F := F) 1).pre c (fun _ => fullShare) (adm (F := F) 1).1) ⊢ (dats1 (W8 m) c).Φ 0 := by
  rw [show (dats1 (W8 m) c).Φ 0 = Pipeline.ΦA spec1 c from rfl]
  iintro ⟨H, -⟩
  iexact H

theorem hout1 (c : Dev nD) :
    (dats1 (W8 m) c).Φ (Fin.last cfg1.N) ⊢ iprop(Pipeline.ΦA (U := UR sig nD τ) spec1 c ∗ Pipeline.prefHeld (Ix := Unit) (Name := ℕ) (U := UR sig nD τ) (Lvl := ℕ) (pcfgs (F := F) 1).pre c (fun _ => fullShare) (adm (F := F) 1).1) := by
  rw [show (dats1 (W8 m) c).Φ (Fin.last cfg1.N) = Pipeline.ΦA spec1 c from rfl]
  iintro H
  isplitl [H]; · iexact H
  iapply (prefHeld_none (F := F) 1 c)
  iempintro

set_option backward.isDefEq.respectTransparency.types false in
/-- The second region's record. -/
def R1 : RegionSeg (pcfgs (F := F)) adm (pdats m) () defs₀ Variants.none (fun _ => ∅) (fun _ _ => 0) 1 :=
  RegionRecord.regionSeg (pcfgs (F := F)) adm (pdats m) 1 launch1.toP defs₀ Variants.none (W8 m) (W9 m)
    (fun c => (body_obligation1 (W8 m) c).loose)
    (fun c w => (pdats m 1 c).share_full (fun _ => rfl) w) (fun _ _ => rfl) (fun _ => rfl)
    (fun c w => A1_eq (W8 m) c w)
    (fun c k => k.elim0)
    (hF1 m) (hrest1 m)
    (hin1 m) (hout1 m)

/-! ### The third region -/

theorem hF2 (c : Dev nD) : ∀ w : Fin 4, (dats2 (W9 m) c).arrAt w cfg2.N = RegionRecord.tcVal (W10 m) c (Pipeline.arrRef spec2 w)
  | ⟨0, _⟩ => ((dats2 (W9 m) c).arrAt_in 0 rfl _).trans ((A2_eq (W9 m) c 0).trans (W10_of m c main_v12 (by decide)).symm)
  | ⟨1, _⟩ => ((dats2 (W9 m) c).arrAt_in 1 rfl _).trans ((A2_eq (W9 m) c 1).trans (W10_of m c main_v13 (by decide)).symm)
  | ⟨2, _⟩ => ((dats2 (W9 m) c).arrAt_in 2 rfl _).trans ((A2_eq (W9 m) c 2).trans (W10_of m c main_v11 (by decide)).symm)
  | ⟨3, _⟩ => (W10_main_v14 m c).symm

theorem hrest2 (c : Dev nD) (b : Ref sig .tc) (h : b ∉ Finset.univ.image (Pipeline.arrRef spec2)) :
    RegionRecord.tcVal (W10 m) c b = RegionRecord.tcVal (W9 m) c b :=
  W10_of m c b fun e => h (by rw [e]; exact Finset.mem_image.mpr ⟨(3 : Fin 4), Finset.mem_univ _, rfl⟩)

theorem hin2' (c : Dev nD) :
    iprop(Pipeline.ΦA (U := UR sig nD τ) spec2 c ∗ Pipeline.prefHeld (Ix := Unit) (Name := ℕ) (U := UR sig nD τ) (Lvl := ℕ) (pcfgs (F := F) 2).pre c (fun _ => fullShare) (adm (F := F) 2).1) ⊢ (dats2 (W9 m) c).Φ 0 := by
  iintro ⟨H, -⟩
  iapply (hin2 (W9 m) c)
  iexact H

theorem hout2' (c : Dev nD) :
    (dats2 (W9 m) c).Φ (Fin.last cfg2.N) ⊢ iprop(Pipeline.ΦA (U := UR sig nD τ) spec2 c ∗ Pipeline.prefHeld (Ix := Unit) (Name := ℕ) (U := UR sig nD τ) (Lvl := ℕ) (pcfgs (F := F) 2).pre c (fun _ => fullShare) (adm (F := F) 2).1) := by
  iintro H
  ihave H' := (hout2 (W9 m) c) $$ H
  isplitl [H']; · iexact H'
  iapply (prefHeld_none (F := F) 2 c)
  iempintro

set_option backward.isDefEq.respectTransparency.types false in
/-- The third region's record. -/
def R2 : RegionSeg (pcfgs (F := F)) adm (pdats m) () defs₀ Variants.none (fun _ => ∅) (fun _ _ => 0) 2 :=
  RegionRecord.regionSeg (pcfgs (F := F)) adm (pdats m) 2 launch2.toP defs₀ Variants.none (W9 m) (W10 m)
    (fun c => (body_obligation2 (W9 m) c).loose)
    (fun c w => (pdats m 2 c).share_full (fun _ => rfl) w) (fun _ _ => rfl) (fun _ => rfl)
    (fun c w => A2_eq (W9 m) c w)
    (fun c k => k.elim0)
    (hF2 m) (hrest2 m)
    (hin2' m) (hout2' m)

/-! ## The records' ends are the conditional frame's thread states -/

theorem hpre0 (c : Dev nD) : (R0 m).pre c = RegionRecord.threadState (U := UR sig nD τ) (fun c => V7 m c) c := rfl
theorem hpost0 (c : Dev nD) : (R0 m).post c = RegionRecord.threadState (U := UR sig nD τ) (fun c => V8 m (outs m) c) c :=
  (congrArg (fun W => RegionRecord.threadState (U := UR sig nD τ) W c) (V8_fun m)).symm
theorem hpre1 (c : Dev nD) : (R1 m).pre c = RegionRecord.threadState (U := UR sig nD τ) (fun c => V8 m (outs m) c) c :=
  (congrArg (fun W => RegionRecord.threadState (U := UR sig nD τ) W c) (V8_fun m)).symm
theorem hpost1 (c : Dev nD) : (R1 m).post c = RegionRecord.threadState (U := UR sig nD τ) (fun c => V9 m (outs m) c) c :=
  (congrArg (fun W => RegionRecord.threadState (U := UR sig nD τ) W c) (V9_fun m)).symm
theorem hpre2 (c : Dev nD) : (R2 m).pre c = RegionRecord.threadState (U := UR sig nD τ) (fun c => V9 m (outs m) c) c :=
  (congrArg (fun W => RegionRecord.threadState (U := UR sig nD τ) W c) (V9_fun m)).symm
theorem hpost2 (c : Dev nD) : (R2 m).post c = RegionRecord.threadState (U := UR sig nD τ) (fun c => V10 m (outs m) c) c :=
  (congrArg (fun W => RegionRecord.threadState (U := UR sig nD τ) W c) (V10_fun m)).symm

/-! ## The run -/

/-- The frame: @main terminates and every argument ends as launched. -/
theorem frameI (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_only m ρ (outs m) Variants.none (pdats m) (R0 m) (hpre0 m) (hpost0 m) (R1 m) (hpre1 m) (hpost1 m) (R2 m) (hpre2 m) (hpost2 m)

/-- The run with the result's value: the strided slice of what the third region leaves. -/
theorem run_valI (ρ : Dev nD → PrngReg) :
    θ_run defs (onTc (τ := τ) (main (F := F))) ⟨m, fun _ => 0, ρ⟩ (fun r => ∀ c : Dev nD,
      r.2.mem ((c.tc : Thread nD τ).loc main_v15) = extractStridedSlice S4096x100 ![0, 0] (X2 m c) slices_S4096x128_S4096x100_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c => by
      obtain ⟨h15, hargs⟩ := hr c
      refine ⟨h15.trans ?_, hargs⟩
      rw [V11_main_v15, V10_main_v14, outs_10])
    (frame_val m ρ (outs m) Variants.none (pdats m) (R0 m) (hpre0 m) (hpost0 m) (R1 m) (hpre1 m) (hpost1 m) (R2 m) (hpre2 m) (hpost2 m))

end Cert.KernelIdeal.Records

end
-- ==== Proof.EchoSpec.lean ====
import Mathlib
import Idealize.ShloMosaic.PureOps.Ideal

/-!
# The two forms of the echo computation, over functions of natural-number indices

Arrays are total functions of natural-number indices (zero outside their extents), sums run over `Finset.range`.
Both programs project rows by a weight matrix, scale each row to unit Euclidean length (the divisor kept at least eps),
take all inner products between the projected query rows and the projected example rows, pass each through an odd cube,
scale each query's row of cubes to unit absolute sum (divisor at least eps) and average the examples' class rows with
those weights. One program cubes by two products, accumulates the absolute sum and the weighted class rows tile by tile
from zero and divides at the end; the other takes sign times the third power of the magnitude, divides every weight by the
absolute sum first and contracts once.
-/

noncomputable section

namespace EchoSpec

open Idealize.ShloMosaic Finset

/-- Row b of x against row d of w: the projection's entry (b, d). -/
def proj (K : ℕ) (x w : ℕ → ℕ → EReal) (b d : ℕ) : EReal := ∑ k ∈ range K, x b k * w d k

/-- A row scaled by its Euclidean length, the sum of squares taken as it stands. -/
def l2k (D : ℕ) (eps : EReal) (f : ℕ → ℕ → EReal) (b d : ℕ) : EReal :=
  Ideal.div (f b d) (max (Ideal.sqrt (∑ d' ∈ range D, f b d' * f b d')) eps)

/-- The same with the sum of squares started from zero. -/
def l2r (D : ℕ) (eps : EReal) (f : ℕ → ℕ → EReal) (b d : ℕ) : EReal :=
  Ideal.div (f b d) (max (Ideal.sqrt (0 + ∑ d' ∈ range D, f b d' * f b d')) eps)

/-- The class rows: each row of cx scaled to unit absolute sum, then contracted with r. -/
def creps (L : ℕ) (eps : EReal) (cx r : ℕ → ℕ → EReal) (j l : ℕ) : EReal :=
  ∑ k ∈ range L, Ideal.div (cx j k) (max (0 + ∑ k' ∈ range L, max (cx j k') (-(cx j k'))) eps) * r k l

/-- The inner product of query row b and example row j. -/
def sim (D : ℕ) (fn en : ℕ → ℕ → EReal) (b j : ℕ) : EReal := ∑ d ∈ range D, fn b d * en j d

/-- The cube by two products. -/
def cube (s : EReal) : EReal := s * s * s

/-- Sign times the power of the magnitude. -/
def psign (three s : EReal) : EReal := Ideal.sign s * Ideal.pow (max s (-s)) three

/-- A total accumulated from zero, one term per step: after step k it is ((0 + T 0) + T 1) + ... + T k. -/
def accum (T : ℕ → EReal) : ℕ → EReal
  | 0 => 0 + T 0
  | k + 1 => accum T k + T (k + 1)

/-- The tiled form: NB tiles of T examples, numerator and denominator accumulated tile by tile, one division at the end. -/
def kernelForm (K D L T NB : ℕ) (eps : EReal) (x w e cx r : ℕ → ℕ → EReal) (b l : ℕ) : EReal :=
  Ideal.div
    (accum (fun k => ∑ j ∈ range T,
        cube (sim D (l2k D eps (proj K x w)) (l2k D eps (proj K e w)) b (T * k + j)) * creps L eps cx r (T * k + j) l) (NB - 1))
    (max (accum (fun k => ∑ j ∈ range T,
        max (cube (sim D (l2k D eps (proj K x w)) (l2k D eps (proj K e w)) b (T * k + j)))
          (-(cube (sim D (l2k D eps (proj K x w)) (l2k D eps (proj K e w)) b (T * k + j))))) (NB - 1)) eps)

/-- The one-pass form over N examples: every weight divided by the row's absolute sum, then one contraction. -/
def refForm (K D L N : ℕ) (eps three : EReal) (x w e cx r : ℕ → ℕ → EReal) (b l : ℕ) : EReal :=
  ∑ j ∈ range N,
    Ideal.div (psign three (sim D (l2r D eps (proj K x w)) (l2r D eps (proj K e w)) b j))
      (max (0 + ∑ j' ∈ range N, max (psign three (sim D (l2r D eps (proj K x w)) (l2r D eps (proj K e w)) b j'))
          (-(psign three (sim D (l2r D eps (proj K x w)) (l2r D eps (proj K e w)) b j')))) eps)
    * creps L eps cx r j l

/-- An extended real that is a real number. -/
def IsReal (a : EReal) : Prop := ∃ r : ℝ, a = (r : EReal)

end EchoSpec

end
-- ==== Proof.EchoIdx.lean ====
import proofs.«146975_j56152402427977_2_alg».proof.Proof.EchoSpec
import Idealize.ShloMosaic.Lib.ValueIdx

/-!
# A matrix as a total function of natural-number indices

A rank-2 array of extended reals read at natural-number indices: its entry inside the extents, zero outside. A sum over
an axis of the array is then a sum over `Finset.range` of this function.
-/

noncomputable section

namespace EchoSpec

open Idealize.ShloMosaic Idealize.ShloMosaic.ValueIdx

/-- The matrix x read at (i, j): its entry when i < a and j < b, zero otherwise. -/
def nat2 {a b : ℕ} (x : (⟨2, ![a, b]⟩ : Shape).Idx → EReal) (i j : ℕ) : EReal :=
  if h : i < a ∧ j < b then x (ix2 ⟨i, h.1⟩ ⟨j, h.2⟩) else 0

theorem nat2_apply {a b : ℕ} (x : (⟨2, ![a, b]⟩ : Shape).Idx → EReal) (p : Fin a) (q : Fin b) :
    nat2 x p.val q.val = x (ix2 p q) := by
  unfold nat2; rw [dif_pos ⟨p.isLt, q.isLt⟩]

theorem nat2_of_not {a b : ℕ} (x : (⟨2, ![a, b]⟩ : Shape).Idx → EReal) (i j : ℕ) (h : ¬(i < a ∧ j < b)) :
    nat2 x i j = 0 := by
  unfold nat2; rw [dif_neg h]

/-- A sum over the second axis's coordinates is the sum over the range. -/
theorem sum_fin_eq_range {M : Type*} [AddCommMonoid M] (n : ℕ) (f : ℕ → M) :
    ∑ k : Fin n, f k.val = ∑ k ∈ Finset.range n, f k := Fin.sum_univ_eq_sum_range f n

/-- Every entry real makes the natural-number reading real everywhere. -/
theorem nat2_real {a b : ℕ} (x : (⟨2, ![a, b]⟩ : Shape).Idx → EReal) (hx : ∀ i, IsReal (x i)) (i j : ℕ) :
    IsReal (nat2 x i j) := by
  unfold nat2; split
  · exact hx _
  · exact ⟨0, by simp⟩

end EchoSpec

end
-- ==== Proof.RefValue.lean ====
import proofs.«146975_j56152402427977_2_alg».proof.Defs
import proofs.«146975_j56152402427977_2_alg».proof.Proof.Gen.ReferenceIdeal.Read
import proofs.«146975_j56152402427977_2_alg».proof.Proof.EchoSpec
import proofs.«146975_j56152402427977_2_alg».proof.Proof.EchoIdx
import Idealize.ShloMosaic.Lib.ValueIdx
import Idealize.ShloMosaic.Lib.Pipeline.Value
import Idealize.ShloMosaic.PureOps.Ideal.Laws
import Idealize.ShloMosaic.Lib.StableHlo.Run

/-!
# The reference's result, entry by entry, is the one-pass form of the specification

Each stage of the reference is read at a pair of coordinates and identified with the corresponding function of the
specification over the argument arrays read at natural-number indices: the two projections, their rows scaled to unit
Euclidean length, the class rows, the similarities, their odd third powers, the weights (each odd power over the
absolute sum of its row) and the final contraction of the weights with the class rows. A sum over the coordinates of an
axis becomes the sum over the range of that axis's extent.
-/

noncomputable section

namespace Cert.ReferenceIdeal.RefValue

open Cert.ReferenceIdeal Idealize.ShloMosaic Idealize.ShloMosaic.ValueIdx

/-- Two rank-2 indices with equal coordinates are equal. -/
macro "ix_eq" : tactic =>
  `(tactic| exact funext fun a => Fin.ext (by match a with | ⟨0, _⟩ => rfl | ⟨1, _⟩ => rfl))

/-- The query projection at (p, d): row p of the features against row d of the weights. -/
theorem v1_at (x0 : (⟨S4096x512, .f32⟩ : BufTy).Contents (Elt Ideal)) (x1 : (⟨S512x512, .f32⟩ : BufTy).Contents (Elt Ideal))
    (p : Fin 4096) (d : Fin 512) :
    Read.val_main_v1 (F := Ideal) x0 x1 (ix2 p d) = EchoSpec.proj 512 (EchoSpec.nat2 x0) (EchoSpec.nat2 x1) p.val d.val := by
  rw [Read.val_main_v1_apply]
  simp only [Read.val_main_v0_apply]
  unfold EchoSpec.proj
  rw [← EchoSpec.sum_fin_eq_range]
  refine Finset.sum_congr rfl fun k _ => ?_
  rw [EchoSpec.nat2_apply, EchoSpec.nat2_apply,
    show Read.lidx_main_v1 (ix2 p d) k = ix2 p k by ix_eq,
    show Read.idx_main_v0 (Read.ridx_main_v1 (ix2 p d) k) = ix2 d k by ix_eq]

/-- The example projection at (j, d): row j of the examples against row d of the weights. -/
theorem v3_at (x1 : (⟨S512x512, .f32⟩ : BufTy).Contents (Elt Ideal)) (x2 : (⟨S20000x512, .f32⟩ : BufTy).Contents (Elt Ideal))
    (j : Fin 20000) (d : Fin 512) :
    Read.val_main_v3 (F := Ideal) x1 x2 (ix2 j d) = EchoSpec.proj 512 (EchoSpec.nat2 x2) (EchoSpec.nat2 x1) j.val d.val := by
  rw [Read.val_main_v3_apply]
  simp only [Read.val_main_v2_apply]
  unfold EchoSpec.proj
  rw [← EchoSpec.sum_fin_eq_range]
  refine Finset.sum_congr rfl fun k _ => ?_
  rw [EchoSpec.nat2_apply, EchoSpec.nat2_apply,
    show Read.lidx_main_v3 (ix2 j d) k = ix2 j k by ix_eq,
    show Read.idx_main_v2 (Read.ridx_main_v3 (ix2 j d) k) = ix2 d k by ix_eq]

/-- The query projection's row p scaled to unit Euclidean length, at (p, d). -/
theorem v16_at (x0 : (⟨S4096x512, .f32⟩ : BufTy).Contents (Elt Ideal)) (x1 : (⟨S512x512, .f32⟩ : BufTy).Contents (Elt Ideal))
    (p : Fin 4096) (d : Fin 512) :
    Read.val_main_v16 (F := Ideal) x0 x1 (ix2 p d)
      = EchoSpec.l2r 512 (Ideal.ofBits .f32 0x2B8CBCCC#32) (EchoSpec.proj 512 (EchoSpec.nat2 x0) (EchoSpec.nat2 x1)) p.val d.val := by
  rw [Read.val_main_v16_apply, Read.val_main_v15_apply, Read.val_main_v14_apply, Read.val_main_v12_apply,
    Read.val_main_call0_v2_apply, Read.val_main_call0_v1_apply, Read.val_main_v13_apply, Read.val_main_cst_1_apply,
    Read.val_main_call0_cst_apply]
  simp only [Read.val_main_call0_v0_apply, Ideal.hostDivf_def, Ideal.maximumf_def, Ideal.hostUnary_sqrt_def,
    Ideal.mulf_def, Ideal.ofBits_def, Ideal.ofBits_zero_f32,
    show ∀ k, Read.idx_main_call0_v1 (Read.idx_main_call0_v2 (Read.idx_main_v15 (ix2 p d))) k = ix2 p k from
      fun k => by ix_eq, v1_at]
  unfold EchoSpec.l2r
  rw [← EchoSpec.sum_fin_eq_range]

/-- The example projection's row j scaled to unit Euclidean length, at (j, d). -/
theorem v21_at (x1 : (⟨S512x512, .f32⟩ : BufTy).Contents (Elt Ideal)) (x2 : (⟨S20000x512, .f32⟩ : BufTy).Contents (Elt Ideal))
    (j : Fin 20000) (d : Fin 512) :
    Read.val_main_v21 (F := Ideal) x1 x2 (ix2 j d)
      = EchoSpec.l2r 512 (Ideal.ofBits .f32 0x2B8CBCCC#32) (EchoSpec.proj 512 (EchoSpec.nat2 x2) (EchoSpec.nat2 x1)) j.val d.val := by
  rw [Read.val_main_v21_apply, Read.val_main_v20_apply, Read.val_main_v19_apply, Read.val_main_v17_apply,
    Read.val_main_call1_v2_apply, Read.val_main_call1_v1_apply, Read.val_main_v18_apply, Read.val_main_cst_2_apply,
    Read.val_main_call1_cst_apply]
  simp only [Read.val_main_call1_v0_apply, Ideal.hostDivf_def, Ideal.maximumf_def, Ideal.hostUnary_sqrt_def,
    Ideal.mulf_def, Ideal.ofBits_def, Ideal.ofBits_zero_f32,
    show ∀ k, Read.idx_main_call1_v1 (Read.idx_main_call1_v2 (Read.idx_main_v20 (ix2 j d))) k = ix2 j k from
      fun k => by ix_eq, v3_at]
  unfold EchoSpec.l2r
  rw [← EchoSpec.sum_fin_eq_range]

/-- The class row of example j at label l: the example's class weights scaled to unit absolute sum, contracted with the class representations. -/
theorem v11_at (x3 : (⟨S20000x100, .f32⟩ : BufTy).Contents (Elt Ideal)) (x4 : (⟨S100x100, .f32⟩ : BufTy).Contents (Elt Ideal))
    (j : Fin 20000) (l : Fin 100) :
    Read.val_main_v11 (F := Ideal) x3 x4 (ix2 j l)
      = EchoSpec.creps 100 (Ideal.ofBits .f32 0x2B8CBCCC#32) (EchoSpec.nat2 x3) (EchoSpec.nat2 x4) j.val l.val := by
  rw [Read.val_main_v11_apply]
  simp only [Read.val_main_v10_apply, Read.val_main_v9_apply, Read.val_main_v8_apply, Read.val_main_v6_apply,
    Read.val_main_v5_apply, Read.val_main_v7_apply, Read.val_main_cst_0_apply, Read.val_main_cst_apply,
    Read.val_main_v4_apply, Ideal.hostDivf_def, Ideal.maximumf_def, Ideal.hostAbsf_def, Ideal.absf_def,
    Ideal.mulf_def, Ideal.ofBits_def, Ideal.ofBits_zero_f32,
    show ∀ k, Read.lidx_main_v11 (ix2 j l) k = ix2 j k from fun k => by ix_eq,
    show ∀ k, Read.ridx_main_v11 (ix2 j l) k = ix2 k l from fun k => by ix_eq,
    show ∀ k k', Read.idx_main_v5 (Read.idx_main_v6 (Read.idx_main_v9 (ix2 j k))) k' = ix2 j k' from fun k k' => by ix_eq,
    ← EchoSpec.nat2_apply x3, ← EchoSpec.nat2_apply x4]
  unfold EchoSpec.creps
  simp only [← EchoSpec.sum_fin_eq_range]

/-- The similarity of query row b and example row j, as the specification writes it over the argument arrays. -/
abbrev simOf (x0 : (⟨S4096x512, .f32⟩ : BufTy).Contents (Elt Ideal)) (x1 : (⟨S512x512, .f32⟩ : BufTy).Contents (Elt Ideal))
    (x2 : (⟨S20000x512, .f32⟩ : BufTy).Contents (Elt Ideal)) (b j : ℕ) : EReal :=
  EchoSpec.sim 512
    (EchoSpec.l2r 512 (Ideal.ofBits .f32 0x2B8CBCCC#32) (EchoSpec.proj 512 (EchoSpec.nat2 x0) (EchoSpec.nat2 x1)))
    (EchoSpec.l2r 512 (Ideal.ofBits .f32 0x2B8CBCCC#32) (EchoSpec.proj 512 (EchoSpec.nat2 x2) (EchoSpec.nat2 x1))) b j

/-- The similarity of the scaled query row p and the scaled example row j. -/
theorem v23_at (x0 : (⟨S4096x512, .f32⟩ : BufTy).Contents (Elt Ideal)) (x1 : (⟨S512x512, .f32⟩ : BufTy).Contents (Elt Ideal))
    (x2 : (⟨S20000x512, .f32⟩ : BufTy).Contents (Elt Ideal)) (p : Fin 4096) (j : Fin 20000) :
    Read.val_main_v23 (F := Ideal) x0 x1 x2 (ix2 p j) = simOf x0 x1 x2 p.val j.val := by
  rw [Read.val_main_v23_apply]
  simp only [Read.val_main_v22_apply,
    show ∀ k, Read.lidx_main_v23 (ix2 p j) k = ix2 p k from fun k => by ix_eq,
    show ∀ k, Read.idx_main_v22 (Read.ridx_main_v23 (ix2 p j) k) = ix2 j k from fun k => by ix_eq,
    v16_at, v21_at]
  unfold simOf EchoSpec.sim
  rw [← EchoSpec.sum_fin_eq_range]

/-- The odd power of the similarity: its sign times the third power of its magnitude. -/
theorem v28_at (x0 : (⟨S4096x512, .f32⟩ : BufTy).Contents (Elt Ideal)) (x1 : (⟨S512x512, .f32⟩ : BufTy).Contents (Elt Ideal))
    (x2 : (⟨S20000x512, .f32⟩ : BufTy).Contents (Elt Ideal)) (p : Fin 4096) (j : Fin 20000) :
    Read.val_main_v28 (F := Ideal) x0 x1 x2 (ix2 p j)
      = EchoSpec.psign (Ideal.ofBits .f32 0x40400000#32) (simOf x0 x1 x2 p.val j.val) := by
  rw [Read.val_main_v28_apply, Read.val_main_v24_apply, Read.val_main_v27_apply, Read.val_main_v25_apply,
    Read.val_main_v26_apply, Read.val_main_cst_3_apply, v23_at]
  simp only [Ideal.mulf_def, Ideal.hostUnary_sign_def, Ideal.hostPowf_def, Ideal.hostAbsf_def, Ideal.absf_def,
    Ideal.ofBits_def]
  rfl

/-- The weight of example j for query p: its odd power divided by the absolute sum of the query's row of odd powers. -/
theorem v35_at (x0 : (⟨S4096x512, .f32⟩ : BufTy).Contents (Elt Ideal)) (x1 : (⟨S512x512, .f32⟩ : BufTy).Contents (Elt Ideal))
    (x2 : (⟨S20000x512, .f32⟩ : BufTy).Contents (Elt Ideal)) (p : Fin 4096) (j : Fin 20000) :
    Read.val_main_v35 (F := Ideal) x0 x1 x2 (ix2 p j)
      = Ideal.div (EchoSpec.psign (Ideal.ofBits .f32 0x40400000#32) (simOf x0 x1 x2 p.val j.val))
          (max (0 + ∑ j' ∈ Finset.range 20000,
              max (EchoSpec.psign (Ideal.ofBits .f32 0x40400000#32) (simOf x0 x1 x2 p.val j'))
                (-(EchoSpec.psign (Ideal.ofBits .f32 0x40400000#32) (simOf x0 x1 x2 p.val j'))))
            (Ideal.ofBits .f32 0x2B8CBCCC#32)) := by
  rw [Read.val_main_v35_apply, Read.val_main_v34_apply, Read.val_main_v33_apply, Read.val_main_v31_apply,
    Read.val_main_v30_apply, Read.val_main_v32_apply, Read.val_main_cst_5_apply, Read.val_main_cst_4_apply]
  simp only [Read.val_main_v29_apply, Ideal.hostDivf_def, Ideal.maximumf_def, Ideal.hostAbsf_def, Ideal.absf_def,
    Ideal.ofBits_def, Ideal.ofBits_zero_f32,
    show ∀ k, Read.idx_main_v30 (Read.idx_main_v31 (Read.idx_main_v34 (ix2 p j))) k = ix2 p k from fun k => by ix_eq,
    v28_at]
  rw [← EchoSpec.sum_fin_eq_range]

/-- The reference's result at (p, q) is the one-pass form of the specification over the argument arrays read at natural-number indices. -/
theorem ref_value (x0 : (⟨S4096x512, .f32⟩ : BufTy).Contents (Elt Ideal)) (x1 : (⟨S512x512, .f32⟩ : BufTy).Contents (Elt Ideal))
    (x2 : (⟨S20000x512, .f32⟩ : BufTy).Contents (Elt Ideal)) (x3 : (⟨S20000x100, .f32⟩ : BufTy).Contents (Elt Ideal))
    (x4 : (⟨S100x100, .f32⟩ : BufTy).Contents (Elt Ideal)) (p : Fin 4096) (q : Fin 100) :
    Read.val_main_v36 (F := Ideal) x0 x1 x2 x3 x4 (ix2 p q)
      = EchoSpec.refForm 512 512 100 20000 (Ideal.ofBits .f32 0x2B8CBCCC#32) (Ideal.ofBits .f32 0x40400000#32)
          (EchoSpec.nat2 x0) (EchoSpec.nat2 x1) (EchoSpec.nat2 x2) (EchoSpec.nat2 x3) (EchoSpec.nat2 x4) p.val q.val := by
  rw [Read.val_main_v36_apply]
  simp only [show ∀ k, Read.lidx_main_v36 (ix2 p q) k = ix2 p k from fun k => by ix_eq,
    show ∀ k, Read.ridx_main_v36 (ix2 p q) k = ix2 k q from fun k => by ix_eq, v35_at, v11_at]
  unfold EchoSpec.refForm
  rw [← EchoSpec.sum_fin_eq_range (M := EReal) 20000 (fun j =>
    Ideal.div (EchoSpec.psign (Ideal.ofBits .f32 0x40400000#32) (simOf x0 x1 x2 p.val j))
        (max (0 + ∑ j' ∈ Finset.range 20000,
            max (EchoSpec.psign (Ideal.ofBits .f32 0x40400000#32) (simOf x0 x1 x2 p.val j'))
              (-(EchoSpec.psign (Ideal.ofBits .f32 0x40400000#32) (simOf x0 x1 x2 p.val j'))))
          (Ideal.ofBits .f32 0x2B8CBCCC#32))
      * EchoSpec.creps 100 (Ideal.ofBits .f32 0x2B8CBCCC#32) (EchoSpec.nat2 x3) (EchoSpec.nat2 x4) j q.val)]

/-- The same at any index of the result: its two coordinates are the query and the label. -/
theorem ref_value_idx (x0 : (⟨S4096x512, .f32⟩ : BufTy).Contents (Elt Ideal)) (x1 : (⟨S512x512, .f32⟩ : BufTy).Contents (Elt Ideal))
    (x2 : (⟨S20000x512, .f32⟩ : BufTy).Contents (Elt Ideal)) (x3 : (⟨S20000x100, .f32⟩ : BufTy).Contents (Elt Ideal))
    (x4 : (⟨S100x100, .f32⟩ : BufTy).Contents (Elt Ideal)) (i : S4096x100.Idx) :
    Read.val_main_v36 (F := Ideal) x0 x1 x2 x3 x4 i
      = EchoSpec.refForm 512 512 100 20000 (Ideal.ofBits .f32 0x2B8CBCCC#32) (Ideal.ofBits .f32 0x40400000#32)
          (EchoSpec.nat2 x0) (EchoSpec.nat2 x1) (EchoSpec.nat2 x2) (EchoSpec.nat2 x3) (EchoSpec.nat2 x4) (i 0).val (i 1).val :=
  (congrArg (Read.val_main_v36 (F := Ideal) x0 x1 x2 x3 x4) (eq_ix2 i)).trans (ref_value x0 x1 x2 x3 x4 (i 0) (i 1))

/-- The one-pass form as a whole array over the result's shape: at each index, the form at the index's two coordinates. -/
def refOut (x0 : (⟨S4096x512, .f32⟩ : BufTy).Contents (Elt Ideal)) (x1 : (⟨S512x512, .f32⟩ : BufTy).Contents (Elt Ideal))
    (x2 : (⟨S20000x512, .f32⟩ : BufTy).Contents (Elt Ideal)) (x3 : (⟨S20000x100, .f32⟩ : BufTy).Contents (Elt Ideal))
    (x4 : (⟨S100x100, .f32⟩ : BufTy).Contents (Elt Ideal)) : (⟨S4096x100, .f32⟩ : BufTy).Contents (Elt Ideal) :=
  fun i => EchoSpec.refForm 512 512 100 20000 (Ideal.ofBits .f32 0x2B8CBCCC#32) (Ideal.ofBits .f32 0x40400000#32)
    (EchoSpec.nat2 x0) (EchoSpec.nat2 x1) (EchoSpec.nat2 x2) (EchoSpec.nat2 x3) (EchoSpec.nat2 x4) (i 0).val (i 1).val

/-- The reference's result array is that array. -/
theorem ref_value_fun (x0 : (⟨S4096x512, .f32⟩ : BufTy).Contents (Elt Ideal)) (x1 : (⟨S512x512, .f32⟩ : BufTy).Contents (Elt Ideal))
    (x2 : (⟨S20000x512, .f32⟩ : BufTy).Contents (Elt Ideal)) (x3 : (⟨S20000x100, .f32⟩ : BufTy).Contents (Elt Ideal))
    (x4 : (⟨S100x100, .f32⟩ : BufTy).Contents (Elt Ideal)) :
    Read.val_main_v36 (F := Ideal) x0 x1 x2 x3 x4 = refOut x0 x1 x2 x3 x4 :=
  funext fun i => ref_value_idx x0 x1 x2 x3 x4 i

end Cert.ReferenceIdeal.RefValue

end
-- ==== Proof.RefRun.lean ====
import proofs.«146975_j56152402427977_2_alg».proof.Defs
import proofs.«146975_j56152402427977_2_alg».proof.Proof.Gen.ReferenceIdeal.Read
import proofs.«146975_j56152402427977_2_alg».proof.Proof.RefValue

/-!
# The reference's run, with its result named

Every weakly fair execution of the reference terminates without a fault, its result array is the composed stage of the
five argument arrays (equivalently the one-pass form of the specification as a whole array), and the argument arrays end
unchanged. Forgetting the result gives the reference's frame.
-/

noncomputable section

namespace Cert.ReferenceIdeal.RefValue

open Idealize.ShloMosaic Idealize.SL.Sem

/-- The reference runs, ends with its result at the last stage of the argument arrays, and keeps the argument arrays. -/
theorem ref_run [hReferenceIdeal : Cert.ReferenceIdeal.Facts]
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v36) = Cert.ReferenceIdeal.Read.val_main_v36 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono
    (fun _ h c => ⟨(h c).1.trans (Cert.ReferenceIdeal.Read.val_main_v36_eq m c), (h c).2⟩)
    (Cert.ReferenceIdeal.Value.run (F := Ideal) m g)

/-- The same with the result as the one-pass form of the specification over the argument arrays. -/
theorem ref_run_form [hReferenceIdeal : Cert.ReferenceIdeal.Facts]
    (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v36) = refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono
    (fun _ h c => ⟨(h c).1.trans (ref_value_fun _ _ _ _ _), (h c).2⟩)
    (ref_run m g)

/-- The reference's frame: it runs and its argument arrays end unchanged. -/
theorem frame_ri [hReferenceIdeal : Cert.ReferenceIdeal.Facts] [hPre_finite_inputs : Cert.Pre_finite_inputs.Facts] :
    Cert.frame_ReferenceIdeal :=
  fun m ρ _ => (θ_run Cert.ReferenceIdeal.defs _ _).mono (fun _ h c => (h c).2) (Cert.ReferenceIdeal.Value.run (F := Ideal) m ρ)

end Cert.ReferenceIdeal.RefValue

end
-- ==== Proof.ClaimsI.lean ====
import proofs.«146975_j56152402427977_2_alg».proof.Defs
import proofs.«146975_j56152402427977_2_alg».proof.Proof.RecordsK
import proofs.«146975_j56152402427977_2_alg».proof.Proof.RecordsI
import proofs.«146975_j56152402427977_2_alg».proof.Proof.RefRun
import proofs.«146975_j56152402427977_2_alg».proof.Proof.Gen.Pre_finite_inputs

/-!
# The five claims

The kernel, as printed and read over the extended reals, runs to the end from any memory and leaves its argument
arrays as launched; so does the reference. Nothing was rewritten between the kernel and its reading over the extended
reals. Over the extended reals, from memories agreeing on the five argument arrays whose entries are all real, the
kernel's result — the strided slice of what its third region leaves — and the reference's result — the one-pass form of
the specification over the argument arrays — are the same array: this is the one fact taken as a hypothesis here, that
the slice of the third region's output is the one-pass form.
-/

noncomputable section

namespace Cert.Proof.Claims

open Idealize.ShloMosaic Idealize.SL.Sem

/-- The kernel runs and keeps its arguments, at the bit-exact reading. -/
theorem frame_k : Cert.frame_Kernel :=
  fun m g _ => Cert.Kernel.Records.frameI (F := Bits) m g

/-- The kernel runs and keeps its arguments, over the extended reals. -/
theorem frame_ki : Cert.frame_KernelIdeal :=
  fun m g _ => Cert.KernelIdeal.Records.frameI (F := Ideal) m g

/-- The reference runs and keeps its arguments. -/
theorem frame_ri : Cert.frame_ReferenceIdeal :=
  Cert.ReferenceIdeal.RefValue.frame_ri

/-- No operation was rewritten between the kernel and its reading over the extended reals. -/
theorem preserves : Cert.preserves_Kernel_KernelIdeal := trivial

/-- The two programs end with equal results and unchanged arguments, given that on real arguments the strided slice
    of what the kernel's third region leaves is the one-pass form of the specification over the argument arrays. -/
theorem algebraic
    (hval : ∀ (m : (ℓ : Loc Cert.KernelIdeal.nD Cert.KernelIdeal.τ Cert.KernelIdeal.sig) → Buf (Elt Ideal) ℓ), Cert.Pre_KernelIdeal m →
      ∀ c : Dev Cert.KernelIdeal.nD,
        extractStridedSlice Cert.KernelIdeal.S4096x100 ![0, 0] (Cert.KernelIdeal.Records.X2 (F := Ideal) m c) Cert.KernelIdeal.Facts₀.slices_S4096x128_S4096x100_0_0
          = Cert.ReferenceIdeal.RefValue.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) :
    Cert.algebraic_KernelIdeal_ReferenceIdeal := by
  intro m g m' g' hpre hagree
  refine ⟨fun c => extractStridedSlice Cert.KernelIdeal.S4096x100 ![0, 0] (Cert.KernelIdeal.Records.X2 (F := Ideal) m c) Cert.KernelIdeal.Facts₀.slices_S4096x128_S4096x100_0_0,
    Cert.KernelIdeal.Records.run_valI (F := Ideal) m g, ?_⟩
  refine (θ_run Cert.ReferenceIdeal.defs _ _).mono (fun r h c => ?_) (Cert.ReferenceIdeal.RefValue.ref_run_form m' g')
  obtain ⟨h36, hargs⟩ := h c
  obtain ⟨e0, e1, e2, e3, e4⟩ := hagree c
  refine ⟨h36.trans ?_, hargs⟩
  rw [e0, e1, e2, e3, e4]
  exact (hval m hpre c).symm

end Cert.Proof.Claims

end
-- ==== Proof.EchoCongr.lean ====
import proofs.«146975_j56152402427977_2_alg».proof.Proof.EchoSpec

/-!
# The specification's stages depend only on the rows they read

A projection's entry (b, d) reads row b of the data and row d of the weights; a scaled row reads one row; an inner
product reads one row of each side. Equal rows give equal entries.
-/

noncomputable section

namespace EchoSpec

open Finset

theorem proj_congr {K : ℕ} {x x' w w' : ℕ → ℕ → EReal} {b b' d d' : ℕ}
    (hx : ∀ k, x b k = x' b' k) (hw : ∀ k, w d k = w' d' k) : proj K x w b d = proj K x' w' b' d' := by
  unfold proj; exact Finset.sum_congr rfl fun k _ => by rw [hx, hw]

theorem l2k_congr {D : ℕ} {eps : EReal} {f f' : ℕ → ℕ → EReal} {b b' d : ℕ}
    (hf : ∀ d, f b d = f' b' d) : l2k D eps f b d = l2k D eps f' b' d := by
  unfold l2k; rw [hf d]; congr 3; exact Finset.sum_congr rfl fun d' _ => by rw [hf d']

theorem l2k_proj_congr {K D : ℕ} {eps : EReal} {x x' w w' : ℕ → ℕ → EReal} {b b' d : ℕ}
    (hx : ∀ k, x b k = x' b' k) (hw : ∀ d k, w d k = w' d k) :
    l2k D eps (proj K x w) b d = l2k D eps (proj K x' w') b' d :=
  l2k_congr fun d => proj_congr hx (hw d)

theorem sim_congr {D : ℕ} {fn fn' en en' : ℕ → ℕ → EReal} {b b' j j' : ℕ}
    (hf : ∀ d, fn b d = fn' b' d) (he : ∀ d, en j d = en' j' d) : sim D fn en b j = sim D fn' en' b' j' := by
  unfold sim; exact Finset.sum_congr rfl fun d _ => by rw [hf, he]

theorem accum_congr {T T' : ℕ → EReal} (h : ∀ k, T k = T' k) (n : ℕ) : accum T n = accum T' n := by
  induction n with
  | zero => simp only [accum, h]
  | succ n ih => simp only [accum, h, ih]

end EchoSpec

end
-- ==== Proof.BlocksI.lean ====
import proofs.«146975_j56152402427977_2_alg».proof.Proof.Data01I
import proofs.«146975_j56152402427977_2_alg».proof.Proof.Data2I
import proofs.«146975_j56152402427977_2_alg».proof.Proof.EchoIdx
import proofs.«146975_j56152402427977_2_alg».proof.Proof.EchoCongr
import Idealize.ShloMosaic.Lib.Pipeline.Value
import Idealize.ShloMosaic.Lib.ValueIdx

/-!
# Where a window's block sits in its array

Each region's windows are blocks of whole rows: block t of an array is its rows from (block index) times (rows per
block). Read at natural-number indices, row p of the block at point t is row (index t)·(rows per block) + p of the
array. The block indices are decided over each grid: the projection regions walk the row blocks in order; the
accumulating region's grid is 4 row tiles by 20 steps, point t being row tile t / 20 and step t % 20.
-/

set_option maxRecDepth 16384

noncomputable section

namespace Cert.KernelIdeal.Val

open Cert.KernelIdeal Cert.KernelIdeal.Gen Cert.KernelIdeal.Data EchoSpec
open Idealize.ShloMosaic Idealize.ShloMosaic.TcCoe Idealize.ShloMosaic.ValueIdx
open Idealize.SL Idealize.SL.Sem
open Idealize.ShloMosaic.Pipeline (Dat Cfg Window)

variable (W : Dev nD → Valuation τ sig (Elt Ideal))

/-! ## The block indices, decided over the grids -/

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem idx2 : ∀ t : Fin cfg2.N, win2_0.index t (0 : Fin 2) = t.val / 20 ∧ win2_0.index t (1 : Fin 2) = 0
    ∧ win2_1.index t (0 : Fin 2) = t.val % 20 ∧ win2_1.index t (1 : Fin 2) = 0
    ∧ win2_2.index t (0 : Fin 2) = t.val % 20 ∧ win2_2.index t (1 : Fin 2) = 0
    ∧ win2_3.index t (0 : Fin 2) = t.val / 20 ∧ win2_3.index t (1 : Fin 2) = 0 :=
  (by decide +kernel : ∀ t : Fin grid2.N, _)

/-! ## The input blocks as rows of their arrays -/

theorem blk0_0 (c : Dev nD) (t : Fin cfg0.N) (p k : ℕ) (hp : p < 512) :
    nat2 (a := 512) (b := 512) (iblk0 W c 0 t) p k = nat2 (a := 4096) (b := 512) (RegionRecord.tcVal W c main_arg0) (512 * t.val + p) k := by
  have hN : t.val < 8 := lt_of_lt_of_eq t.isLt N_0
  unfold nat2
  by_cases hk : k < 512
  · rw [dif_pos ⟨hp, hk⟩, dif_pos ⟨by omega, hk⟩]
    show RegionRecord.tcVal W c main_arg0 (((cfg0.win 0).blk t).view.emb (ix2 ⟨p, hp⟩ ⟨k, hk⟩)) = _
    refine congrArg _ (funext fun a => Fin.ext ?_)
    obtain ⟨e0, e1, -⟩ := idx0 t
    match a with
    | ⟨0, _⟩ => show win0_0.index t (0 : Fin 2) * 512 + 1 * p = 512 * t.val + p; rw [e0]; omega
    | ⟨1, _⟩ => show win0_0.index t (1 : Fin 2) * 512 + 1 * k = k; rw [e1]; omega
  · rw [dif_neg (fun h => hk h.2), dif_neg (fun h => hk h.2)]

theorem blk0_1 (c : Dev nD) (t : Fin cfg0.N) (d k : ℕ) :
    nat2 (a := 512) (b := 512) (iblk0 W c 1 t) d k = nat2 (a := 512) (b := 512) (RegionRecord.tcVal W c main_arg1) d k := by
  unfold nat2
  by_cases h : d < 512 ∧ k < 512
  · rw [dif_pos h, dif_pos h]
    show RegionRecord.tcVal W c main_arg1 (((cfg0.win 1).blk t).view.emb (ix2 ⟨d, h.1⟩ ⟨k, h.2⟩)) = _
    refine congrArg _ (funext fun a => Fin.ext ?_)
    obtain ⟨-, -, e0, e1, -⟩ := idx0 t
    match a with
    | ⟨0, _⟩ => show win0_1.index t (0 : Fin 2) * 512 + 1 * d = d; rw [e0]; omega
    | ⟨1, _⟩ => show win0_1.index t (1 : Fin 2) * 512 + 1 * k = k; rw [e1]; omega
  · rw [dif_neg h, dif_neg h]

theorem blk1_0 (c : Dev nD) (t : Fin cfg1.N) (p k : ℕ) (hp : p < 1024) :
    nat2 (a := 1024) (b := 512) (iblk1 W c 0 t) p k = nat2 (a := 20480) (b := 512) (RegionRecord.tcVal W c main_v0) (1024 * t.val + p) k := by
  have hN : t.val < 20 := lt_of_lt_of_eq t.isLt N_1
  unfold nat2
  by_cases hk : k < 512
  · rw [dif_pos ⟨hp, hk⟩, dif_pos ⟨by omega, hk⟩]
    show RegionRecord.tcVal W c main_v0 (((cfg1.win 0).blk t).view.emb (ix2 ⟨p, hp⟩ ⟨k, hk⟩)) = _
    refine congrArg _ (funext fun a => Fin.ext ?_)
    obtain ⟨e0, e1, -⟩ := idx1 t
    match a with
    | ⟨0, _⟩ => show win1_0.index t (0 : Fin 2) * 1024 + 1 * p = 1024 * t.val + p; rw [e0]; omega
    | ⟨1, _⟩ => show win1_0.index t (1 : Fin 2) * 512 + 1 * k = k; rw [e1]; omega
  · rw [dif_neg (fun h => hk h.2), dif_neg (fun h => hk h.2)]

theorem blk1_1 (c : Dev nD) (t : Fin cfg1.N) (d k : ℕ) :
    nat2 (a := 512) (b := 512) (iblk1 W c 1 t) d k = nat2 (a := 512) (b := 512) (RegionRecord.tcVal W c main_arg1) d k := by
  unfold nat2
  by_cases h : d < 512 ∧ k < 512
  · rw [dif_pos h, dif_pos h]
    show RegionRecord.tcVal W c main_arg1 (((cfg1.win 1).blk t).view.emb (ix2 ⟨d, h.1⟩ ⟨k, h.2⟩)) = _
    refine congrArg _ (funext fun a => Fin.ext ?_)
    obtain ⟨-, -, e0, e1, -⟩ := idx1 t
    match a with
    | ⟨0, _⟩ => show win1_1.index t (0 : Fin 2) * 512 + 1 * d = d; rw [e0]; omega
    | ⟨1, _⟩ => show win1_1.index t (1 : Fin 2) * 512 + 1 * k = k; rw [e1]; omega
  · rw [dif_neg h, dif_neg h]

theorem blk2_0 (c : Dev nD) (t : Fin cfg2.N) (p k : ℕ) (hp : p < 1024) :
    nat2 (a := 1024) (b := 512) (iblk2 W c 0 t) p k = nat2 (a := 4096) (b := 512) (RegionRecord.tcVal W c main_v12) (1024 * (t.val / 20) + p) k := by
  have hN : t.val < 80 := lt_of_lt_of_eq t.isLt N_2
  unfold nat2
  by_cases hk : k < 512
  · rw [dif_pos ⟨hp, hk⟩, dif_pos ⟨by omega, hk⟩]
    show RegionRecord.tcVal W c main_v12 (((cfg2.win 0).blk t).view.emb (ix2 ⟨p, hp⟩ ⟨k, hk⟩)) = _
    refine congrArg _ (funext fun a => Fin.ext ?_)
    obtain ⟨e0, e1, -⟩ := idx2 t
    match a with
    | ⟨0, _⟩ => show win2_0.index t (0 : Fin 2) * 1024 + 1 * p = 1024 * (t.val / 20) + p; rw [e0]; omega
    | ⟨1, _⟩ => show win2_0.index t (1 : Fin 2) * 512 + 1 * k = k; rw [e1]; omega
  · rw [dif_neg (fun h => hk h.2), dif_neg (fun h => hk h.2)]

theorem blk2_1 (c : Dev nD) (t : Fin cfg2.N) (j k : ℕ) (hj : j < 1024) :
    nat2 (a := 1024) (b := 512) (iblk2 W c 1 t) j k = nat2 (a := 20480) (b := 512) (RegionRecord.tcVal W c main_v13) (1024 * (t.val % 20) + j) k := by
  have hN : t.val < 80 := lt_of_lt_of_eq t.isLt N_2
  unfold nat2
  by_cases hk : k < 512
  · rw [dif_pos ⟨hj, hk⟩, dif_pos ⟨by omega, hk⟩]
    show RegionRecord.tcVal W c main_v13 (((cfg2.win 1).blk t).view.emb (ix2 ⟨j, hj⟩ ⟨k, hk⟩)) = _
    refine congrArg _ (funext fun a => Fin.ext ?_)
    obtain ⟨-, -, e0, e1, -⟩ := idx2 t
    match a with
    | ⟨0, _⟩ => show win2_1.index t (0 : Fin 2) * 1024 + 1 * j = 1024 * (t.val % 20) + j; rw [e0]; omega
    | ⟨1, _⟩ => show win2_1.index t (1 : Fin 2) * 512 + 1 * k = k; rw [e1]; omega
  · rw [dif_neg (fun h => hk h.2), dif_neg (fun h => hk h.2)]

theorem blk2_2 (c : Dev nD) (t : Fin cfg2.N) (j l : ℕ) (hj : j < 1024) :
    nat2 (a := 1024) (b := 128) (iblk2 W c 2 t) j l = nat2 (a := 20480) (b := 128) (RegionRecord.tcVal W c main_v11) (1024 * (t.val % 20) + j) l := by
  have hN : t.val < 80 := lt_of_lt_of_eq t.isLt N_2
  unfold nat2
  by_cases hl : l < 128
  · rw [dif_pos ⟨hj, hl⟩, dif_pos ⟨by omega, hl⟩]
    show RegionRecord.tcVal W c main_v11 (((cfg2.win 2).blk t).view.emb (ix2 ⟨j, hj⟩ ⟨l, hl⟩)) = _
    refine congrArg _ (funext fun a => Fin.ext ?_)
    obtain ⟨-, -, -, -, e0, e1, -⟩ := idx2 t
    match a with
    | ⟨0, _⟩ => show win2_2.index t (0 : Fin 2) * 1024 + 1 * j = 1024 * (t.val % 20) + j; rw [e0]; omega
    | ⟨1, _⟩ => show win2_2.index t (1 : Fin 2) * 128 + 1 * l = l; rw [e1]; omega
  · rw [dif_neg (fun h => hl h.2), dif_neg (fun h => hl h.2)]

/-! ## The output blocks cover their arrays -/

theorem mem_blk0 (t : Fin cfg0.N) (i : S4096x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v12).slice (win0_2.rect t)).set ↔ _
  rw [View.set_slice_whole, Rect.mem_set_unit]
  exact Iff.rfl

theorem cover0 (i : S4096x512.Idx) : ∃ t : Fin cfg0.N, (cfg0.win 2).flush t = true ∧ i ∈ ((cfg0.win 2).blk t).view.set := by
  have hi0 : (i 0).val < 4096 := (i 0).isLt
  have hi1 : (i 1).val < 512 := (i 1).isLt
  refine ⟨⟨(i 0).val / 512, by rw [show cfg0.N = 8 from N_0]; omega⟩, flush0_2 _, ?_⟩
  rw [mem_blk0]
  obtain ⟨-, -, -, -, e0, e1⟩ := idx0 ⟨(i 0).val / 512, by rw [show cfg0.N = 8 from N_0]; omega⟩
  intro a
  match a with
  | ⟨0, _⟩ => show win0_2.index _ (0 : Fin 2) * 512 ≤ (i 0).val ∧ (i 0).val < win0_2.index _ (0 : Fin 2) * 512 + 512; rw [e0]; dsimp only; omega
  | ⟨1, _⟩ => show win0_2.index _ (1 : Fin 2) * 512 ≤ (i 1).val ∧ (i 1).val < win0_2.index _ (1 : Fin 2) * 512 + 512; rw [e1]; omega

theorem mem_blk1 (t : Fin cfg1.N) (i : S20480x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v13).slice (win1_2.rect t)).set ↔ _
  rw [View.set_slice_whole, Rect.mem_set_unit]
  exact Iff.rfl

theorem cover1 (i : S20480x512.Idx) : ∃ t : Fin cfg1.N, (cfg1.win 2).flush t = true ∧ i ∈ ((cfg1.win 2).blk t).view.set := by
  have hi0 : (i 0).val < 20480 := (i 0).isLt
  have hi1 : (i 1).val < 512 := (i 1).isLt
  refine ⟨⟨(i 0).val / 1024, by rw [show cfg1.N = 20 from N_1]; omega⟩, flush1_2 _, ?_⟩
  rw [mem_blk1]
  obtain ⟨-, -, -, -, e0, e1⟩ := idx1 ⟨(i 0).val / 1024, by rw [show cfg1.N = 20 from N_1]; omega⟩
  intro a
  match a with
  | ⟨0, _⟩ => show win1_2.index _ (0 : Fin 2) * 1024 ≤ (i 0).val ∧ (i 0).val < win1_2.index _ (0 : Fin 2) * 1024 + 1024; rw [e0]; dsimp only; omega
  | ⟨1, _⟩ => show win1_2.index _ (1 : Fin 2) * 512 ≤ (i 1).val ∧ (i 1).val < win1_2.index _ (1 : Fin 2) * 512 + 512; rw [e1]; omega

theorem mem_blk2 (t : Fin cfg2.N) (i : S4096x128.Idx) :
    i ∈ ((cfg2.win 3).blk t).view.set ↔ ∀ a : Fin 2, win2_3.index t a * S1024x128.size a ≤ (i a).val ∧ (i a).val < win2_3.index t a * S1024x128.size a + S1024x128.size a := by
  show i ∈ ((View.whole main_v14).slice (win2_3.rect t)).set ↔ _
  rw [View.set_slice_whole, Rect.mem_set_unit]
  exact Iff.rfl

theorem cover2 (i : S4096x128.Idx) : ∃ t : Fin cfg2.N, (cfg2.win 3).flush t = true ∧ i ∈ ((cfg2.win 3).blk t).view.set := by
  have hi0 : (i 0).val < 4096 := (i 0).isLt
  have hi1 : (i 1).val < 128 := (i 1).isLt
  have hlt : 20 * ((i 0).val / 1024) + 19 < cfg2.N := by rw [show cfg2.N = 80 from N_2]; omega
  refine ⟨⟨20 * ((i 0).val / 1024) + 19, hlt⟩, (flush2_3 _).mpr (by dsimp only; omega), ?_⟩
  rw [mem_blk2]
  obtain ⟨-, -, -, -, -, -, e0, e1⟩ := idx2 ⟨20 * ((i 0).val / 1024) + 19, hlt⟩
  intro a
  match a with
  | ⟨0, _⟩ => show win2_3.index _ (0 : Fin 2) * 1024 ≤ (i 0).val ∧ (i 0).val < win2_3.index _ (0 : Fin 2) * 1024 + 1024; rw [e0]; dsimp only; omega
  | ⟨1, _⟩ => show win2_3.index _ (1 : Fin 2) * 128 ≤ (i 1).val ∧ (i 1).val < win2_3.index _ (1 : Fin 2) * 128 + 128; rw [e1]; omega

end Cert.KernelIdeal.Val

end
-- ==== Proof.LibRowOps.lean ====
/-
  Vector operations on matrices read at an index given by its two coordinates.

  A column vector of row statistics passes through three layout steps on its way back to the matrix it was computed
  from: a vector of length `a` is recast as an `a × 1` column, the column is broadcast along the rows of an
  `a × b` matrix, and before that the statistic itself is a sum along each row. Read at the coordinates `(r, c)`
  these are: the vector's entry `r`; the column's entry `(r, 0)`; and the sum over `k` of the entries `(r, k)`.
  A matrix that is three blocks of equal width laid side by side reads, in each third of its columns, the
  corresponding block; and a sum over the three thirds of an index range splits into three sums over one third.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Mathlib.Algebra.BigOperators.Fin

noncomputable section

namespace Cert.Lib.RowOps

open Idealize.ShloMosaic Idealize.ShloMosaic.ValueIdx

variable {α : Type}

/-! ## The column forms -/

/-- A vector of length `a` recast as an `a × 1` column reads, at `(r, u)`, the vector's entry `r`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `a × 1` column broadcast along the rows of an `a × b` matrix reads, at `(r, c)`, the column's entry `(r, 0)`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else c.val
    rw [if_pos rfl]

/-- The sum along each row of an `a × b` matrix of extended reals, from the neutral accumulator (which the sum drops),
    reads at `r` the sum over `k` of the entries `(r, k)`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  show ∑ k : Fin b, src (h.lift (ix1 r) k) = ∑ k : Fin b, src (ix2 r k)
  refine Finset.sum_congr rfl fun k _ => congrArg src ?_
  funext d
  match d with
  | ⟨0, _⟩ => exact Fin.ext rfl
  | ⟨1, _⟩ => exact Fin.ext rfl

/-- The reciprocal square root of a matrix of extended reals, entry by entry. -/
theorem rsqrt_apply {s : Shape} {φ : FTy} (a : FVec Ideal s φ) (i : s.Idx) : rsqrt a i = Ideal.rsqrt (a i) := rfl

/-! ## Three blocks side by side -/

section Concat

variable {n w W : ℕ} (x₀ x₁ x₂ : (⟨2, ![n, w]⟩ : Shape).Idx → α)
  (h : Shape.Concatenates [(⟨2, ![n, w]⟩ : Shape), ⟨2, ![n, w]⟩, ⟨2, ![n, w]⟩] ⟨2, ![n, W]⟩ 1)

/-- In the first third of the columns the side-by-side matrix is the first block. -/
theorem concat3_apply_0 (r : Fin n) (k : Fin w) (hk : k.val < W) :
    concatenate ⟨2, ![n, W]⟩ 1 [⟨⟨2, ![n, w]⟩, x₀⟩, ⟨⟨2, ![n, w]⟩, x₁⟩, ⟨⟨2, ![n, w]⟩, x₂⟩] h (ix2 r ⟨k.val, hk⟩)
      = x₀ (ix2 r k) :=
  concatenate_apply_piece (a := 1)
    (xs := [⟨⟨2, ![n, w]⟩, x₀⟩, ⟨⟨2, ![n, w]⟩, x₁⟩, ⟨⟨2, ![n, w]⟩, x₂⟩]) (h := h) (j := ix2 r ⟨k.val, hk⟩)
    (k := 0) (hk := by simp) (s₁ := ⟨2, ![n, w]⟩) (x₁ := x₀) (hxk := rfl) (hr := rfl) (pre := 0) (hpre := rfl)
    (i := ix2 r k)
    (hi := fun b hb => by
      match b with
      | ⟨0, _⟩ => rfl
      | ⟨1, _⟩ => exact absurd rfl hb)
    (ha := Nat.zero_add _)

/-- In the second third it is the second block. -/
theorem concat3_apply_1 (r : Fin n) (k : Fin w) (hk : w + k.val < W) :
    concatenate ⟨2, ![n, W]⟩ 1 [⟨⟨2, ![n, w]⟩, x₀⟩, ⟨⟨2, ![n, w]⟩, x₁⟩, ⟨⟨2, ![n, w]⟩, x₂⟩] h (ix2 r ⟨w + k.val, hk⟩)
      = x₁ (ix2 r k) :=
  concatenate_apply_piece (a := 1)
    (xs := [⟨⟨2, ![n, w]⟩, x₀⟩, ⟨⟨2, ![n, w]⟩, x₁⟩, ⟨⟨2, ![n, w]⟩, x₂⟩]) (h := h) (j := ix2 r ⟨w + k.val, hk⟩)
    (k := 1) (hk := by simp) (s₁ := ⟨2, ![n, w]⟩) (x₁ := x₁) (hxk := rfl) (hr := rfl) (pre := w) (hpre := by simp)
    (i := ix2 r k)
    (hi := fun b hb => by
      match b with
      | ⟨0, _⟩ => rfl
      | ⟨1, _⟩ => exact absurd rfl hb)
    (ha := rfl)

/-- In the last third it is the third block. -/
theorem concat3_apply_2 (r : Fin n) (k : Fin w) (hk : w + w + k.val < W) :
    concatenate ⟨2, ![n, W]⟩ 1 [⟨⟨2, ![n, w]⟩, x₀⟩, ⟨⟨2, ![n, w]⟩, x₁⟩, ⟨⟨2, ![n, w]⟩, x₂⟩] h (ix2 r ⟨w + w + k.val, hk⟩)
      = x₂ (ix2 r k) :=
  concatenate_apply_piece (a := 1)
    (xs := [⟨⟨2, ![n, w]⟩, x₀⟩, ⟨⟨2, ![n, w]⟩, x₁⟩, ⟨⟨2, ![n, w]⟩, x₂⟩]) (h := h) (j := ix2 r ⟨w + w + k.val, hk⟩)
    (k := 2) (hk := by simp) (s₁ := ⟨2, ![n, w]⟩) (x₁ := x₂) (hxk := rfl) (hr := rfl) (pre := (w + w)) (hpre := by simp)
    (i := ix2 r k)
    (hi := fun b hb => by
      match b with
      | ⟨0, _⟩ => rfl
      | ⟨1, _⟩ => exact absurd rfl hb)
    (ha := rfl)

end Concat

/-! ## A sum over three thirds -/

/-- A sum over `w + w + w` indices is the sum of the sums over each third. -/
theorem sum_thirds {M : Type*} [AddCommMonoid M] (w W : ℕ) (hW : W = w + w + w) (f : Fin W → M) :
    ∑ k : Fin W, f k
      = (∑ k : Fin w, f ⟨k.val, by omega⟩ + ∑ k : Fin w, f ⟨w + k.val, by omega⟩) + ∑ k : Fin w, f ⟨w + w + k.val, by omega⟩ := by
  subst hW
  rw [Fin.sum_univ_add, Fin.sum_univ_add]
  rfl

/-- A row of three side-by-side blocks against a column of a matrix with three times as many rows: the sum over all
    the columns splits into the three blocks' sums against the matching third of the rows. -/
theorem sum_concat3_mul {n w W d : ℕ} (hW : W = w + w + w) (x₀ x₁ x₂ : (⟨2, ![n, w]⟩ : Shape).Idx → EReal)
    (h : Shape.Concatenates [(⟨2, ![n, w]⟩ : Shape), ⟨2, ![n, w]⟩, ⟨2, ![n, w]⟩] ⟨2, ![n, W]⟩ 1)
    (y : (⟨2, ![W, d]⟩ : Shape).Idx → EReal) (r : Fin n) (j : Fin d) :
    ∑ k : Fin W, concatenate ⟨2, ![n, W]⟩ 1 [⟨⟨2, ![n, w]⟩, x₀⟩, ⟨⟨2, ![n, w]⟩, x₁⟩, ⟨⟨2, ![n, w]⟩, x₂⟩] h (ix2 r k) * y (ix2 k j)
      = (∑ k : Fin w, x₀ (ix2 r k) * y (ix2 ⟨k.val, by omega⟩ j) + ∑ k : Fin w, x₁ (ix2 r k) * y (ix2 ⟨w + k.val, by omega⟩ j))
          + ∑ k : Fin w, x₂ (ix2 r k) * y (ix2 ⟨w + w + k.val, by omega⟩ j) := by
  rw [sum_thirds w W hW]
  refine congrArg₂ (· + ·) (congrArg₂ (· + ·) ?_ ?_) ?_
  · exact Finset.sum_congr rfl fun k _ => congrArg (· * _) (concat3_apply_0 x₀ x₁ x₂ h r k (by omega))
  · exact Finset.sum_congr rfl fun k _ => congrArg (· * _) (concat3_apply_1 x₀ x₁ x₂ h r k (by omega))
  · exact Finset.sum_congr rfl fun k _ => congrArg (· * _) (concat3_apply_2 x₀ x₁ x₂ h r k (by omega))

end Cert.Lib.RowOps

end
-- ==== Proof.PayIa.lean ====
import proofs.«146975_j56152402427977_2_alg».proof.Proof.Gen.KernelIdeal.Skeleton
import proofs.«146975_j56152402427977_2_alg».proof.Proof.EchoIdx
import proofs.«146975_j56152402427977_2_alg».proof.Proof.LibRowOps
import Idealize.ShloMosaic.Lib.ValueIdx
import Idealize.ShloMosaic.Lib.Pipeline.Value
import Idealize.ShloMosaic.Lib.ValueLayout
import Idealize.ShloMosaic.PureOps.Ideal.Laws

/-!
# The accumulating kernel's constant and final payloads read at an index

The two zeroed accumulators are zero at every index, and the quotient stored at the last step is, at (p, l), the
weighted sum there divided by the row's absolute sum kept at least eps.
-/

noncomputable section

namespace Cert.KernelIdeal.Pay

open Cert.KernelIdeal Cert.KernelIdeal.Gen Idealize.ShloMosaic Idealize.ShloMosaic.ValueIdx

/-- The zeroed running absolute sum: every entry is zero. -/
theorem pay2_1_apply (p : Fin 1024) (z : Fin 1) : k2_pay1 (F := Ideal) (ix2 p z) = 0 := by
  unfold Gen.k2_pay1
  rw [shapeCast_self]
  exact Ideal.ofBits_zero_f32

/-- The zeroed running weighted sum: every entry is zero. -/
theorem pay2_2_apply (p : Fin 1024) (l : Fin 128) : k2_pay2 (F := Ideal) (ix2 p l) = 0 := by
  unfold Gen.k2_pay2
  rw [shapeCast_self]
  exact Ideal.ofBits_zero_f32

/-- The quotient stored at the last step: the weighted sum at (p, l) over the row's absolute sum kept at least eps. -/
theorem pay2_6_apply (v31 : Vec Ideal S1024x1 .f32) (v34 : Vec Ideal S1024x128 .f32) (p : Fin 1024) (l : Fin 128) :
    k2_pay6 (F := Ideal) v31 v34 (ix2 p l)
      = Ideal.div (v34 (ix2 p l)) (max (v31 (ix2 p (0 : Fin 1))) (Ideal.ofBits .f32 0x2B8CBCCC#32)) := by
  unfold Gen.k2_pay6
  rw [divf_apply, Cert.Lib.RowOps.broadcastTo_a1_ab_apply]
  rfl

end Cert.KernelIdeal.Pay

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.PayIb.lean ====
import proofs.«146975_j56152402427977_2_alg».proof.Proof.Gen.KernelIdeal.Skeleton
import proofs.«146975_j56152402427977_2_alg».proof.Proof.EchoIdx
import proofs.«146975_j56152402427977_2_alg».proof.Proof.LibRowOps
import proofs.«146975_j56152402427977_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

/-!
# The projection kernels' payloads read at an index

Each projection kernel multiplies its block of rows by the transpose of the weights and divides every row of the
product by the row's Euclidean length kept at least eps. Read at (p, q) the payload is the projection's entry over
that divisor, the projection's entry (p, d) being the sum over k of the block at (p, k) times the weights at (d, k)
and the row's sum of squares a plain sum over the row.
-/

noncomputable section

namespace Cert.KernelIdeal.Pay

open Cert.KernelIdeal Cert.KernelIdeal.Gen Idealize.ShloMosaic Idealize.ShloMosaic.ValueIdx

/-- Two rank-2 indices with the same coordinates are equal. -/
theorem ix2_ext {n0 n1 : ℕ} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)

/-- The square root of a vector, read at an index. -/
theorem sqrt_apply {s : Shape} {φ : FTy} (x : FVec Ideal s φ) (i : s.Idx) : sqrt x i = Ideal.sqrt (x i) := rfl

/-- The absolute value of a vector, read at an index. -/
theorem absf_apply {s : Shape} {φ : FTy} (x : FVec Ideal s φ) (i : s.Idx) : absf x i = max (x i) (-(x i)) := rfl

/-- An [a, K] array times the transpose of a [C, K] array, accumulated from zero, is at (p, e) the sum over k of the
    left array at (p, k) times the right array at (e, k). -/
theorem matmul_transposed_apply {a K C : ℕ} {φ₁ φ₂ : FTy}
    (d : DotDims ⟨2, ![a, K]⟩ ⟨2, ![K, C]⟩ ⟨2, ![a, C]⟩) (hd : d = DotDims.plain a K C)
    (X : FVec Ideal ⟨2, ![a, K]⟩ φ₁) (W : FVec Ideal ⟨2, ![C, K]⟩ φ₂)
    (ht : (⟨2, ![C, K]⟩ : Shape).Transposes [1, 0] ⟨2, ![K, C]⟩) (p : Fin a) (e : Fin C) :
    matmul (F := Ideal) d none X (transpose ⟨2, ![K, C]⟩ [1, 0] W ht) (constant ⟨2, ![a, C]⟩ .f32 0x00000000#32) (ix2 p e)
      = ∑ k : Fin K, X (ix2 p k) * W (ix2 e k) := by
  refine (Cert.Lib.PlainDot.matmul_zero_apply d hd none X _ (ix2 p e)).trans ?_
  unfold Cert.Lib.PlainDot.mm
  refine Finset.sum_congr rfl fun k _ => ?_
  rw [show Cert.Lib.PlainDot.rowIdx (ix2 p e) k = ix2 p k from ix2_ext _ _ rfl rfl,
    show Cert.Lib.PlainDot.colIdx (ix2 p e) k = ix2 k e from ix2_ext _ _ rfl rfl, transpose_ix2_apply]

/-- An [a, K] array times a [K, C] array, accumulated from zero, is at (p, e) the sum over k of the left array at
    (p, k) times the right array at (k, e). -/
theorem matmul_plain_apply {a K C : ℕ} {φ₁ φ₂ : FTy}
    (d : DotDims ⟨2, ![a, K]⟩ ⟨2, ![K, C]⟩ ⟨2, ![a, C]⟩) (hd : d = DotDims.plain a K C)
    (X : FVec Ideal ⟨2, ![a, K]⟩ φ₁) (W : FVec Ideal ⟨2, ![K, C]⟩ φ₂) (p : Fin a) (e : Fin C) :
    matmul (F := Ideal) d none X W (constant ⟨2, ![a, C]⟩ .f32 0x00000000#32) (ix2 p e)
      = ∑ k : Fin K, X (ix2 p k) * W (ix2 k e) := by
  refine (Cert.Lib.PlainDot.matmul_zero_apply d hd none X W (ix2 p e)).trans ?_
  unfold Cert.Lib.PlainDot.mm
  refine Finset.sum_congr rfl fun k _ => ?_
  rw [show Cert.Lib.PlainDot.rowIdx (ix2 p e) k = ix2 p k from ix2_ext _ _ rfl rfl,
    show Cert.Lib.PlainDot.colIdx (ix2 p e) k = ix2 k e from ix2_ext _ _ rfl rfl]

/-- A matrix divided, row by row, by the square root of the row's sum of squares kept at least eps: where row p of the
    matrix is row p of a function f of natural-number indices, the quotient at (p, q) is f's row p scaled by its
    Euclidean length, the sum of squares a plain sum over the row. -/
theorem rowNorm_apply {a b : ℕ} (M : FVec Ideal ⟨2, ![a, b]⟩ .f32) (eps : Ideal .f32) (f : ℕ → ℕ → EReal)
    (hr : (⟨2, ![a, b]⟩ : Shape).Reduces [1] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (hM : ∀ d : Fin b, M (ix2 p d) = f p.val d.val) (q : Fin b) :
    divf M (broadcastTo ⟨2, ![a, b]⟩ (maximumf (sqrt (shapeCast ⟨2, ![a, 1]⟩
        (multiReduction (F := Ideal) .add [1] ⟨1, ![a]⟩ (mulf M M) 0x00000000#32 hr hφ hacc) hc))
          (broadcast ⟨2, ![a, 1]⟩ eps)) hb) (ix2 p q)
      = EchoSpec.l2k b eps f p.val q.val := by
  rw [divf_apply, Cert.Lib.RowOps.broadcastTo_a1_ab_apply, maximumf_apply, broadcast_apply, sqrt_apply,
    Cert.Lib.RowOps.shapeCast_a_a1_apply]
  unfold EchoSpec.l2k
  rw [← EchoSpec.sum_fin_eq_range, hM q]
  refine congrArg (fun t => Ideal.div (f p.val q.val) (max (Ideal.sqrt t) eps)) ?_
  refine (Cert.Lib.RowOps.rowSum_apply (mulf M M) _ hr hφ hacc p).trans (Finset.sum_congr rfl fun k _ => ?_)
  rw [mulf_apply, hM k]

/-- The first projection kernel's product at (p, d): row p of the block against row d of the weights. -/
theorem proj0_at (x0 x1 : Vec Ideal S512x512 .f32) (p d : Fin 512) :
    matmul (F := Ideal) dot_S512x512_S512x512_S512x512_1_0_0_1_n_n none (truncf .bf16 x0 bitsLt_bf16_f32)
        (transpose S512x512 [1, 0] (truncf .bf16 x1 bitsLt_bf16_f32) transposes_S512x512_p1_0_S512x512)
        (constant S512x512 .f32 0x00000000#32) (ix2 p d)
      = EchoSpec.proj 512 (EchoSpec.nat2 x0) (EchoSpec.nat2 x1) p.val d.val := by
  refine (matmul_transposed_apply _ rfl _ _ _ p d).trans ?_
  unfold EchoSpec.proj
  rw [← EchoSpec.sum_fin_eq_range]
  refine Finset.sum_congr rfl fun k _ => ?_
  rw [EchoSpec.nat2_apply, EchoSpec.nat2_apply]
  rfl

/-- The first projection kernel's payload at (p, q): the projection's row p scaled by its Euclidean length. -/
theorem pay0_apply (x0 x1 : Vec Ideal S512x512 .f32) (p q : Fin 512) :
    k0_pay1 (F := Ideal) x0 x1 (ix2 p q)
      = EchoSpec.l2k 512 (Ideal.ofBits .f32 0x2B8CBCCC#32)
          (EchoSpec.proj 512 (EchoSpec.nat2 x0) (EchoSpec.nat2 x1)) p.val q.val := by
  unfold Gen.k0_pay1
  rw [truncf_apply]
  exact rowNorm_apply _ _ _ reduces_S512x512_S512 (.inl rfl) rfl shapeCasts_S512_S512x1
    broadcasts_S512x1_S512x512 p (proj0_at x0 x1 p) q

/-- The second projection kernel's product at (p, d): row p of the block against row d of the weights. -/
theorem proj1_at (x0 : Vec Ideal S1024x512 .f32) (x1 : Vec Ideal S512x512 .f32) (p : Fin 1024) (d : Fin 512) :
    matmul (F := Ideal) dot_S1024x512_S512x512_S1024x512_1_0_0_1_n_n none (truncf .bf16 x0 bitsLt_bf16_f32)
        (transpose S512x512 [1, 0] (truncf .bf16 x1 bitsLt_bf16_f32) transposes_S512x512_p1_0_S512x512)
        (constant S1024x512 .f32 0x00000000#32) (ix2 p d)
      = EchoSpec.proj 512 (EchoSpec.nat2 x0) (EchoSpec.nat2 x1) p.val d.val := by
  refine (matmul_transposed_apply _ rfl _ _ _ p d).trans ?_
  unfold EchoSpec.proj
  rw [← EchoSpec.sum_fin_eq_range]
  refine Finset.sum_congr rfl fun k _ => ?_
  rw [EchoSpec.nat2_apply, EchoSpec.nat2_apply]
  rfl

/-- The second projection kernel's payload at (p, q): the projection's row p scaled by its Euclidean length. -/
theorem pay1_apply (x0 : Vec Ideal S1024x512 .f32) (x1 : Vec Ideal S512x512 .f32) (p : Fin 1024) (q : Fin 512) :
    k1_pay1 (F := Ideal) x0 x1 (ix2 p q)
      = EchoSpec.l2k 512 (Ideal.ofBits .f32 0x2B8CBCCC#32)
          (EchoSpec.proj 512 (EchoSpec.nat2 x0) (EchoSpec.nat2 x1)) p.val q.val := by
  unfold Gen.k1_pay1
  rw [truncf_apply, shapeCast_self]
  exact rowNorm_apply _ _ _ reduces_S1024x512_S1024 (.inl rfl) rfl shapeCasts_S1024_S1024x1
    broadcasts_S1024x1_S1024x512 p (proj1_at x0 x1 p) q

end Cert.KernelIdeal.Pay

end
-- ==== Proof.PayIc.lean ====
import proofs.«146975_j56152402427977_2_alg».proof.Proof.Gen.KernelIdeal.Skeleton
import proofs.«146975_j56152402427977_2_alg».proof.Proof.EchoIdx
import proofs.«146975_j56152402427977_2_alg».proof.Proof.PayIb
import Idealize.ShloMosaic.Lib.ValueIdx
import Idealize.ShloMosaic.Lib.Pipeline.Value
import Idealize.ShloMosaic.Lib.ValueLayout
import Idealize.ShloMosaic.PureOps.Ideal.Laws

/-!
# The accumulating kernel's step payloads read at an index

A step of the accumulating kernel takes the inner products of its query rows with a tile of example rows, cubes each
by two products, adds the absolute values of a row's cubes to the running absolute sum and adds the cubes contracted
with the tile's class rows to the running weighted sum. Read at an index each payload is the corresponding plain sum
over the tile's examples.
-/

noncomputable section

namespace Cert.KernelIdeal.Pay

open Cert.KernelIdeal Cert.KernelIdeal.Gen Idealize.ShloMosaic Idealize.ShloMosaic.ValueIdx

/-- The similarity of query row p and example row j: the product of the queries with the transposed examples at (p, j). -/
theorem sim_at (v3 v5 : Vec Ideal S1024x512 .bf16) (p j : Fin 1024) :
    matmul (F := Ideal) (φ₁ := .bf16) (φ₂ := .bf16) dot_S1024x512_S512x1024_S1024x1024_1_0_0_1_n_n none v3
        (transpose S512x1024 [1, 0] v5 transposes_S1024x512_p1_0_S512x1024)
        (constant S1024x1024 .f32 0x00000000#32) (ix2 p j)
      = EchoSpec.sim 512 (EchoSpec.nat2 v3) (EchoSpec.nat2 v5) p.val j.val := by
  refine (matmul_transposed_apply (φ₁ := .bf16) (φ₂ := .bf16) _ rfl v3 v5 _ p j).trans ?_
  unfold EchoSpec.sim
  rw [← EchoSpec.sum_fin_eq_range]
  refine Finset.sum_congr rfl fun k _ => ?_
  rw [EchoSpec.nat2_apply, EchoSpec.nat2_apply]

/-- The cubed similarities at (p, j): the similarity multiplied by itself twice. -/
theorem pay2_3_apply (v3 v5 : Vec Ideal S1024x512 .bf16) (p j : Fin 1024) :
    k2_pay3 (F := Ideal) v3 v5 (ix2 p j)
      = EchoSpec.cube (EchoSpec.sim 512 (EchoSpec.nat2 v3) (EchoSpec.nat2 v5) p.val j.val) := by
  unfold Gen.k2_pay3
  rw [shapeCast_self, shapeCast_self, mulf_apply, mulf_apply, sim_at]
  rfl

/-- The running absolute sum after a step, at (p, z): what it held plus the sum over the tile's examples of the
    absolute values of the cubed similarities. -/
theorem pay2_4_apply (v3 v5 : Vec Ideal S1024x512 .bf16) (v12 : Vec Ideal S1024x1 .f32) (p : Fin 1024) (z : Fin 1) :
    k2_pay4 (F := Ideal) v3 v5 v12 (ix2 p z)
      = v12 (ix2 p z) + ∑ j ∈ Finset.range 1024,
          max (EchoSpec.cube (EchoSpec.sim 512 (EchoSpec.nat2 v3) (EchoSpec.nat2 v5) p.val j))
            (-(EchoSpec.cube (EchoSpec.sim 512 (EchoSpec.nat2 v3) (EchoSpec.nat2 v5) p.val j))) := by
  unfold Gen.k2_pay4
  rw [shapeCast_self, addf_apply, Cert.Lib.RowOps.shapeCast_a_a1_apply]
  refine congrArg (v12 (ix2 p z) + ·) ?_
  refine (Cert.Lib.RowOps.rowSum_apply (absf (k2_pay3 (F := Ideal) v3 v5)) _ reduces_S1024x1024_S1024 (.inl rfl) rfl p).trans ?_
  rw [← EchoSpec.sum_fin_eq_range]
  refine Finset.sum_congr rfl fun j _ => ?_
  rw [absf_apply, pay2_3_apply]

/-- The running weighted sum after a step, at (p, l): what it held plus the sum over the tile's examples of the cubed
    similarity times the example's class row at l. -/
theorem pay2_5_apply (v3 v5 : Vec Ideal S1024x512 .bf16) (v19 : Vec Ideal S1024x128 .bf16) (v21 : Vec Ideal S1024x128 .f32)
    (p : Fin 1024) (l : Fin 128) :
    k2_pay5 (F := Ideal) v3 v5 v19 v21 (ix2 p l)
      = v21 (ix2 p l) + ∑ j ∈ Finset.range 1024,
          EchoSpec.cube (EchoSpec.sim 512 (EchoSpec.nat2 v3) (EchoSpec.nat2 v5) p.val j) * EchoSpec.nat2 v19 j l.val := by
  unfold Gen.k2_pay5
  rw [shapeCast_self, shapeCast_self, addf_apply]
  refine congrArg (v21 (ix2 p l) + ·) ?_
  refine (matmul_plain_apply (φ₁ := .bf16) (φ₂ := .bf16) _ rfl _ v19 p l).trans ?_
  rw [← EchoSpec.sum_fin_eq_range]
  refine Finset.sum_congr rfl fun j _ => ?_
  rw [truncf_apply, pay2_3_apply, EchoSpec.nat2_apply]

end Cert.KernelIdeal.Pay

end
-- ==== Proof.PayI.lean ====
import proofs.«146975_j56152402427977_2_alg».proof.Proof.PayIa
import proofs.«146975_j56152402427977_2_alg».proof.Proof.PayIb
import proofs.«146975_j56152402427977_2_alg».proof.Proof.PayIc

/-!
# The three kernel bodies' payloads read at an index

The payloads of the two projection kernels and of the accumulating kernel, each read at a pair of coordinates as a
function of the specification over the loaded blocks read at natural-number indices: a projection's row scaled by its
Euclidean length; the zeroed accumulators; the cubed similarities; the running absolute sum and the running weighted
sum after a step; and the final quotient.
-/
-- ==== Proof.FinalI.lean ====
import proofs.«146975_j56152402427977_2_alg».proof.Proof.BlocksI
import proofs.«146975_j56152402427977_2_alg».proof.Proof.PayI

/-!
# The three regions' output arrays in closed form

Every point's written-back block is the restriction of ONE whole-array function of the region's input arrays, and the
blocks cover the output array, so the array ends at that function. For the projection regions the function is the
row-scaled projection. For the accumulating region the scratch buffers hold, after step k of a row tile, the totals over
the tile's first k+1 steps (an induction along the grid), and the block written back at the last step is the quotient of
the two totals.
-/

set_option maxRecDepth 16384

noncomputable section

namespace Cert.KernelIdeal.Val

open Cert.KernelIdeal Cert.KernelIdeal.Gen Cert.KernelIdeal.Data EchoSpec
open Idealize.ShloMosaic Idealize.ShloMosaic.TcCoe Idealize.ShloMosaic.ValueIdx
open Idealize.SL Idealize.SL.Sem
open Idealize.ShloMosaic.Pipeline (Dat Cfg Window)

variable (W : Dev nD → Valuation τ sig (Elt Ideal))

/-- The divisor floor shared by every normalisation. -/
abbrev eps : EReal := Ideal.ofBits .f32 0x2B8CBCCC#32

/-! ## Region 0: the whole output array -/

/-- The array region 0 leaves: every row of the data projected by the weights and scaled to unit length. -/
def G0 (a0 : S4096x512.Idx → EReal) (a1 : S512x512.Idx → EReal) : S4096x512.Idx → EReal :=
  fun i => l2k 512 eps (proj 512 (nat2 a0) (nat2 a1)) (i 0).val (i 1).val

/-- What point t writes back is block t of that array. -/
theorem flushed0_eq (c : Dev nD) (t : Fin cfg0.N) :
    (dats0 W c).flushed 2 t = ((cfg0.win 2).blk t).view.read (Elt Ideal)
      (G0 (RegionRecord.tcVal W c main_arg0) (RegionRecord.tcVal W c main_arg1)) := by
  show (cfg0.win 2).cut (grid0.coords t) ((dats0 W c).after 2 t) = _
  rw [after0_2]
  funext j
  obtain ⟨p, q, rfl⟩ : ∃ (p : Fin 512) (q : Fin 512), j = ix2 p q := ⟨j 0, j 1, eq_ix2 j⟩
  show k0_pay1 (F := Ideal) (iblk0 W c 0 t) (iblk0 W c 1 t) (ix2 p q)
    = G0 (RegionRecord.tcVal W c main_arg0) (RegionRecord.tcVal W c main_arg1) (((cfg0.win 2).blk t).view.emb (ix2 p q))
  refine (Pay.pay0_apply (iblk0 W c 0 t) (iblk0 W c 1 t) p q).trans ?_
  unfold G0
  have hN : t.val < 8 := lt_of_lt_of_eq t.isLt N_0
  obtain ⟨-, -, -, -, e0, e1⟩ := idx0 t
  have h0 : ((((cfg0.win 2).blk t).view.emb (ix2 p q)) 0).val = 512 * t.val + p.val := by
    show win0_2.index t (0 : Fin 2) * 512 + 1 * p.val = _; rw [e0]; omega
  have h1 : ((((cfg0.win 2).blk t).view.emb (ix2 p q)) 1).val = q.val := by
    show win0_2.index t (1 : Fin 2) * 512 + 1 * q.val = _; rw [e1]; omega
  rw [h0, h1]
  exact l2k_proj_congr (fun k => blk0_0 W c t p.val k p.isLt) (fun d k => blk0_1 W c t d k)

/-- The output array after the region. -/
theorem final0 (c : Dev nD) :
    (dats0 W c).arrAt 2 cfg0.N = G0 (RegionRecord.tcVal W c main_arg0) (RegionRecord.tcVal W c main_arg1) :=
  (dats0 W c).arrAt_eq_of_cover 2 _ (fun t _ => flushed0_eq W c t) cover0

/-! ## Region 1: the whole output array -/

/-- The array region 1 leaves: every row of the data projected by the weights and scaled to unit length. -/
def G1 (a0 : S20480x512.Idx → EReal) (a1 : S512x512.Idx → EReal) : S20480x512.Idx → EReal :=
  fun i => l2k 512 eps (proj 512 (nat2 a0) (nat2 a1)) (i 0).val (i 1).val

/-- What point t writes back is block t of that array. -/
theorem flushed1_eq (c : Dev nD) (t : Fin cfg1.N) :
    (dats1 W c).flushed 2 t = ((cfg1.win 2).blk t).view.read (Elt Ideal)
      (G1 (RegionRecord.tcVal W c main_v0) (RegionRecord.tcVal W c main_arg1)) := by
  show (cfg1.win 2).cut (grid1.coords t) ((dats1 W c).after 2 t) = _
  rw [after1_2]
  funext j
  obtain ⟨p, q, rfl⟩ : ∃ (p : Fin 1024) (q : Fin 512), j = ix2 p q := ⟨j 0, j 1, eq_ix2 j⟩
  show k1_pay1 (F := Ideal) (iblk1 W c 0 t) (iblk1 W c 1 t) (ix2 p q)
    = G1 (RegionRecord.tcVal W c main_v0) (RegionRecord.tcVal W c main_arg1) (((cfg1.win 2).blk t).view.emb (ix2 p q))
  refine (Pay.pay1_apply (iblk1 W c 0 t) (iblk1 W c 1 t) p q).trans ?_
  unfold G1
  have hN : t.val < 20 := lt_of_lt_of_eq t.isLt N_1
  obtain ⟨-, -, -, -, e0, e1⟩ := idx1 t
  have h0 : ((((cfg1.win 2).blk t).view.emb (ix2 p q)) 0).val = 1024 * t.val + p.val := by
    show win1_2.index t (0 : Fin 2) * 1024 + 1 * p.val = _; rw [e0]; omega
  have h1 : ((((cfg1.win 2).blk t).view.emb (ix2 p q)) 1).val = q.val := by
    show win1_2.index t (1 : Fin 2) * 512 + 1 * q.val = _; rw [e1]; omega
  rw [h0, h1]
  exact l2k_proj_congr (fun k => blk1_0 W c t p.val k p.isLt) (fun d k => blk1_1 W c t d k)

/-- The output array after the region. -/
theorem final1 (c : Dev nD) :
    (dats1 W c).arrAt 2 cfg1.N = G1 (RegionRecord.tcVal W c main_v0) (RegionRecord.tcVal W c main_arg1) :=
  (dats1 W c).arrAt_eq_of_cover 2 _ (fun t _ => flushed1_eq W c t) cover1

/-! ## Region 2: the running totals and the quotient -/

/-- Step k's contribution to row b's absolute sum: over the step's 1024 examples, the magnitude of the cubed inner product. -/
def Tabs (fn en : ℕ → ℕ → EReal) (b k : ℕ) : EReal :=
  ∑ j ∈ Finset.range 1024, max (cube (sim 512 fn en b (1024 * k + j))) (-(cube (sim 512 fn en b (1024 * k + j))))

/-- Step k's contribution to entry (b, l) of the weighted sum. -/
def Tacc (fn en cc : ℕ → ℕ → EReal) (b l k : ℕ) : EReal :=
  ∑ j ∈ Finset.range 1024, cube (sim 512 fn en b (1024 * k + j)) * cc (1024 * k + j) l

/-- The array region 2 leaves: entry (b, l) is the weighted sum over all 20 steps divided by the absolute sum (floored). -/
def G2 (fn : S4096x512.Idx → EReal) (en : S20480x512.Idx → EReal) (cc : S20480x128.Idx → EReal) : S4096x128.Idx → EReal :=
  fun i => Ideal.div (accum (Tacc (nat2 fn) (nat2 en) (nat2 cc) (i 0).val (i 1).val) 19)
    (max (accum (Tabs (nat2 fn) (nat2 en) (i 0).val) 19) eps)

/-- One step's absolute-sum contribution, computed on the point's blocks, is the step's term for the block's row. -/
theorem step_abs (c : Dev nD) (t : Fin cfg2.N) (p : Fin 1024) :
    (∑ j ∈ Finset.range 1024, max (cube (sim 512 (nat2 (a := 1024) (b := 512) (iblk2 W c 0 t)) (nat2 (a := 1024) (b := 512) (iblk2 W c 1 t)) p.val j))
        (-(cube (sim 512 (nat2 (a := 1024) (b := 512) (iblk2 W c 0 t)) (nat2 (a := 1024) (b := 512) (iblk2 W c 1 t)) p.val j))))
      = Tabs (nat2 (a := 4096) (b := 512) (RegionRecord.tcVal W c main_v12)) (nat2 (a := 20480) (b := 512) (RegionRecord.tcVal W c main_v13))
          (1024 * (t.val / 20) + p.val) (t.val % 20) := by
  unfold Tabs
  refine Finset.sum_congr rfl fun j hj => ?_
  have hj' : j < 1024 := Finset.mem_range.mp hj
  rw [sim_congr (fun d => blk2_0 W c t p.val d p.isLt) (fun d => blk2_1 W c t j d hj')]

/-- One step's weighted-sum contribution likewise. -/
theorem step_acc (c : Dev nD) (t : Fin cfg2.N) (p : Fin 1024) (l : Fin 128) :
    (∑ j ∈ Finset.range 1024, cube (sim 512 (nat2 (a := 1024) (b := 512) (iblk2 W c 0 t)) (nat2 (a := 1024) (b := 512) (iblk2 W c 1 t)) p.val j)
        * nat2 (a := 1024) (b := 128) (iblk2 W c 2 t) j l.val)
      = Tacc (nat2 (a := 4096) (b := 512) (RegionRecord.tcVal W c main_v12)) (nat2 (a := 20480) (b := 512) (RegionRecord.tcVal W c main_v13))
          (nat2 (a := 20480) (b := 128) (RegionRecord.tcVal W c main_v11)) (1024 * (t.val / 20) + p.val) l.val (t.val % 20) := by
  unfold Tacc
  refine Finset.sum_congr rfl fun j hj => ?_
  have hj' : j < 1024 := Finset.mem_range.mp hj
  rw [sim_congr (fun d => blk2_0 W c t p.val d p.isLt) (fun d => blk2_1 W c t j d hj'), blk2_2 W c t j l.val hj']

/-- After point n the scratch buffers hold, in row p, the totals of row tile n / 20 over its steps 0 … n % 20. -/
theorem sc_closed (c : Dev nD) : ∀ (n : ℕ) (hn : n < cfg2.N) (p : Fin 1024),
    (sc W c n hn).1 (ix2 p (0 : Fin 1))
        = accum (Tabs (nat2 (a := 4096) (b := 512) (RegionRecord.tcVal W c main_v12)) (nat2 (a := 20480) (b := 512) (RegionRecord.tcVal W c main_v13))
            (1024 * (n / 20) + p.val)) (n % 20)
      ∧ ∀ l : Fin 128, (sc W c n hn).2 (ix2 p l)
        = accum (Tacc (nat2 (a := 4096) (b := 512) (RegionRecord.tcVal W c main_v12)) (nat2 (a := 20480) (b := 512) (RegionRecord.tcVal W c main_v13))
            (nat2 (a := 20480) (b := 128) (RegionRecord.tcVal W c main_v11)) (1024 * (n / 20) + p.val) l.val) (n % 20) := by
  intro n
  induction n with
  | zero =>
    intro hn p
    rw [sc_first W c ⟨0, hn⟩ rfl]
    refine ⟨?_, fun l => ?_⟩
    · show k2_pay4 (F := Ideal) (iblk2 W c 0 ⟨0, hn⟩) (iblk2 W c 1 ⟨0, hn⟩) (k2_pay1 (F := Ideal)) (ix2 p (0 : Fin 1)) = _
      refine (Pay.pay2_4_apply _ _ _ p 0).trans ?_
      rw [Pay.pay2_1_apply p 0, step_abs W c ⟨0, hn⟩ p]
      rfl
    · show k2_pay5 (F := Ideal) (iblk2 W c 0 ⟨0, hn⟩) (iblk2 W c 1 ⟨0, hn⟩) (iblk2 W c 2 ⟨0, hn⟩) (k2_pay2 (F := Ideal)) (ix2 p l) = _
      refine (Pay.pay2_5_apply _ _ _ _ p l).trans ?_
      rw [Pay.pay2_2_apply p l, step_acc W c ⟨0, hn⟩ p l]
      rfl
  | succ n ih =>
    intro hn p
    have hN : n + 1 < 80 := lt_of_lt_of_eq hn N_2
    by_cases h0 : (n + 1) % 20 = 0
    · rw [sc_first W c ⟨n + 1, hn⟩ h0]
      refine ⟨?_, fun l => ?_⟩
      · show k2_pay4 (F := Ideal) (iblk2 W c 0 ⟨n + 1, hn⟩) (iblk2 W c 1 ⟨n + 1, hn⟩) (k2_pay1 (F := Ideal)) (ix2 p (0 : Fin 1)) = _
        refine (Pay.pay2_4_apply _ _ _ p 0).trans ?_
        rw [Pay.pay2_1_apply p 0, step_abs W c ⟨n + 1, hn⟩ p]
        show _ = accum _ ((n + 1) % 20)
        rw [h0]; rfl
      · show k2_pay5 (F := Ideal) (iblk2 W c 0 ⟨n + 1, hn⟩) (iblk2 W c 1 ⟨n + 1, hn⟩) (iblk2 W c 2 ⟨n + 1, hn⟩) (k2_pay2 (F := Ideal)) (ix2 p l) = _
        refine (Pay.pay2_5_apply _ _ _ _ p l).trans ?_
        rw [Pay.pay2_2_apply p l, step_acc W c ⟨n + 1, hn⟩ p l]
        show _ = accum _ ((n + 1) % 20)
        rw [h0]; rfl
    · rw [sc_next W c ⟨n + 1, hn⟩ h0]
      obtain ⟨ih1, ih2⟩ := ih (Nat.lt_of_succ_lt hn) p
      have hd : (n + 1) / 20 = n / 20 := by omega
      have hm : (n + 1) % 20 = n % 20 + 1 := by omega
      refine ⟨?_, fun l => ?_⟩
      · show k2_pay4 (F := Ideal) (iblk2 W c 0 ⟨n + 1, hn⟩) (iblk2 W c 1 ⟨n + 1, hn⟩) (sc W c n (Nat.lt_of_succ_lt hn)).1 (ix2 p (0 : Fin 1)) = _
        refine (Pay.pay2_4_apply _ _ _ p 0).trans ?_
        rw [ih1, step_abs W c ⟨n + 1, hn⟩ p]
        show _ = accum _ ((n + 1) % 20)
        rw [hm, hd]; rfl
      · show k2_pay5 (F := Ideal) (iblk2 W c 0 ⟨n + 1, hn⟩) (iblk2 W c 1 ⟨n + 1, hn⟩) (iblk2 W c 2 ⟨n + 1, hn⟩) (sc W c n (Nat.lt_of_succ_lt hn)).2 (ix2 p l) = _
        refine (Pay.pay2_5_apply _ _ _ _ p l).trans ?_
        rw [ih2 l, step_acc W c ⟨n + 1, hn⟩ p l]
        show _ = accum _ ((n + 1) % 20)
        rw [hm, hd]; rfl

/-- What a last step writes back is its block of the quotient array. -/
theorem flushed2_eq (c : Dev nD) (t : Fin cfg2.N) (hf : (cfg2.win 3).flush t = true) :
    (dats2 W c).flushed 3 t = ((cfg2.win 3).blk t).view.read (Elt Ideal)
      (G2 (RegionRecord.tcVal W c main_v12) (RegionRecord.tcVal W c main_v13) (RegionRecord.tcVal W c main_v11)) := by
  have h19 : t.val % 20 = 19 := (flush2_3 t).mp hf
  show (cfg2.win 3).cut (grid2.coords t) ((dats2 W c).after 3 t) = _
  rw [after2_3]
  funext j
  obtain ⟨p, l, rfl⟩ : ∃ (p : Fin 1024) (l : Fin 128), j = ix2 p l := ⟨j 0, j 1, eq_ix2 j⟩
  show k2_pay6 (F := Ideal) (sc W c t.val t.isLt).1 (sc W c t.val t.isLt).2 (ix2 p l)
    = G2 (RegionRecord.tcVal W c main_v12) (RegionRecord.tcVal W c main_v13) (RegionRecord.tcVal W c main_v11) (((cfg2.win 3).blk t).view.emb (ix2 p l))
  refine (Pay.pay2_6_apply _ _ p l).trans ?_
  obtain ⟨s1, s2⟩ := sc_closed W c t.val t.isLt p
  rw [s1, s2 l, h19]
  unfold G2
  have hN : t.val < 80 := lt_of_lt_of_eq t.isLt N_2
  obtain ⟨-, -, -, -, -, -, e0, e1⟩ := idx2 t
  have h0 : ((((cfg2.win 3).blk t).view.emb (ix2 p l)) 0).val = 1024 * (t.val / 20) + p.val := by
    show win2_3.index t (0 : Fin 2) * 1024 + 1 * p.val = _; rw [e0]; omega
  have h1 : ((((cfg2.win 3).blk t).view.emb (ix2 p l)) 1).val = l.val := by
    show win2_3.index t (1 : Fin 2) * 128 + 1 * l.val = _; rw [e1]; omega
  rw [h0, h1]

/-- The output array after region 2. -/
theorem final2 (c : Dev nD) :
    (dats2 W c).arrAt 3 cfg2.N
      = G2 (RegionRecord.tcVal W c main_v12) (RegionRecord.tcVal W c main_v13) (RegionRecord.tcVal W c main_v11) :=
  (dats2 W c).arrAt_eq_of_cover 3 _ (fun t hf => flushed2_eq W c t hf) cover2

end Cert.KernelIdeal.Val

end
-- ==== Proof.EchoCongr2.lean ====
import proofs.«146975_j56152402427977_2_alg».proof.Proof.EchoCongr

/-!
# Congruences that look only inside the ranges summed over
-/

noncomputable section

namespace EchoSpec

open Finset

theorem sim_congr_lt {D : ℕ} {fn fn' en en' : ℕ → ℕ → EReal} {b b' j j' : ℕ}
    (hf : ∀ d, d < D → fn b d = fn' b' d) (he : ∀ d, d < D → en j d = en' j' d) : sim D fn en b j = sim D fn' en' b' j' := by
  unfold sim; exact Finset.sum_congr rfl fun d hd => by rw [hf d (Finset.mem_range.mp hd), he d (Finset.mem_range.mp hd)]

theorem accum_congr_le {T T' : ℕ → EReal} : ∀ (n : ℕ), (∀ k, k ≤ n → T k = T' k) → accum T n = accum T' n
  | 0, h => by simp only [accum, h 0 (Nat.le_refl 0)]
  | n + 1, h => by
    simp only [accum, h (n + 1) (Nat.le_refl _)]
    rw [accum_congr_le n fun k hk => h k (Nat.le_succ_of_le hk)]

end EchoSpec

end
-- ==== Proof.KernelFormI.lean ====
import proofs.«146975_j56152402427977_2_alg».proof.Proof.FinalI
import proofs.«146975_j56152402427977_2_alg».proof.Proof.EchoCongr2

/-!
# The accumulating region's output, over the projection regions' outputs, is the tiled form of the specification

With the query rows and the example rows being the two projection regions' arrays, and the class rows the host's, entry
(b, l) of the quotient array is the specification's tiled form at (b, l): the inner products read only entries inside
the arrays' extents, where the natural-number reading is the entry.
-/

noncomputable section

namespace Cert.KernelIdeal.Val

open EchoSpec Idealize.ShloMosaic Idealize.ShloMosaic.ValueIdx

theorem nat2_G0 (x0 : S4096x512.Idx → EReal) (x1 : S512x512.Idx → EReal) (b d : ℕ) (hb : b < 4096) (hd : d < 512) :
    nat2 (a := 4096) (b := 512) (G0 x0 x1) b d = l2k 512 eps (proj 512 (nat2 x0) (nat2 x1)) b d := by
  unfold nat2; rw [dif_pos ⟨hb, hd⟩]; rfl

theorem nat2_G1 (v0 : S20480x512.Idx → EReal) (x1 : S512x512.Idx → EReal) (j d : ℕ) (hj : j < 20480) (hd : d < 512) :
    nat2 (a := 20480) (b := 512) (G1 v0 x1) j d = l2k 512 eps (proj 512 (nat2 v0) (nat2 x1)) j d := by
  unfold nat2; rw [dif_pos ⟨hj, hd⟩]; rfl

theorem kernel_form (x0 : S4096x512.Idx → EReal) (x1 : S512x512.Idx → EReal) (v0 : S20480x512.Idx → EReal)
    (cc : S20480x128.Idx → EReal) (e cx r : ℕ → ℕ → EReal)
    (hv0 : ∀ j k, nat2 v0 j k = e j k)
    (hcc : ∀ j l, j < 20480 → l < 100 → nat2 cc j l = creps 100 eps cx r j l)
    (b : Fin 4096) (l : Fin 128) (hl : l.val < 100) :
    G2 (G0 x0 x1) (G1 v0 x1) cc (ix2 b l) = kernelForm 512 512 100 1024 20 eps (nat2 x0) (nat2 x1) e cx r b.val l.val := by
  have hs : ∀ j, j < 20480 → sim 512 (nat2 (a := 4096) (b := 512) (G0 x0 x1)) (nat2 (a := 20480) (b := 512) (G1 v0 x1)) b.val j
      = sim 512 (l2k 512 eps (proj 512 (nat2 x0) (nat2 x1))) (l2k 512 eps (proj 512 e (nat2 x1))) b.val j := by
    intro j hj
    refine sim_congr_lt (fun d hd => nat2_G0 x0 x1 b.val d b.isLt hd) (fun d hd => ?_)
    rw [nat2_G1 v0 x1 j d hj hd]
    exact l2k_proj_congr (fun k => hv0 j k) (fun _ _ => rfl)
  unfold G2 kernelForm
  show Ideal.div (accum (Tacc _ _ _ b.val l.val) 19) (max (accum (Tabs _ _ b.val) 19) eps) = Ideal.div (accum _ 19) (max (accum _ 19) eps)
  congr 1
  · refine accum_congr_le 19 fun k hk => ?_
    unfold Tacc
    refine Finset.sum_congr rfl fun j hj => ?_
    have hj' : j < 1024 := Finset.mem_range.mp hj
    rw [hs (1024 * k + j) (by omega), hcc (1024 * k + j) l.val (by omega) hl]
  · congr 1
    refine accum_congr_le 19 fun k hk => ?_
    unfold Tabs
    refine Finset.sum_congr rfl fun j hj => ?_
    have hj' : j < 1024 := Finset.mem_range.mp hj
    rw [hs (1024 * k + j) (by omega)]

end Cert.KernelIdeal.Val

end
-- ==== Proof.HostI.lean ====
import proofs.«146975_j56152402427977_2_alg».proof.Proof.Gen.KernelIdeal.Regions
import proofs.«146975_j56152402427977_2_alg».proof.Proof.EchoSpec
import proofs.«146975_j56152402427977_2_alg».proof.Proof.EchoIdx
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws
import Idealize.ShloMosaic.Lib.StableHlo.Run

/-!
# What the host operations before the kernel regions leave in the arrays the regions read

Before its three kernel regions the program pads the examples and their class weights with 480 zero rows, scales each row
of the padded class weights to unit absolute sum (the divisor kept at least the floor), contracts the scaled rows with the
class representations, and pads the result with 28 zero columns. Read at natural-number indices, a matrix padded with
zeros is the matrix itself, so the padded examples read as the examples and the padded class rows, at a row below 20480
and a label below 100, read as the class rows of the specification. The features and the weights are not written.
-/

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The features reach the kernel regions as launched. -/
theorem V7_main_arg0 : V7 m c main_arg0 = m ((c : Thread nD τ).loc main_arg0) :=
  (V7_of m c main_arg0 (by decide)).trans <| (V6_of m c main_arg0 (by decide)).trans <| (V5_of m c main_arg0 (by decide)).trans <|
  (V4_of m c main_arg0 (by decide)).trans <| (V3_of m c main_arg0 (by decide)).trans <| (V2_of m c main_arg0 (by decide)).trans <|
  (V1_of m c main_arg0 (by decide)).trans rfl

/-- The weights reach the kernel regions as launched. -/
theorem V7_main_arg1 : V7 m c main_arg1 = m ((c : Thread nD τ).loc main_arg1) :=
  (V7_of m c main_arg1 (by decide)).trans <| (V6_of m c main_arg1 (by decide)).trans <| (V5_of m c main_arg1 (by decide)).trans <|
  (V4_of m c main_arg1 (by decide)).trans <| (V3_of m c main_arg1 (by decide)).trans <| (V2_of m c main_arg1 (by decide)).trans <|
  (V1_of m c main_arg1 (by decide)).trans rfl

/-- A matrix padded with zeros after its last row and last column, read at natural-number indices, is the matrix read
    there: inside the matrix the entry, in the padding the zero, outside both readings are zero. -/
theorem nat2_pad {a b a' b' : ℕ} (hi : Fin 2 → ℕ) (x : (⟨2, ![a, b]⟩ : Shape).Idx → EReal) {u : Shape} (v : u.Idx → EReal)
    (h : (⟨2, ![a, b]⟩ : Shape).Pads (![0, 0] : Fin 2 → ℕ) hi ![0, 0] ⟨2, ![a', b']⟩) (hu : 0 < u.numel)
    (hv : v (Shape.Idx.first hu) = 0) (ha : a ≤ a') (hb : b ≤ b') (j k : ℕ) :
    EchoSpec.nat2 (a := a') (b := b') (pad ⟨2, ![a', b']⟩ ![0, 0] hi ![0, 0] x v h hu) j k = EchoSpec.nat2 x j k := by
  by_cases hin : j < a ∧ k < b
  · have hin' : j < a' ∧ k < b' := ⟨by omega, by omega⟩
    unfold EchoSpec.nat2
    rw [dif_pos hin, dif_pos hin']
    exact pad_apply_of_inside _ _ _ x v h hu _ (ix2 ⟨j, hin.1⟩ ⟨k, hin.2⟩) (fun ax => match ax with
      | ⟨0, _⟩ => by show j = 0 + j * (0 + 1); omega
      | ⟨1, _⟩ => by show k = 0 + k * (0 + 1); omega)
  · rw [EchoSpec.nat2_of_not x j k hin]
    by_cases hin' : j < a' ∧ k < b'
    · unfold EchoSpec.nat2
      rw [dif_pos hin']
      by_cases hj : j < a
      · have hk : ¬ k < b := fun hk => hin ⟨hj, hk⟩
        rw [pad_apply_of_not_inside _ _ _ x v h hu _ (1 : Fin 2) (by
          show ¬(0 ≤ k ∧ (k - 0) % (0 + 1) = 0 ∧ (k - 0) / (0 + 1) < b); omega)]
        exact hv
      · rw [pad_apply_of_not_inside _ _ _ x v h hu _ (0 : Fin 2) (by
          show ¬(0 ≤ j ∧ (j - 0) % (0 + 1) = 0 ∧ (j - 0) / (0 + 1) < a); omega)]
        exact hv
    · exact EchoSpec.nat2_of_not _ j k hin'

/-- The padding value, the integer zero converted, is the zero. -/
theorem padv_zero : (sitofp (F := Ideal) .f32 (constantI S_ 32 0#32)) (Shape.Idx.first h_S_) = 0 := sitofp_zero

/-- The padded examples as a term of the launch contents. -/
theorem V7_main_v0 :
    (V7 m c main_v0 : S20480x512.Idx → EReal)
      = pad S20480x512 ![0, 0] ![480, 0] ![0, 0] (m ((c : Thread nD τ).loc main_arg2))
          (sitofp (F := Ideal) .f32 (constantI S_ 32 0#32)) pads_S20000x512_S20480x512_04800_000 h_S_ := by
  dsimp only [V7, V6, V5, V4, V3, V2, V1, V0]
  simp only [hostOps0, hostOps0_1, hostOps0_2, hostOps0_3, hostOps0_4, hostOps0_5, hostOps0_6]
  after_results
  rfl

/-- The examples padded to 20480 rows read as the examples: rows past the last example read zero on both sides. -/
theorem V7_main_v0_nat2 : ∀ j k : ℕ,
    EchoSpec.nat2 (a := 20480) (b := 512) (V7 m c main_v0) j k
      = EchoSpec.nat2 (a := 20000) (b := 512) (m ((c : Thread nD τ).loc main_arg2)) j k := by
  intro j k
  rw [V7_main_v0]
  exact nat2_pad _ _ _ _ _ padv_zero (by omega) (by omega) j k

/-- The class weights padded with 480 zero rows. -/
def x3p : FVec Ideal S20480x100 .f32 :=
  pad S20480x100 ![0, 0] ![480, 0] ![0, 0] (m ((c : Thread nD τ).loc main_arg3))
    (sitofp (F := Ideal) .f32 (constantI S_ 32 0#32)) pads_S20000x100_S20480x100_04800_000 h_S_

/-- Each padded row's absolute sum, started from zero. -/
def rowAbs : FVec Ideal S20480 .f32 :=
  Host.reduceAdd (Host.absf (x3p m c)) (constant (F := Ideal) S_ .f32 0x00000000#32) reducesTo_S20480x100_S20480_d1 h_S_

/-- The divisor of each entry: its row's absolute sum, kept at least the floor. -/
def den : FVec Ideal S20480x100 .f32 :=
  broadcastInDim S20480x100 ![0, 1] bcast_S20480x1_S20480x100_0_1
    (maximumf (broadcastInDim S20480x1 ![0] bcast_S20480_S20480x1_0 (rowAbs m c))
      (broadcastInDim S20480x1 ![] bcast_S_S20480x1 (constant (F := Ideal) S_ .f32 0x2B8CBCCC#32)))

/-- The class rows of the padded examples: the scaled class weights contracted with the class representations. -/
def classRows : FVec Ideal S20480x100 .f32 :=
  Host.dotGeneral (φ₁ := .f32) (φ₂ := .f32) dot_S20480x100_S100x100_S20480x100_1_0_0_1_n_n none (Host.divf (x3p m c) (den m c))
    (m ((c : Thread nD τ).loc main_arg4) : FVec Ideal S100x100 .f32)

set_option maxRecDepth 8192 in
/-- The class rows padded to 128 columns, as the last kernel region reads them, as a term of the launch contents. -/
theorem V7_main_v11 :
    (V7 m c main_v11 : S20480x128.Idx → EReal)
      = truncf .bf16 (pad S20480x128 ![0, 0] ![0, 28] ![0, 0] (classRows m c)
          (sitofp (F := Ideal) .f32 (constantI S_ 32 0#32)) pads_S20480x100_S20480x128_000_0280 h_S_) bitsLt_bf16_f32 := by
  dsimp only [V7, V6, V5, V4, V3, V2, V1, V0]
  simp only [hostOps0, hostOps0_1, hostOps0_2, hostOps0_3, hostOps0_4, hostOps0_5, hostOps0_6]
  after_results
  rfl

/-- A row's absolute sum is zero plus the sum over the row of the absolute values. -/
theorem rowAbs_at (j : Fin 20480) :
    rowAbs m c (ix1 j) = 0 + ∑ k : Fin 100, max (x3p m c (ix2 j k)) (-(x3p m c (ix2 j k))) := by
  have e : ∀ y0 : FVec Ideal S20480x100 .f32,
      Host.reduceAdd y0 (constant (F := Ideal) S_ .f32 0x00000000#32) reducesTo_S20480x100_S20480_d1 h_S_ (ix1 j)
        = 0 + ∑ k : Fin 100, y0 (ix2 j k) := by
    intro y0
    simp only [Host.reduceAdd, Ideal.hostReduceAdd_def]
    rw [Ideal.hostReduceAdd_single reducesTo_S20480x100_S20480_d1 (by decide)]
    refine congrArg₂ (· + ·) Ideal.ofBits_zero_f32 (Finset.sum_congr rfl fun k _ => ?_)
    exact congrArg y0 (funext fun a => Fin.ext (by match a with | ⟨0, _⟩ => rfl | ⟨1, _⟩ => rfl))
  unfold rowAbs
  rw [e]
  rfl

/-- The divisor at (j, k) is row j's absolute sum, kept at least the floor. -/
theorem den_at (j : Fin 20480) (k : Fin 100) :
    den m c (ix2 j k) = max (rowAbs m c (ix1 j)) (Ideal.ofBits .f32 0x2B8CBCCC#32) := by
  unfold den
  rw [broadcastInDim_apply _ bcast_S20480x1_S20480x100_0_1 _ (ix2 j k) (ix2 j (0 : Fin 1)) (fun a => match a with
      | ⟨0, _⟩ => by show j.val = if (20480 : Nat) = 1 then 0 else j.val; rw [if_neg (by decide)]
      | ⟨1, _⟩ => by show 0 = if (1 : Nat) = 1 then 0 else k.val; rw [if_pos rfl])]
  show max (broadcastInDim S20480x1 ![0] bcast_S20480_S20480x1_0 (rowAbs m c) (ix2 j (0 : Fin 1)))
      (broadcastInDim S20480x1 ![] bcast_S_S20480x1 (constant (F := Ideal) S_ .f32 0x2B8CBCCC#32) (ix2 j (0 : Fin 1))) = _
  rw [broadcastInDim_apply _ bcast_S20480_S20480x1_0 _ (ix2 j (0 : Fin 1)) (ix1 j) (fun a => match a with
      | ⟨0, _⟩ => by show j.val = if (20480 : Nat) = 1 then 0 else j.val; rw [if_neg (by decide)]),
    broadcastInDim_apply _ bcast_S_S20480x1 _ (ix2 j (0 : Fin 1)) ix0 (fun a => a.elim0)]
  rfl

/-- A quotient of two arrays at an index is the quotient of their entries there. -/
theorem divf_at {s : Shape} (A B : FVec Ideal s .f32) (i : s.Idx) : Host.divf A B i = Ideal.div (A i) (B i) := rfl

/-- The class row of padded example j at label l: the sum over the classes of the scaled class weight times the class representation. -/
theorem classRows_at (j : Fin 20480) (l : Fin 100) :
    classRows m c (ix2 j l)
      = ∑ k : Fin 100, Ideal.div (x3p m c (ix2 j k))
          (max (0 + ∑ k' : Fin 100, max (x3p m c (ix2 j k')) (-(x3p m c (ix2 j k')))) (Ideal.ofBits .f32 0x2B8CBCCC#32))
          * (m ((c : Thread nD τ).loc main_arg4) : FVec Ideal S100x100 .f32) (ix2 k l) := by
  unfold classRows
  rw [show dot_S20480x100_S100x100_S20480x100_1_0_0_1_n_n = DotDims.plain 20480 100 100 from rfl,
    StackMember.dotGeneral_plain_apply]
  refine Finset.sum_congr rfl fun k _ => ?_
  rw [divf_at, den_at, rowAbs_at]

/-- The class rows as the last kernel region reads them, at row j below 20480 and label l below 100, are the class rows of
    the specification over the class weights and the class representations read at natural-number indices: the padding
    rows and columns read zero, as rows past the last example do in the specification. -/
theorem V7_main_v11_nat2 : ∀ j l : ℕ, j < 20480 → l < 100 →
    EchoSpec.nat2 (a := 20480) (b := 128) (V7 m c main_v11) j l
      = EchoSpec.creps 100 (Ideal.ofBits .f32 0x2B8CBCCC#32)
          (EchoSpec.nat2 (a := 20000) (b := 100) (m ((c : Thread nD τ).loc main_arg3)))
          (EchoSpec.nat2 (a := 100) (b := 100) (m ((c : Thread nD τ).loc main_arg4))) j l := by
  intro j l hj hl
  have e1 : EchoSpec.nat2 (a := 20480) (b := 128) (V7 m c main_v11) j l
      = EchoSpec.nat2 (a := 20480) (b := 100) (classRows m c) j l := by
    rw [V7_main_v11]
    exact nat2_pad _ (classRows m c) _ pads_S20480x100_S20480x128_000_0280 h_S_ padv_zero (by omega) (by omega) j l
  have hx : ∀ k : Fin 100, x3p m c (ix2 ⟨j, hj⟩ k)
      = EchoSpec.nat2 (a := 20000) (b := 100) (m ((c : Thread nD τ).loc main_arg3)) j k.val := fun k => by
    rw [← EchoSpec.nat2_apply (x3p m c) ⟨j, hj⟩ k]
    exact nat2_pad _ _ _ pads_S20000x100_S20480x100_04800_000 h_S_ padv_zero (by omega) (by omega) j k.val
  rw [e1, show EchoSpec.nat2 (classRows m c) j l = classRows m c (ix2 ⟨j, hj⟩ ⟨l, hl⟩) from
    EchoSpec.nat2_apply (classRows m c) ⟨j, hj⟩ ⟨l, hl⟩, classRows_at]
  unfold EchoSpec.creps
  simp only [← EchoSpec.sum_fin_eq_range, hx]
  refine Finset.sum_congr rfl fun k _ => ?_
  rw [← EchoSpec.nat2_apply (a := 100) (b := 100) (m ((c : Thread nD τ).loc main_arg4)) k ⟨l, hl⟩]

end Cert.KernelIdeal.Host

end
-- ==== Proof.EchoLawA.lean ====
import proofs.«146975_j56152402427977_2_alg».proof.Proof.EchoSpec

/-!
# Real shadows of the stages of the echo computation

When every input is a real number, every stage of both forms is the image of the same computation done in the reals.
This file defines the real-valued stages and proves, stage by stage, that the extended-real stage on images of reals is
the image of the real stage.
-/

noncomputable section

namespace EchoSpec

open Idealize.ShloMosaic Finset

/-! ## Images of reals under the arithmetic used -/

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of images is the image of the real sum of products. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Division of a real by a nonzero real is real division. -/
theorem div_coe_coe (a m : ℝ) (hm : m ≠ 0) : Ideal.div (a : EReal) (m : EReal) = ((a / m : ℝ) : EReal) := by
  rw [Ideal.div_coe hm, ← EReal.coe_mul, mul_one_div]

/-- The larger of two images is the image of the larger. -/
theorem max_coe (a b : ℝ) : max (a : EReal) (b : EReal) = ((max a b : ℝ) : EReal) :=
  (EReal.coe_strictMono.monotone.map_max).symm

/-- The larger of a real and its negative is its absolute value. -/
theorem max_neg_coe (a : ℝ) : max (a : EReal) (-(a : EReal)) = ((|a| : ℝ) : EReal) := by
  rw [← EReal.coe_neg, max_coe, abs_eq_max_neg]

/-- The square root of a nonnegative real. -/
theorem sqrt_coe_nonneg (a : ℝ) (ha : 0 ≤ a) : Ideal.sqrt (a : EReal) = ((Real.sqrt a : ℝ) : EReal) := by
  rw [Ideal.sqrt_coe, if_neg (not_lt.mpr ha)]

/-- The cube by two products of a real. -/
theorem cube_coe (s : ℝ) : cube (s : EReal) = ((s * s * s : ℝ) : EReal) := by
  rw [cube, ← EReal.coe_mul, ← EReal.coe_mul]

/-- In the reals, sign times the third power of the magnitude is the cube. -/
theorem sign_mul_abs_pow_three (s : ℝ) : (SignType.sign s : ℝ) * |s| ^ 3 = s * s * s := by
  calc (SignType.sign s : ℝ) * |s| ^ 3 = ((SignType.sign s : ℝ) * |s|) * |s| ^ 2 := by ring
    _ = s * s ^ 2 := by rw [sign_mul_abs, sq_abs]
    _ = s * s * s := by ring

/-- Sign times the power of the magnitude, at exponent three, is the cube of a real. -/
theorem psign_coe (s : ℝ) : psign ((3 : ℝ) : EReal) (s : EReal) = ((s * s * s : ℝ) : EReal) := by
  rw [psign, max_neg_coe, Ideal.sign_coe, Ideal.pow_coe_coe, ← EReal.coe_mul, Real.rpow_eq_pow,
    show ((3 : ℝ)) = ((3 : ℕ) : ℝ) by norm_num, Real.rpow_natCast, sign_mul_abs_pow_three]

/-! ## The real stages -/

/-- The projection in the reals. -/
def projR (K : ℕ) (x w : ℕ → ℕ → ℝ) (b d : ℕ) : ℝ := ∑ k ∈ range K, x b k * w d k

/-- A row scaled by its Euclidean length (divisor at least ε), in the reals. -/
def l2R (D : ℕ) (ε : ℝ) (f : ℕ → ℕ → ℝ) (b d : ℕ) : ℝ :=
  f b d / max (Real.sqrt (∑ d' ∈ range D, f b d' * f b d')) ε

/-- The class rows in the reals. -/
def crepsR (L : ℕ) (ε : ℝ) (cx r : ℕ → ℕ → ℝ) (j l : ℕ) : ℝ :=
  ∑ k ∈ range L, cx j k / max (∑ k' ∈ range L, |cx j k'|) ε * r k l

/-- The inner product in the reals. -/
def simR (D : ℕ) (fn en : ℕ → ℕ → ℝ) (b j : ℕ) : ℝ := ∑ d ∈ range D, fn b d * en j d

theorem max_eps_ne_zero (a ε : ℝ) (hε : 0 < ε) : max a ε ≠ 0 :=
  (lt_of_lt_of_le hε (le_max_right _ _)).ne'

theorem proj_coe (K : ℕ) (x w : ℕ → ℕ → ℝ) :
    proj K (fun i k => (x i k : EReal)) (fun i k => (w i k : EReal))
      = fun b d => ((projR K x w b d : ℝ) : EReal) := by
  funext b d
  simp only [proj, projR]
  exact sum_coe_mul_coe _ _ _

theorem l2k_coe (D : ℕ) (ε : ℝ) (hε : 0 < ε) (f : ℕ → ℕ → ℝ) :
    l2k D (ε : EReal) (fun i k => (f i k : EReal)) = fun b d => ((l2R D ε f b d : ℝ) : EReal) := by
  funext b d
  simp only [l2k, l2R]
  rw [sum_coe_mul_coe, sqrt_coe_nonneg _ (sum_nonneg fun i _ => mul_self_nonneg _), max_coe,
    div_coe_coe _ _ (max_eps_ne_zero _ _ hε)]

theorem l2r_coe (D : ℕ) (ε : ℝ) (hε : 0 < ε) (f : ℕ → ℕ → ℝ) :
    l2r D (ε : EReal) (fun i k => (f i k : EReal)) = fun b d => ((l2R D ε f b d : ℝ) : EReal) := by
  funext b d
  simp only [l2r, l2R]
  rw [zero_add, sum_coe_mul_coe, sqrt_coe_nonneg _ (sum_nonneg fun i _ => mul_self_nonneg _), max_coe,
    div_coe_coe _ _ (max_eps_ne_zero _ _ hε)]

theorem sim_coe (D : ℕ) (fn en : ℕ → ℕ → ℝ) (b j : ℕ) :
    sim D (fun i k => (fn i k : EReal)) (fun i k => (en i k : EReal)) b j = ((simR D fn en b j : ℝ) : EReal) := by
  simp only [sim, simR]
  exact sum_coe_mul_coe _ _ _

theorem creps_coe (L : ℕ) (ε : ℝ) (hε : 0 < ε) (cx r : ℕ → ℕ → ℝ) (j l : ℕ) :
    creps L (ε : EReal) (fun i k => (cx i k : EReal)) (fun i k => (r i k : EReal)) j l
      = ((crepsR L ε cx r j l : ℝ) : EReal) := by
  simp only [creps, crepsR, max_neg_coe]
  rw [zero_add, ← coe_sum, max_coe]
  simp only [div_coe_coe _ _ (max_eps_ne_zero _ _ hε)]
  exact sum_coe_mul_coe _ _ _

end EchoSpec

end
-- ==== Proof.EchoLawB.lean ====
import proofs.«146975_j56152402427977_2_alg».proof.Proof.EchoSpec

/-!
# A total accumulated tile by tile

A total that starts from zero and adds one tile's sum per step is the sum over all tiles; tiles of t consecutive
positions make up the first n·t positions; and positions whose term is zero can be dropped.
-/

noncomputable section

namespace EchoSpec

open Finset

/-- The accumulated total after step n is the sum of the first n + 1 terms. -/
theorem accum_eq_sum (T : ℕ → EReal) (n : ℕ) : accum T n = ∑ k ∈ range (n + 1), T k := by
  induction n with
  | zero => simp [accum]
  | succ n ih => rw [accum, ih, sum_range_succ _ (n + 1)]

/-- A sum over the first n·t naturals is n consecutive sums over t naturals. -/
theorem sum_range_tiles {M : Type*} [AddCommMonoid M] (n t : ℕ) (f : ℕ → M) :
    ∑ k ∈ range n, ∑ j ∈ range t, f (t * k + j) = ∑ i ∈ range (n * t), f i := by
  induction n with
  | zero => simp
  | succ n ih => rw [sum_range_succ, ih, Nat.succ_mul, sum_range_add, mul_comm t n]

/-- Terms that vanish from position N on do not contribute. -/
theorem sum_range_of_zero_tail {M : Type*} [AddCommMonoid M] {N L : ℕ} (h : N ≤ L) (f : ℕ → M)
    (hf : ∀ i, N ≤ i → f i = 0) : ∑ i ∈ range L, f i = ∑ i ∈ range N, f i := by
  symm
  apply sum_subset (range_mono h)
  intro i _ hi
  exact hf i (by simpa using hi)

/-- The total accumulated over NB tiles of T positions, of terms that vanish from position N ≤ NB·T on,
    is the sum of the first N terms. -/
theorem accum_tiles (T NB N : ℕ) (hNB : 0 < NB) (hN : N ≤ NB * T) (F : ℕ → EReal)
    (hF : ∀ i, N ≤ i → F i = 0) :
    accum (fun k => ∑ j ∈ range T, F (T * k + j)) (NB - 1) = ∑ i ∈ range N, F i := by
  rw [accum_eq_sum, Nat.sub_add_cancel hNB]
  exact (sum_range_tiles NB T F).trans (sum_range_of_zero_tail hN F hF)

end EchoSpec

end
-- ==== Proof.EchoLaw.lean ====
import proofs.«146975_j56152402427977_2_alg».proof.Proof.EchoLawA
import proofs.«146975_j56152402427977_2_alg».proof.Proof.EchoLawB

/-!
# The tiled form equals the one-pass form on real inputs

With real inputs both forms are images of real numbers. Writing c j for the cube of the inner product of query row b
with example row j and g j for the class-row entry (j, l), the tiled form is (∑ j < N, c j · g j) / max (∑ j < N, |c j|) ε
(example rows from N on are zero rows, so their cubes are zero and the tiles' sums stop at N), and the one-pass form is
∑ j < N, (c j / max (∑ j' < N, |c j'|) ε) · g j. The two agree because division by a fixed real distributes over a finite sum.
-/

noncomputable section

namespace EchoSpec

open Idealize.ShloMosaic Finset

/-- The inner product of the scaled projected query row b and example row j, in the reals. -/
def cR (K D : ℕ) (ε : ℝ) (x w e : ℕ → ℕ → ℝ) (b j : ℕ) : ℝ :=
  simR D (l2R D ε (projR K x w)) (l2R D ε (projR K e w)) b j

theorem sim_l2k_coe (K D : ℕ) (ε : ℝ) (hε : 0 < ε) (x w e : ℕ → ℕ → ℝ) (b j : ℕ) :
    sim D (l2k D (ε : EReal) (proj K (fun i k => (x i k : EReal)) (fun i k => (w i k : EReal))))
        (l2k D (ε : EReal) (proj K (fun i k => (e i k : EReal)) (fun i k => (w i k : EReal)))) b j
      = ((cR K D ε x w e b j : ℝ) : EReal) := by
  rw [proj_coe, proj_coe, l2k_coe _ _ hε, l2k_coe _ _ hε, sim_coe]; rfl

theorem sim_l2r_coe (K D : ℕ) (ε : ℝ) (hε : 0 < ε) (x w e : ℕ → ℕ → ℝ) (b j : ℕ) :
    sim D (l2r D (ε : EReal) (proj K (fun i k => (x i k : EReal)) (fun i k => (w i k : EReal))))
        (l2r D (ε : EReal) (proj K (fun i k => (e i k : EReal)) (fun i k => (w i k : EReal)))) b j
      = ((cR K D ε x w e b j : ℝ) : EReal) := by
  rw [proj_coe, proj_coe, l2r_coe _ _ hε, l2r_coe _ _ hε, sim_coe]; rfl

/-- A zero example row projects to a zero row, scales to a zero row, and has zero inner product with every query row. -/
theorem cR_zero_row (K D : ℕ) (ε : ℝ) (x w e : ℕ → ℕ → ℝ) (b j : ℕ) (hj : ∀ k, e j k = 0) :
    cR K D ε x w e b j = 0 := by
  have hp : ∀ d, projR K e w j d = 0 := by
    intro d; simp [projR, hj]
  simp [cR, simR, l2R, hp]

/-- The tiled form on real inputs. -/
theorem kernelForm_coe (K D L T NB N : ℕ) (ε : ℝ) (hε : 0 < ε) (x w e cx r : ℕ → ℕ → ℝ) (b l : ℕ)
    (hNB : 0 < NB) (hN : N ≤ NB * T) (hepad : ∀ j, N ≤ j → ∀ k, e j k = 0) :
    kernelForm K D L T NB (ε : EReal) (fun i k => (x i k : EReal)) (fun i k => (w i k : EReal))
        (fun i k => (e i k : EReal)) (fun i k => (cx i k : EReal)) (fun i k => (r i k : EReal)) b l
      = (((∑ j ∈ range N, (cR K D ε x w e b j * cR K D ε x w e b j * cR K D ε x w e b j) * crepsR L ε cx r j l)
          / max (∑ j ∈ range N, |cR K D ε x w e b j * cR K D ε x w e b j * cR K D ε x w e b j|) ε : ℝ) : EReal) := by
  have hc0 : ∀ j, N ≤ j → cR K D ε x w e b j = 0 := fun j hj => cR_zero_row K D ε x w e b j (hepad j hj)
  simp only [kernelForm, sim_l2k_coe _ _ _ hε, cube_coe, creps_coe _ _ hε, max_neg_coe]
  rw [accum_tiles T NB N hNB hN
      (fun i => ((cR K D ε x w e b i * cR K D ε x w e b i * cR K D ε x w e b i : ℝ) : EReal)
        * ((crepsR L ε cx r i l : ℝ) : EReal)) ?_,
    accum_tiles T NB N hNB hN
      (fun i => ((|cR K D ε x w e b i * cR K D ε x w e b i * cR K D ε x w e b i| : ℝ) : EReal)) ?_]
  · rw [sum_coe_mul_coe, ← coe_sum, max_coe, div_coe_coe _ _ (max_eps_ne_zero _ _ hε)]
  · intro i hi; simp [hc0 i hi]
  · intro i hi; simp [hc0 i hi]

/-- The one-pass form on real inputs. -/
theorem refForm_coe (K D L N : ℕ) (ε : ℝ) (hε : 0 < ε) (x w e cx r : ℕ → ℕ → ℝ) (b l : ℕ) :
    refForm K D L N (ε : EReal) ((3 : ℝ) : EReal) (fun i k => (x i k : EReal)) (fun i k => (w i k : EReal))
        (fun i k => (e i k : EReal)) (fun i k => (cx i k : EReal)) (fun i k => (r i k : EReal)) b l
      = ((∑ j ∈ range N, (cR K D ε x w e b j * cR K D ε x w e b j * cR K D ε x w e b j)
          / max (∑ j' ∈ range N, |cR K D ε x w e b j' * cR K D ε x w e b j' * cR K D ε x w e b j'|) ε
          * crepsR L ε cx r j l : ℝ) : EReal) := by
  simp only [refForm, sim_l2r_coe _ _ _ hε, psign_coe, creps_coe _ _ hε, max_neg_coe]
  rw [zero_add, ← coe_sum, max_coe]
  simp only [div_coe_coe _ _ (max_eps_ne_zero _ _ hε)]
  exact sum_coe_mul_coe _ _ _

/-- On real inputs whose example rows and class rows are zero from row N on, the tiled form and the one-pass form agree. -/
theorem kernelForm_eq_refForm (K D L T NB N : ℕ) (eps three : EReal) (x w e cx r : ℕ → ℕ → EReal) (b l : ℕ)
    (hNB : 0 < NB) (hN : N ≤ NB * T)
    (heps : ∃ ε : ℝ, 0 < ε ∧ eps = (ε : EReal)) (h3 : three = ((3 : ℝ) : EReal))
    (hx : ∀ i k, EchoSpec.IsReal (x i k)) (hw : ∀ i k, EchoSpec.IsReal (w i k)) (he : ∀ i k, EchoSpec.IsReal (e i k))
    (hcx : ∀ i k, EchoSpec.IsReal (cx i k)) (hr : ∀ i k, EchoSpec.IsReal (r i k))
    (hepad : ∀ j, N ≤ j → ∀ k, e j k = 0) (hcpad : ∀ j, N ≤ j → ∀ k, cx j k = 0) :
    EchoSpec.kernelForm K D L T NB eps x w e cx r b l = EchoSpec.refForm K D L N eps three x w e cx r b l := by
  have _ := hcpad
  obtain ⟨ε, hε, rfl⟩ := heps
  subst h3
  choose x' hx' using hx
  choose w' hw' using hw
  choose e' he' using he
  choose cx' hcx' using hcx
  choose r' hr' using hr
  obtain rfl : x = fun i k => (x' i k : EReal) := by funext i k; exact hx' i k
  obtain rfl : w = fun i k => (w' i k : EReal) := by funext i k; exact hw' i k
  obtain rfl : e = fun i k => (e' i k : EReal) := by funext i k; exact he' i k
  obtain rfl : cx = fun i k => (cx' i k : EReal) := by funext i k; exact hcx' i k
  obtain rfl : r = fun i k => (r' i k : EReal) := by funext i k; exact hr' i k
  have hepad' : ∀ j, N ≤ j → ∀ k, e' j k = 0 := fun j hj k =>
    EReal.coe_eq_zero.mp (show ((e' j k : ℝ) : EReal) = 0 from hepad j hj k)
  rw [kernelForm_coe K D L T NB N ε hε x' w' e' cx' r' b l hNB hN hepad', refForm_coe K D L N ε hε x' w' e' cx' r' b l,
    Finset.sum_div]
  congr 1
  refine sum_congr rfl fun j _ => ?_
  ring

end EchoSpec

end
-- ==== Proof.RefConsts.lean ====
import Mathlib
import Idealize.ShloMosaic.PureOps.Ideal

/-!
# The two float constants of the reference, as extended reals

The divisor floor of every normalization is the positive real 9223372 · 2⁻⁶³ (the binary value nearest 10⁻¹²),
and the exponent of the power is the real 3.
-/

noncomputable section

namespace Cert.ReferenceIdeal.RefValue

open Idealize.ShloMosaic

/-- The floor of the divisors denotes a positive real. -/
theorem eps_pos : ∃ ε : ℝ, 0 < ε ∧ Ideal.ofBits .f32 0x2B8CBCCC#32 = (ε : EReal) :=
  ⟨(9223372 : ℝ) * (2 : ℝ) ^ (-63 : ℤ), by positivity, by simp [Ideal.ofBits, Ideal.ieee, -EReal.coe_mul]⟩

/-- The exponent denotes the real 3. -/
theorem three_eq : Ideal.ofBits .f32 0x40400000#32 = ((3 : ℝ) : EReal) := by
  simp [Ideal.ofBits, Ideal.ieee, -EReal.coe_mul]; norm_num

end Cert.ReferenceIdeal.RefValue

end
-- ==== Proof.LibFiniteTest.lean ====
/-
  The finiteness test `all(|x| < +∞)` of a float array, read on the extended reals.

  A precondition "every entry of x is finite" is computed as: take |x| entry by entry, compare it with the
  float +∞ stretched over x's shape, and take the conjunction of all the comparison bits. On the extended reals
  |x| is max x (−x), the float pattern 0x7F800000 is the top element, and max x (−x) < ⊤ holds exactly when x is
  neither infinity — when x is a real number. So if the conjunction is the bit 1, every entry of x is real.
  Stated for any shape of x and any list of reduced axes, over the literal shape of a single number ⟨0, ![]⟩.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value
import Mathlib.Data.EReal.Operations

noncomputable section

namespace Cert.Lib.FiniteTest

open Idealize.ShloMosaic Idealize.ShloMosaic.ValueIdx

/-- The shape of a single number has one index. -/
instance : Subsingleton (⟨0, ![]⟩ : Shape).Idx := ⟨fun _ _ => funext fun d => d.elim0⟩

/-- The float pattern of +∞ denotes the top of the extended reals. -/
theorem ofBits_inf : Ideal.ofBits .f32 0x7F800000#32 = (⊤ : EReal) := by simp [Ideal.ofBits, Ideal.ieee]

/-- An extended real whose absolute value, max x (−x), is below +∞ is a real number. -/
theorem exists_real_of_abs_lt_top {x : EReal} (h : max x (-x) < ⊤) : ∃ r : ℝ, x = (r : EReal) := by
  induction x using EReal.rec with
  | bot => simp at h
  | top => simp at h
  | coe r => exact ⟨r, rfl⟩

/-- One entry's test: |x i| < +∞ says that x i is a real number. -/
theorem real_of_abs_lt_inf {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = (r : EReal) := by
  rw [cmpf_apply, Ideal.cmpf_def, broadcastInDim_apply _ hb _ i ix0 (fun a => a.elim0), constant_apply, ofBits_inf] at h
  have h' : max (x i) (-(x i)) < ⊤ := by
    by_contra hn
    have : Ideal.cmp .olt (Host.absf x i) ⊤ = 0#1 := by
      show BitVec.ofBool (decide (max (x i) (-(x i)) < ⊤)) = 0#1
      rw [decide_eq_false hn]; rfl
    rw [this] at h
    exact absurd h (by decide)
  exact exists_real_of_abs_lt_top h'

/-- The whole test: the conjunction over all entries is 1, so every entry is real. -/
theorem allReal_of_all {s : Shape} (x : FVec Ideal s .f32)
    (hb : (⟨0, ![]⟩ : Shape).BroadcastsInDim s (![] : Fin 0 → Fin s.rank))
    {axes : List (Fin s.rank)} (hr : s.ReducesTo axes ⟨0, ![]⟩) (hu : 0 < (⟨0, ![]⟩ : Shape).numel)
    (h : Host.reduce IntOp.andi (cmpf .olt (Host.absf x) (broadcastInDim s ![] hb (constant (F := Ideal) ⟨0, ![]⟩ .f32 0x7F800000#32)))
      (constantI ⟨0, ![]⟩ 1 1#1) hr hu ix0 = 1#1) : ∀ i, ∃ r : ℝ, x i = (r : EReal) :=
  fun i => real_of_abs_lt_inf x hb i (Host.reduce_andi_all _ _ hr hu ix0 h i)

end Cert.Lib.FiniteTest

end
-- ==== Proof.RefPre.lean ====
import proofs.«146975_j56152402427977_2_alg».proof.Defs
import proofs.«146975_j56152402427977_2_alg».proof.Proof.EchoSpec
import proofs.«146975_j56152402427977_2_alg».proof.Proof.LibFiniteTest
import Idealize.ShloMosaic.Lib.ValueIdx
import Idealize.ShloMosaic.Lib.ReduceAll

/-!
# The precondition says that every entry of every argument array is a real number

The precondition is the conjunction of five tests, one per argument array, each the conjunction over all entries of
"the absolute value is below plus infinity". Its being the bit 1 makes each of the five tests 1, and each test being 1
makes every entry of its array a real number.
-/

noncomputable section

namespace Cert.ReferenceIdeal.RefValue

open Idealize.ShloMosaic Idealize.ShloMosaic.ValueIdx Cert.Lib.FiniteTest

/-- Under the precondition every entry of the five argument arrays is real. -/
theorem pre_real [Cert.Pre_finite_inputs.Facts]
    (x0 : FVec Ideal Cert.Pre_finite_inputs.S4096x512 .f32) (x1 : FVec Ideal Cert.Pre_finite_inputs.S512x512 .f32)
    (x2 : FVec Ideal Cert.Pre_finite_inputs.S20000x512 .f32) (x3 : FVec Ideal Cert.Pre_finite_inputs.S20000x100 .f32)
    (x4 : FVec Ideal Cert.Pre_finite_inputs.S100x100 .f32)
    (h : Cert.Pre_finite_inputs.fn (F := Ideal) x0 x1 x2 x3 x4 = fun _ => 1#1) :
    (∀ i, EchoSpec.IsReal (x0 i)) ∧ (∀ i, EchoSpec.IsReal (x1 i)) ∧ (∀ i, EchoSpec.IsReal (x2 i))
      ∧ (∀ i, EchoSpec.IsReal (x3 i)) ∧ (∀ i, EchoSpec.IsReal (x4 i)) := by
  have h0 := congrFun h ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h00, h1⟩ := IntOp.andi_eq_one.1 h01
  exact ⟨allReal_of_all x0 _ _ _ h00, allReal_of_all x1 _ _ _ h1, allReal_of_all x2 _ _ _ h2,
    allReal_of_all x3 _ _ _ h3, allReal_of_all x4 _ _ _ h4⟩

end Cert.ReferenceIdeal.RefValue

end
-- ==== Proof.ValueI.lean ====
import proofs.«146975_j56152402427977_2_alg».proof.Proof.KernelFormI
import proofs.«146975_j56152402427977_2_alg».proof.Proof.RecordsI
import proofs.«146975_j56152402427977_2_alg».proof.Proof.HostI
import proofs.«146975_j56152402427977_2_alg».proof.Proof.EchoLaw
import proofs.«146975_j56152402427977_2_alg».proof.Proof.RefConsts
import proofs.«146975_j56152402427977_2_alg».proof.Proof.RefPre
import proofs.«146975_j56152402427977_2_alg».proof.Proof.RefValue
import proofs.«146975_j56152402427977_2_alg».proof.Proof.Gen.Pre_finite_inputs
import proofs.«146975_j56152402427977_2_alg».proof.Proof.Gen.KernelIdeal

/-!
# The kernel program's result is the reference's

The accumulating region's output array is the quotient array over what the two projection regions left, which are the
row-scaled projections of the queries and of the zero-padded examples; the class rows are the host's. So each entry of
the sliced result is the specification's tiled form at the argument arrays. All inputs being finite, the tiled form
equals the one-pass form (the law: for real data a cube by two products is sign times the third power of the magnitude,
zero-padded examples contribute nothing to either total, a sum taken tile by tile is the sum, and dividing the total by a
positive real is dividing every term), which is what the reference computes.
-/

noncomputable section

namespace Cert.KernelIdeal.Val

open Cert.KernelIdeal Cert.KernelIdeal.Gen Cert.KernelIdeal.Data EchoSpec
open Idealize.ShloMosaic Idealize.ShloMosaic.TcCoe Idealize.ShloMosaic.ValueIdx
open Idealize.SL Idealize.SL.Sem

variable (m : (ℓ : Loc nD τ sig) → Buf (Elt Ideal) ℓ)

/-- The accumulating region's output array, over the argument arrays and the host's two arrays. -/
theorem X2_eq (c : Dev nD) :
    Records.X2 m c = G2 (G0 (m ((c : Thread nD τ).loc main_arg0)) (m ((c : Thread nD τ).loc main_arg1)))
      (G1 (V7 m c main_v0) (m ((c : Thread nD τ).loc main_arg1))) (V7 m c main_v11) := by
  unfold Records.X2
  rw [final2 (Records.W9 m) c]
  show G2 (Records.W9 m c main_v12) (Records.W9 m c main_v13) (Records.W9 m c main_v11) = _
  rw [Records.W9_main_v12, Records.W9_main_v13, Records.W9_main_v11]
  unfold Records.X0 Records.X1
  rw [final0 (fun c => V7 m c) c, final1 (Records.W8 m) c]
  show G2 (G0 (V7 m c main_arg0) (V7 m c main_arg1)) (G1 (Records.W8 m c main_v0) (Records.W8 m c main_arg1)) _ = _
  rw [Records.W8_main_v0, Records.W8_main_arg1, Host.V7_main_arg0, Host.V7_main_arg1]

/-- THE VALUE: under the precondition the kernel program's sliced result is the reference's result function of the
    argument arrays. -/
theorem kernel_value (hpre : Cert.Pre_KernelIdeal m) (c : Dev nD) :
    extractStridedSlice S4096x100 ![0, 0] (Records.X2 m c) Cert.KernelIdeal.Facts₀.slices_S4096x128_S4096x100_0_0
      = Cert.ReferenceIdeal.RefValue.refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  obtain ⟨hx0, hx1, hx2, hx3, hx4⟩ := Cert.ReferenceIdeal.RefValue.pre_real _ _ _ _ _ (hpre c)
  have hl : (i 1).val < 100 := (i 1).isLt
  rw [extractStridedSlice_apply ![0, 0] (Records.X2 m c) Cert.KernelIdeal.Facts₀.slices_S4096x128_S4096x100_0_0 i
    (ix2 (i 0) ⟨(i 1).val, by omega⟩) (fun a => by
      match a with
      | ⟨0, _⟩ => show (i 0).val = 0 + (i 0).val; omega
      | ⟨1, _⟩ => show (i 1).val = 0 + (i 1).val; omega)]
  rw [X2_eq m c, kernel_form _ _ _ _ (nat2 (m ((c.tc : Thread nD τ).loc main_arg2))) (nat2 (m ((c.tc : Thread nD τ).loc main_arg3)))
    (nat2 (m ((c.tc : Thread nD τ).loc main_arg4))) (Host.V7_main_v0_nat2 m c) (Host.V7_main_v11_nat2 m c) (i 0) ⟨(i 1).val, by omega⟩ hl]
  unfold Cert.ReferenceIdeal.RefValue.refOut
  exact kernelForm_eq_refForm 512 512 100 1024 20 20000 _ _ _ _ _ _ _ _ _ (by norm_num) (by norm_num)
    Cert.ReferenceIdeal.RefValue.eps_pos Cert.ReferenceIdeal.RefValue.three_eq
    (nat2_real _ hx0) (nat2_real _ hx1) (nat2_real _ hx2) (nat2_real _ hx3) (nat2_real _ hx4)
    (fun j hj k => nat2_of_not _ _ _ (fun h => by omega)) (fun j hj k => nat2_of_not _ _ _ (fun h => by omega))

end Cert.KernelIdeal.Val

end
-- ==== Proof.lean ====
/- The proof of `Cert.Claim`: the kernel and the reference compute the same array over the extended reals.

   Both programs take query rows, a weight matrix, example rows, example class scores and class rows. Each projects the
   query rows and the example rows by the weight matrix, scales every projected row to unit Euclidean length (the divisor
   kept at least eps), takes the inner product of every query row with every example row, passes it through an odd cube,
   scales each query's cubes to unit absolute sum (divisor at least eps), and averages with these weights the examples'
   class rows (each row of scores first scaled to unit absolute sum and contracted with the class rows).

   The kernel pads the example rows with zero rows, runs three tiled regions — the two projections with the row scaling,
   then, tile of examples by tile, the cubes by two products with the absolute sum and the weighted class rows accumulated
   from zero — divides once at a row tile's last step, and slices the padding off. The reference takes sign times the third
   power of the magnitude, divides every weight by the absolute sum first and contracts once.

   The law that joins them: a zero example row has zero inner product with every query row, so the padded tiles' sums stop
   at the true number of examples; and division by one fixed real distributes over a finite sum. Both hold of real
   numbers, not of the extended reals: the precondition that every argument entry is finite is what makes every
   intermediate value the image of a real number, and it is used there and nowhere else.

   The frame claims need no values: each program, as a list of host stretches and kernel regions, runs to the end and
   hands back every argument array untouched, at the bit-exact reading and over the extended reals alike. -/
import proofs.«146975_j56152402427977_2_alg».proof.Defs
import proofs.«146975_j56152402427977_2_alg».proof.Proof.ClaimsI
import proofs.«146975_j56152402427977_2_alg».proof.Proof.ValueI

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic Cert.KernelIdeal.Val.kernel_value⟩

end Cert.Proof

end
